-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8x4096x16 .f32) (main_arg5 : FVec F S8192 .f32) (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  let main_v19 : FVec F S8x4096x16 .f32 := Host.absf main_arg4
  let main_cst_6 : FVec F S_ .f32 := constant S_ .f32 0x7F800000#32
  let main_v20 : FVec F S8x4096x16 .f32 := broadcastInDim S8x4096x16 ![] bcast_S_S8x4096x16 main_cst_6
  let main_v21 : IVec S8x4096x16 1 := cmpf .olt main_v19 main_v20
  let main_c_7 : IVec S_ 1 := constantI S_ 1 1#1
  let main_v22 : IVec S_ 1 := (fun x v => Host.reduce IntOp.andi x v reducesTo_S8x4096x16_S_d0_1_2 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S8192x4096 .f32) (main_arg1 : FVec F S4096x4096 .f32) (main_arg2 : FVec F S4096 .f32) (main_arg3 : FVec F S8x16x4096 .f32) (main_arg4 : FVec F S8x4096x16 .f32) (main_arg5 : FVec F S8192 .f32) (main_arg6 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8192 : Shape := ⟨1, ![8192]⟩
abbrev S4096x8x16 : Shape := ⟨3, ![4096, 8, 16]⟩
abbrev S4096x128 : Shape := ⟨2, ![4096, 128]⟩
abbrev S128x4096 : Shape := ⟨2, ![128, 4096]⟩
abbrev S1x4096 : Shape := ⟨2, ![1, 4096]⟩
abbrev S8192x1 : Shape := ⟨2, ![8192, 1]⟩
abbrev S2048x1024 : Shape := ⟨2, ![2048, 1024]⟩
abbrev S1024x1024 : Shape := ⟨2, ![1024, 1024]⟩
abbrev S1024x128 : Shape := ⟨2, ![1024, 128]⟩
abbrev S128x1024 : Shape := ⟨2, ![128, 1024]⟩
abbrev S1x1024 : Shape := ⟨2, ![1, 1024]⟩
abbrev S2048x1 : Shape := ⟨2, ![2048, 1]⟩
abbrev S2048x128 : Shape := ⟨2, ![2048, 128]⟩

abbrev nBuf : Space → Nat
  | .hbm => 19
  | .vmem => 19
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8x16x4096, .f32⟩
  | .hbm, ⟨4, _⟩ => ⟨S8x4096x16, .f32⟩
  | .hbm, ⟨5, _⟩ => ⟨S8192, .f32⟩
  | .hbm, ⟨6, _⟩ => ⟨S8192, .i32⟩
  | .hbm, ⟨7, _⟩ => ⟨S4096x8x16, .f32⟩
  | .hbm, ⟨8, _⟩ => ⟨S4096x128, .f32⟩
  | .hbm, ⟨9, _⟩ => ⟨S4096x128, .bf16⟩
  | .hbm, ⟨10, _⟩ => ⟨S8x16x4096, .f32⟩
  | .hbm, ⟨11, _⟩ => ⟨S128x4096, .f32⟩
  | .hbm, ⟨12, _⟩ => ⟨S128x4096, .bf16⟩
  | .hbm, ⟨13, _⟩ => ⟨S1x4096, .f32⟩
  | .hbm, ⟨14, _⟩ => ⟨S8192x1, .i32⟩
  | .hbm, ⟨15, _⟩ => ⟨S8192x1, .f32⟩
  | .hbm, ⟨16, _⟩ => ⟨S8192x4096, .bf16⟩
  | .hbm, ⟨17, _⟩ => ⟨S4096x4096, .bf16⟩
  | .hbm, ⟨18, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S128x1024, .bf16⟩
  | .local _ .vmem, ⟨8, _⟩ => ⟨S1x1024, .f32⟩
  | .local _ .vmem, ⟨9, _⟩ => ⟨S1x1024, .f32⟩
  | .local _ .vmem, ⟨10, _⟩ => ⟨S2048x1, .i32⟩
  | .local _ .vmem, ⟨11, _⟩ => ⟨S2048x1, .i32⟩
  | .local _ .vmem, ⟨12, _⟩ => ⟨S2048x1, .f32⟩
  | .local _ .vmem, ⟨13, _⟩ => ⟨S2048x1, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | .local _ .vmem, ⟨17, _⟩ => ⟨S2048x128, .f32⟩
  | .local _ .vmem, ⟨18, _⟩ => ⟨S2048x128, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 4], ![false, false, false]⟩

def k0_cond5 (i : grid0.Coords) : BitVec 1 :=
  let arg2 : BitVec 32 := BitVec.ofNat 32 (i 2).val
  let c3_i32_15 : BitVec 32 := 3#32
  let v26 : BitVec 1 := Scalar.cmpi .eq arg2 c3_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  transposes_S8x16x4096_S4096x8x16_2_0_1 : S8x16x4096.Transposes [2, 0, 1] S4096x8x16
  shapeCasts_S4096x8x16_S4096x128 : S4096x8x16.ShapeCasts S4096x128
  bitsLt_bf16_f32 : FTy.bits .bf16 < FTy.bits .f32
  transposes_S8x4096x16_S8x16x4096_0_2_1 : S8x4096x16.Transposes [0, 2, 1] S8x16x4096
  shapeCasts_S8x16x4096_S128x4096 : S8x16x4096.ShapeCasts S128x4096
  shapeCasts_S4096_S1x4096 : S4096.ShapeCasts S1x4096
  shapeCasts_S8192_S8192x1 : S8192.ShapeCasts S8192x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S2048x128_d1_w32 : S2048x128.Iotas .tc 32 [1]
  natLt_1_32 : 1 < 32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  packedbf16_S2048x128_S2048x128_0_0 : (Rect.unit (s := S2048x128) ![0, 0] S2048x128.size inb_S2048x128_S2048x128_0_0).PackedRows (EltTy.packing .bf16)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_0_0_1_n_n_wf : DotDims.WF S2048x1024 S1024x1024 S2048x1024 [1] [0] [0] [1] [] []
  dot_S2048x1024_S1024x128_S2048x128_1_0_0_1_n_n_wf : DotDims.WF S2048x1024 S1024x128 S2048x128 [1] [0] [0] [1] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .bf16 = 32 ∨ (Rect.block (s := S4096x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .bf16 = 32 ∨ (Rect.block (s := S128x4096) S128x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .i32 = 32 ∨ (Rect.block (s := S8192x1) S2048x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S8192x1.size a
  hwx0_6 : ∀ i : grid0.Coords, EltTy.bits .f32 = 32 ∨ (Rect.block (s := S8192x1) S2048x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1024.size a ≤ S8192x4096.size a
  hwx0_7 : ∀ i : grid0.Coords, EltTy.bits .f32 = 32 ∨ (Rect.block (s := S8192x4096) S2048x1024.size (cc0_transform_7 i) (hinb0_7 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v9) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S2048x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond5 i == 1#1) | ⟨_ + 8, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S8x16x4096 : Shape := ⟨3, ![8, 16, 4096]⟩
abbrev S8x4096x16 : Shape := ⟨3, ![8, 4096, 16]⟩
abbrev S8192 : Shape := ⟨1, ![8192]⟩
abbrev S1x4096 : Shape := ⟨2, ![1, 4096]⟩
abbrev S_ : Shape := ⟨0, ![]⟩
abbrev S1x16x4096 : Shape := ⟨3, ![1, 16, 4096]⟩
abbrev S16x4096 : Shape := ⟨2, ![16, 4096]⟩
abbrev S4096x16 : Shape := ⟨2, ![4096, 16]⟩
abbrev S8192x16 : Shape := ⟨2, ![8192, 16]⟩
abbrev S8192x1 : Shape := ⟨2, ![8192, 1]⟩
abbrev S1x4096x16 : Shape := ⟨3, ![1, 4096, 16]⟩

abbrev nBuf : Space → Nat
  | .hbm => 182
  | .vmem => 0
  | .smem => 0
  | _ => 0

abbrev hbmTy0_0 (i : Nat) : BufTy := match i % 128 with
  | 0 => ⟨S8192x4096, .f32⟩
  | 1 => ⟨S4096x4096, .f32⟩
  | 2 => ⟨S4096, .f32⟩
  | 3 => ⟨S8x16x4096, .f32⟩
  | 4 => ⟨S8x4096x16, .f32⟩
  | 5 => ⟨S8192, .f32⟩
  | 6 => ⟨S8192, .i32⟩
  | 7 => ⟨S8192x4096, .f32⟩
  | 8 => ⟨S1x4096, .f32⟩
  | 9 => ⟨S8192x4096, .f32⟩
  | 10 => ⟨S8192x4096, .f32⟩
  | 11 => ⟨S_, .f32⟩
  | 12 => ⟨S8192x4096, .f32⟩
  | 13 => ⟨S1x16x4096, .f32⟩
  | 14 => ⟨S16x4096, .f32⟩
  | 15 => ⟨S4096x16, .f32⟩
  | 16 => ⟨S8192x16, .f32⟩
  | 17 => ⟨S8192x1, .f32⟩
  | 18 => ⟨S8192x16, .f32⟩
  | 19 => ⟨S8192x16, .f32⟩
  | 20 => ⟨S1x4096x16, .f32⟩
  | 21 => ⟨S4096x16, .f32⟩
  | 22 => ⟨S16x4096, .f32⟩
  | 23 => ⟨S8192x4096, .f32⟩
  | 24 => ⟨S_, .i32⟩
  | 25 => ⟨S8192, .i32⟩
  | 26 => ⟨S8192, .i1⟩
  | 27 => ⟨S8192x1, .i1⟩
  | 28 => ⟨S_, .f32⟩
  | 29 => ⟨S_, .f32⟩
  | 30 => ⟨S8192x4096, .i1⟩
  | 31 => ⟨S8192x4096, .f32⟩
  | 32 => ⟨S8192x4096, .f32⟩
  | 33 => ⟨S8192x4096, .f32⟩
  | 34 => ⟨S1x16x4096, .f32⟩
  | 35 => ⟨S16x4096, .f32⟩
  | 36 => ⟨S4096x16, .f32⟩
  | 37 => ⟨S8192x16, .f32⟩
  | 38 => ⟨S8192x1, .f32⟩
  | 39 => ⟨S8192x16, .f32⟩
  | 40 => ⟨S8192x16, .f32⟩
  | 41 => ⟨S1x4096x16, .f32⟩
  | 42 => ⟨S4096x16, .f32⟩
  | 43 => ⟨S16x4096, .f32⟩
  | 44 => ⟨S8192x4096, .f32⟩
  | 45 => ⟨S_, .i32⟩
  | 46 => ⟨S8192, .i32⟩
  | 47 => ⟨S8192, .i1⟩
  | 48 => ⟨S8192x1, .i1⟩
  | 49 => ⟨S_, .f32⟩
  | 50 => ⟨S_, .f32⟩
  | 51 => ⟨S8192x4096, .i1⟩
  | 52 => ⟨S8192x4096, .f32⟩
  | 53 => ⟨S8192x4096, .f32⟩
  | 54 => ⟨S8192x4096, .f32⟩
  | 55 => ⟨S1x16x4096, .f32⟩
  | 56 => ⟨S16x4096, .f32⟩
  | 57 => ⟨S4096x16, .f32⟩
  | 58 => ⟨S8192x16, .f32⟩
  | 59 => ⟨S8192x1, .f32⟩
  | 60 => ⟨S8192x16, .f32⟩
  | 61 => ⟨S8192x16, .f32⟩
  | 62 => ⟨S1x4096x16, .f32⟩
  | 63 => ⟨S4096x16, .f32⟩
  | 64 => ⟨S16x4096, .f32⟩
  | 65 => ⟨S8192x4096, .f32⟩
  | 66 => ⟨S_, .i32⟩
  | 67 => ⟨S8192, .i32⟩
  | 68 => ⟨S8192, .i1⟩
  | 69 => ⟨S8192x1, .i1⟩
  | 70 => ⟨S_, .f32⟩
  | 71 => ⟨S_, .f32⟩
  | 72 => ⟨S8192x4096, .i1⟩
  | 73 => ⟨S8192x4096, .f32⟩
  | 74 => ⟨S8192x4096, .f32⟩
  | 75 => ⟨S8192x4096, .f32⟩
  | 76 => ⟨S1x16x4096, .f32⟩
  | 77 => ⟨S16x4096, .f32⟩
  | 78 => ⟨S4096x16, .f32⟩
  | 79 => ⟨S8192x16, .f32⟩
  | 80 => ⟨S8192x1, .f32⟩
  | 81 => ⟨S8192x16, .f32⟩
  | 82 => ⟨S8192x16, .f32⟩
  | 83 => ⟨S1x4096x16, .f32⟩
  | 84 => ⟨S4096x16, .f32⟩
  | 85 => ⟨S16x4096, .f32⟩
  | 86 => ⟨S8192x4096, .f32⟩
  | 87 => ⟨S_, .i32⟩
  | 88 => ⟨S8192, .i32⟩
  | 89 => ⟨S8192, .i1⟩
  | 90 => ⟨S8192x1, .i1⟩
  | 91 => ⟨S_, .f32⟩
  | 92 => ⟨S_, .f32⟩
  | 93 => ⟨S8192x4096, .i1⟩
  | 94 => ⟨S8192x4096, .f32⟩
  | 95 => ⟨S8192x4096, .f32⟩
  | 96 => ⟨S8192x4096, .f32⟩
  | 97 => ⟨S1x16x4096, .f32⟩
  | 98 => ⟨S16x4096, .f32⟩
  | 99 => ⟨S4096x16, .f32⟩
  | 100 => ⟨S8192x16, .f32⟩
  | 101 => ⟨S8192x1, .f32⟩
  | 102 => ⟨S8192x16, .f32⟩
  | 103 => ⟨S8192x16, .f32⟩
  | 104 => ⟨S1x4096x16, .f32⟩
  | 105 => ⟨S4096x16, .f32⟩
  | 106 => ⟨S16x4096, .f32⟩
  | 107 => ⟨S8192x4096, .f32⟩
  | 108 => ⟨S_, .i32⟩
  | 109 => ⟨S8192, .i32⟩
  | 110 => ⟨S8192, .i1⟩
  | 111 => ⟨S8192x1, .i1⟩
  | 112 => ⟨S_, .f32⟩
  | 113 => ⟨S_, .f32⟩
  | 114 => ⟨S8192x4096, .i1⟩
  | 115 => ⟨S8192x4096, .f32⟩
  | 116 => ⟨S8192x4096, .f32⟩
  | 117 => ⟨S8192x4096, .f32⟩
  | 118 => ⟨S1x16x4096, .f32⟩
  | 119 => ⟨S16x4096, .f32⟩
  | 120 => ⟨S4096x16, .f32⟩
  | 121 => ⟨S8192x16, .f32⟩
  | 122 => ⟨S8192x1, .f32⟩
  | 123 => ⟨S8192x16, .f32⟩
  | 124 => ⟨S8192x16, .f32⟩
  | 125 => ⟨S1x4096x16, .f32⟩
  | 126 => ⟨S4096x16, .f32⟩
  | 127 => ⟨S16x4096, .f32⟩
  | _ => ⟨S8192x4096, .f32⟩

abbrev hbmTy0_1 (i : Nat) : BufTy := match i % 128 with
  | 0 => ⟨S8192x4096, .f32⟩
  | 1 => ⟨S_, .i32⟩
  | 2 => ⟨S8192, .i32⟩
  | 3 => ⟨S8192, .i1⟩
  | 4 => ⟨S8192x1, .i1⟩
  | 5 => ⟨S_, .f32⟩
  | 6 => ⟨S_, .f32⟩
  | 7 => ⟨S8192x4096, .i1⟩
  | 8 => ⟨S8192x4096, .f32⟩
  | 9 => ⟨S8192x4096, .f32⟩
  | 10 => ⟨S8192x4096, .f32⟩
  | 11 => ⟨S1x16x4096, .f32⟩
  | 12 => ⟨S16x4096, .f32⟩
  | 13 => ⟨S4096x16, .f32⟩
  | 14 => ⟨S8192x16, .f32⟩
  | 15 => ⟨S8192x1, .f32⟩
  | 16 => ⟨S8192x16, .f32⟩
  | 17 => ⟨S8192x16, .f32⟩
  | 18 => ⟨S1x4096x16, .f32⟩
  | 19 => ⟨S4096x16, .f32⟩
  | 20 => ⟨S16x4096, .f32⟩
  | 21 => ⟨S8192x4096, .f32⟩
  | 22 => ⟨S_, .i32⟩
  | 23 => ⟨S8192, .i32⟩
  | 24 => ⟨S8192, .i1⟩
  | 25 => ⟨S8192x1, .i1⟩
  | 26 => ⟨S_, .f32⟩
  | 27 => ⟨S_, .f32⟩
  | 28 => ⟨S8192x4096, .i1⟩
  | 29 => ⟨S8192x4096, .f32⟩
  | 30 => ⟨S8192x4096, .f32⟩
  | 31 => ⟨S8192x4096, .f32⟩
  | 32 => ⟨S1x16x4096, .f32⟩
  | 33 => ⟨S16x4096, .f32⟩
  | 34 => ⟨S4096x16, .f32⟩
  | 35 => ⟨S8192x16, .f32⟩
  | 36 => ⟨S8192x1, .f32⟩
  | 37 => ⟨S8192x16, .f32⟩
  | 38 => ⟨S8192x16, .f32⟩
  | 39 => ⟨S1x4096x16, .f32⟩
  | 40 => ⟨S4096x16, .f32⟩
  | 41 => ⟨S16x4096, .f32⟩
  | 42 => ⟨S8192x4096, .f32⟩
  | 43 => ⟨S_, .i32⟩
  | 44 => ⟨S8192, .i32⟩
  | 45 => ⟨S8192, .i1⟩
  | 46 => ⟨S8192x1, .i1⟩
  | 47 => ⟨S_, .f32⟩
  | 48 => ⟨S_, .f32⟩
  | 49 => ⟨S8192x4096, .i1⟩
  | 50 => ⟨S8192x4096, .f32⟩
  | 51 => ⟨S8192x4096, .f32⟩
  | 52 => ⟨S8192x4096, .f32⟩
  | 53 => ⟨S8192x4096, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_3 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_6 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_7 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_8 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_9 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_10 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_c_11 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_12 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_13 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_14 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  slices_S8x16x4096_S1x16x4096_0_0_0 : S8x16x4096.Slices ![0, 0, 0] S1x16x4096
  shapeCasts_S1x16x4096_S16x4096 : S1x16x4096.ShapeCasts S16x4096
  transposes_S16x4096_S4096x16_1_0 : S16x4096.Transposes [1, 0] S4096x16
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  slices_S8x4096x16_S1x4096x16_0_0_0 : S8x4096x16.Slices ![0, 0, 0] S1x4096x16
  shapeCasts_S1x4096x16_S4096x16 : S1x4096x16.ShapeCasts S4096x16
  transposes_S4096x16_S16x4096_1_0 : S4096x16.Transposes [1, 0] S16x4096
  bcast_S_S8192 : S_.BroadcastsInDim S8192 (![] : Fin 0 → Fin S8192.rank)
  bcast_S8192x1_S8192x4096_0_1 : S8192x1.BroadcastsInDim S8192x4096 (![0, 1] : Fin 2 → Fin S8192x4096.rank)
  slices_S8x16x4096_S1x16x4096_1_0_0 : S8x16x4096.Slices ![1, 0, 0] S1x16x4096
  slices_S8x4096x16_S1x4096x16_1_0_0 : S8x4096x16.Slices ![1, 0, 0] S1x4096x16
  slices_S8x16x4096_S1x16x4096_2_0_0 : S8x16x4096.Slices ![2, 0, 0] S1x16x4096
  slices_S8x4096x16_S1x4096x16_2_0_0 : S8x4096x16.Slices ![2, 0, 0] S1x4096x16
  slices_S8x16x4096_S1x16x4096_3_0_0 : S8x16x4096.Slices ![3, 0, 0] S1x16x4096
  slices_S8x4096x16_S1x4096x16_3_0_0 : S8x4096x16.Slices ![3, 0, 0] S1x4096x16
  slices_S8x16x4096_S1x16x4096_4_0_0 : S8x16x4096.Slices ![4, 0, 0] S1x16x4096
  slices_S8x4096x16_S1x4096x16_4_0_0 : S8x4096x16.Slices ![4, 0, 0] S1x4096x16
  slices_S8x16x4096_S1x16x4096_5_0_0 : S8x16x4096.Slices ![5, 0, 0] S1x16x4096
  slices_S8x4096x16_S1x4096x16_5_0_0 : S8x4096x16.Slices ![5, 0, 0] S1x4096x16
  slices_S8x16x4096_S1x16x4096_6_0_0 : S8x16x4096.Slices ![6, 0, 0] S1x16x4096
  slices_S8x4096x16_S1x4096x16_6_0_0 : S8x4096x16.Slices ![6, 0, 0] S1x4096x16
  slices_S8x16x4096_S1x16x4096_7_0_0 : S8x16x4096.Slices ![7, 0, 0] S1x16x4096
  slices_S8x4096x16_S1x4096x16_7_0_0 : S8x4096x16.Slices ![7, 0, 0] S1x4096x16
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.K.Guards.lean ====
import proofs.«151416_j8899172237474_2_alg».proof.Proof.Gen.Kernel.Frame
import proofs.«151416_j8899172237474_2_alg».proof.Proof.Gen.Kernel.Skeleton
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The five guards of the body, as the body computes them from the grid coordinates `(i, j, k)`:
    `k = 0`; `j = 0 ∧ k = 0`; `j = 0`; `j = 0 ∧ k = 3`; `k = 3`. -/
abbrev cK0 (i : grid0.Coords) : Prop := Scalar.cmpi .ne (Scalar.extui (Scalar.cmpi .eq (BitVec.ofNat 32 (i 2).val) 0#32)) 0#32 = 1#1
abbrev cJK0 (i : grid0.Coords) : Prop := Scalar.cmpi .ne (Scalar.extui (Scalar.andi (Scalar.cmpi .eq (BitVec.ofNat 32 (i 1).val) 0#32) (Scalar.cmpi .eq (BitVec.ofNat 32 (i 2).val) 0#32))) 0#32 = 1#1
abbrev cJ0 (i : grid0.Coords) : Prop := Scalar.cmpi .ne (Scalar.extui (Scalar.cmpi .eq (BitVec.ofNat 32 (i 1).val) 0#32)) 0#32 = 1#1
abbrev cJK3 (i : grid0.Coords) : Prop := Scalar.cmpi .ne (Scalar.extui (Scalar.andi (Scalar.cmpi .eq (BitVec.ofNat 32 (i 1).val) 0#32) (Scalar.cmpi .eq (BitVec.ofNat 32 (i 2).val) 3#32))) 0#32 = 1#1
abbrev cK3 (i : grid0.Coords) : Prop := k0_cond5 i = 1#1

/-- The whole-buffer rectangle's offsets are zero. -/
theorem hz00 : (![0, 0] : Fin 2 → Nat) = fun _ => 0 := funext fun a => by fin_cases a <;> rfl

/-- After a last store through the whole-buffer rectangle a buffer reads as that store's payload, whatever it held and
    whatever was stored before. -/
theorem read_writes_unit_zero {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-- What whole-buffer stores leave reads back as the last payload; a whole-buffer load reads the contents, and after a
    whole-buffer store it reads that store's payload. -/
macro "stored_eq" : tactic => `(tactic| (
  sl_unfold_words
  first | rw [read_writes_unit_zero (S := S2048x1024) _ _ hz00] | rw [read_writes_unit_zero (S := S2048x128) _ _ hz00]
  simp only [View.readCov_unit_zero (S := S2048x1024) _ hz00, View.readCov_unit_zero (S := S2048x128) _ hz00, View.readAt_eq_ld, View.ld_unit_zero (S := S2048x1024) hz00, View.ld_unit_zero (S := S1024x1024) hz00, View.ld_unit_zero (S := S1024x128) hz00, View.ld_unit_zero (S := S128x1024) hz00, View.ld_unit_zero (S := S1x1024) hz00, View.ld_unit_zero (S := S2048x1) hz00, View.ld_unit_zero (S := S2048x128) hz00]))

end Cert.Kernel.Gen

end
-- ==== Proof.K.Data.lean ====
import proofs.«151416_j8899172237474_2_alg».proof.Proof.K.Guards

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards over the grid

Point `t` of the 4 × 4 × 4 grid has coordinates `(i, j, k) = (t / 16, (t / 4) % 4, t % 4)`, `k` innermost. -/

theorem hK0 : ∀ t : Fin cfg0.N, cK0 (grid0.coords t) ↔ t.val % 4 = 0 :=
  (by decide +kernel : ∀ t : Fin grid0.N, cK0 (grid0.coords t) ↔ t.val % 4 = 0)
theorem hJK0 : ∀ t : Fin cfg0.N, cJK0 (grid0.coords t) ↔ ((t.val / 4) % 4 = 0 ∧ t.val % 4 = 0) :=
  (by decide +kernel : ∀ t : Fin grid0.N, cJK0 (grid0.coords t) ↔ ((t.val / 4) % 4 = 0 ∧ t.val % 4 = 0))
theorem hJ0 : ∀ t : Fin cfg0.N, cJ0 (grid0.coords t) ↔ (t.val / 4) % 4 = 0 :=
  (by decide +kernel : ∀ t : Fin grid0.N, cJ0 (grid0.coords t) ↔ (t.val / 4) % 4 = 0)
theorem hJK3 : ∀ t : Fin cfg0.N, cJK3 (grid0.coords t) ↔ ((t.val / 4) % 4 = 0 ∧ t.val % 4 = 3) :=
  (by decide +kernel : ∀ t : Fin grid0.N, cJK3 (grid0.coords t) ↔ ((t.val / 4) % 4 = 0 ∧ t.val % 4 = 3))
theorem hK3 : ∀ t : Fin cfg0.N, cK3 (grid0.coords t) ↔ t.val % 4 = 3 :=
  (by decide +kernel : ∀ t : Fin grid0.N, cK3 (grid0.coords t) ↔ t.val % 4 = 3)

/-- The output window is written only where `k = 3`; elsewhere it is idle and not written back. -/
theorem idle7 : ∀ t : Fin cfg0.N, ¬t.val % 4 = 3 → cfg0.idle 7 (grid0.coords t) = true := by decide +kernel
theorem live7 : ∀ t : Fin cfg0.N, t.val % 4 = 3 → cfg0.idle 7 (grid0.coords t) = false := by decide +kernel
theorem noFlush7 : ∀ t : Fin cfg0.N, ¬t.val % 4 = 3 → (cfg0.win 7).flush t = false := by decide +kernel

/-! ## The buffers -/

/-- The three scratch buffers: the base accumulator, the rank-128 accumulator, and its masked, scaled copy. -/
abbrev scB : Memref sig .tc .vmem S2048x1024 .f32 := Memref.whole cc0_scratch0
abbrev scA : Memref sig .tc .vmem S2048x128 .f32 := Memref.whole cc0_scratch1
abbrev scM : Memref sig .tc .vmem S2048x128 .bf16 := Memref.whole cc0_scratch2

/-- The input blocks at point `t`: rows of `x`, of the weight, of the combined `A`, of the combined `B`, of the bias,
    of the token indices and of the scalings. -/
abbrev bX (c : Dev nD) (t : Fin cfg0.N) : Vec F S2048x1024 .bf16 := iblk m c 0 t
abbrev bW (c : Dev nD) (t : Fin cfg0.N) : Vec F S1024x1024 .bf16 := iblk m c 1 t
abbrev bA (c : Dev nD) (t : Fin cfg0.N) : Vec F S1024x128 .bf16 := iblk m c 2 t
abbrev bB (c : Dev nD) (t : Fin cfg0.N) : Vec F S128x1024 .bf16 := iblk m c 3 t
abbrev bBias (c : Dev nD) (t : Fin cfg0.N) : Vec F S1x1024 .f32 := iblk m c 4 t
abbrev bTok (c : Dev nD) (t : Fin cfg0.N) : Vec F S2048x1 .i32 := iblk m c 5 t
abbrev bScal (c : Dev nD) (t : Fin cfg0.N) : Vec F S2048x1 .f32 := iblk m c 6 t

/-! ## What the body carries from point to point -/

/-- The base accumulator, the rank-128 accumulator, its masked copy, and the output block, in that order. -/
abbrev St (F : FTy → Type) [FloatOps F] : Type :=
  Vec F S2048x1024 .f32 × Vec F S2048x128 .f32 × Vec F S2048x128 .bf16 × Vec F S2048x1024 .f32

/-- One grid point: the base accumulator restarts at `k = 0` and always adds the point's product; the rank-128
    accumulator restarts at `j = 0, k = 0` and adds its product while `j = 0`; the masked copy is taken at
    `j = 0, k = 3`; the output block is formed at `k = 3`. -/
def stepAt (c : Dev nD) (t : Fin cfg0.N) (s : St F) : St F :=
  if (t.val / 4) % 4 = 0 then
    if t.val % 4 = 0 then
      (k0_pay4 (bX m c t) (bW m c t) k0_pay1, k0_pay5 (bX m c t) k0_pay2 (bA m c t), s.2.2.1, s.2.2.2)
    else if t.val % 4 = 3 then
      (k0_pay4 (bX m c t) (bW m c t) s.1, k0_pay5 (bX m c t) s.2.1 (bA m c t),
        k0_pay6 (bTok m c t) (bScal m c t) (k0_pay5 (bX m c t) s.2.1 (bA m c t)),
        k0_pay7 (k0_pay6 (bTok m c t) (bScal m c t) (k0_pay5 (bX m c t) s.2.1 (bA m c t))) (bB m c t)
          (k0_pay4 (bX m c t) (bW m c t) s.1) (bBias m c t))
    else
      (k0_pay4 (bX m c t) (bW m c t) s.1, k0_pay5 (bX m c t) s.2.1 (bA m c t), s.2.2.1, s.2.2.2)
  else
    if t.val % 4 = 0 then
      (k0_pay4 (bX m c t) (bW m c t) k0_pay1, s.2.1, s.2.2.1, s.2.2.2)
    else if t.val % 4 = 3 then
      (k0_pay4 (bX m c t) (bW m c t) s.1, s.2.1, s.2.2.1,
        k0_pay7 s.2.2.1 (bB m c t) (k0_pay4 (bX m c t) (bW m c t) s.1) (bBias m c t))
    else
      (k0_pay4 (bX m c t) (bW m c t) s.1, s.2.1, s.2.2.1, s.2.2.2)

/-! ### One point, case by case -/

theorem stepAt_A (c : Dev nD) (t : Fin cfg0.N) (s : St F) (hj : (t.val / 4) % 4 = 0) (hk0 : t.val % 4 = 0) :
    stepAt m c t s = (k0_pay4 (bX m c t) (bW m c t) k0_pay1, k0_pay5 (bX m c t) k0_pay2 (bA m c t), s.2.2.1, s.2.2.2) := by
  unfold stepAt; rw [if_pos hj, if_pos hk0]
theorem stepAt_B (c : Dev nD) (t : Fin cfg0.N) (s : St F) (hj : (t.val / 4) % 4 = 0) (hk0 : ¬t.val % 4 = 0) (hk3 : ¬t.val % 4 = 3) :
    stepAt m c t s = (k0_pay4 (bX m c t) (bW m c t) s.1, k0_pay5 (bX m c t) s.2.1 (bA m c t), s.2.2.1, s.2.2.2) := by
  unfold stepAt; rw [if_pos hj, if_neg hk0, if_neg hk3]
theorem stepAt_C (c : Dev nD) (t : Fin cfg0.N) (s : St F) (hj : (t.val / 4) % 4 = 0) (hk3 : t.val % 4 = 3) :
    stepAt m c t s = (k0_pay4 (bX m c t) (bW m c t) s.1, k0_pay5 (bX m c t) s.2.1 (bA m c t),
        k0_pay6 (bTok m c t) (bScal m c t) (k0_pay5 (bX m c t) s.2.1 (bA m c t)),
        k0_pay7 (k0_pay6 (bTok m c t) (bScal m c t) (k0_pay5 (bX m c t) s.2.1 (bA m c t))) (bB m c t)
          (k0_pay4 (bX m c t) (bW m c t) s.1) (bBias m c t)) := by
  unfold stepAt; rw [if_pos hj, if_neg (by omega : ¬t.val % 4 = 0), if_pos hk3]
theorem stepAt_D (c : Dev nD) (t : Fin cfg0.N) (s : St F) (hj : ¬(t.val / 4) % 4 = 0) (hk0 : t.val % 4 = 0) :
    stepAt m c t s = (k0_pay4 (bX m c t) (bW m c t) k0_pay1, s.2.1, s.2.2.1, s.2.2.2) := by
  unfold stepAt; rw [if_neg hj, if_pos hk0]
theorem stepAt_E (c : Dev nD) (t : Fin cfg0.N) (s : St F) (hj : ¬(t.val / 4) % 4 = 0) (hk0 : ¬t.val % 4 = 0) (hk3 : ¬t.val % 4 = 3) :
    stepAt m c t s = (k0_pay4 (bX m c t) (bW m c t) s.1, s.2.1, s.2.2.1, s.2.2.2) := by
  unfold stepAt; rw [if_neg hj, if_neg hk0, if_neg hk3]
theorem stepAt_F (c : Dev nD) (t : Fin cfg0.N) (s : St F) (hj : ¬(t.val / 4) % 4 = 0) (hk3 : t.val % 4 = 3) :
    stepAt m c t s = (k0_pay4 (bX m c t) (bW m c t) s.1, s.2.1, s.2.2.1,
        k0_pay7 s.2.2.1 (bB m c t) (k0_pay4 (bX m c t) (bW m c t) s.1) (bBias m c t)) := by
  unfold stepAt; rw [if_neg hj, if_neg (by omega : ¬t.val % 4 = 0), if_pos hk3]

/-- The carried state BEFORE point `n` (after point `n - 1`); before the first point nothing is known of it. -/
def stN (c : Dev nD) : ℕ → St F
  | 0 => (fun _ => Classical.choice (Elt.nonempty F _), fun _ => Classical.choice (Elt.nonempty F _), fun _ => Classical.choice (Elt.nonempty F _), fun _ => Classical.choice (Elt.nonempty F _))
  | n + 1 => if h : n < cfg0.N then stepAt m c ⟨n, h⟩ (stN c n) else stN c n

theorem stN_succ (c : Dev nD) (t : Fin cfg0.N) : stN m c (t.val + 1) = stepAt m c t (stN m c t.val) := by
  show (if h : t.val < cfg0.N then stepAt m c ⟨t.val, h⟩ (stN m c t.val) else stN m c t.val) = _
  rw [dif_pos t.isLt]

/-- The region's invariant before point `n`: the two accumulators at the carried state once a point has run, the masked
    copy at the carried state once it has been taken (from the fourth point on), anything before that. -/
def PhiS (c : Dev nD) (n : ℕ) : sProp 𝕄 :=
  iprop((∃ d, ⌜1 ≤ n → d = (stN m c n).1⌝ ∗ owns (c : Thread nD τ) scB fullShare d)
    ∗ (∃ d, ⌜1 ≤ n → d = (stN m c n).2.1⌝ ∗ owns (c : Thread nD τ) scA fullShare d)
    ∗ (∃ d, ⌜4 ≤ n → d = (stN m c n).2.2.1⌝ ∗ owns (c : Thread nD τ) scM fullShare d)
    ∗ (∃ r, prngReg c r))

/-- The class invariant with the scratch buffers as memrefs owned at some contents. -/
theorem PhiA_eq (c : Dev nD) :
    (Pipeline.ΦA spec0 c : sProp 𝕄)
      = iprop(iprop((∃ d, owns (c : Thread nD τ) scB fullShare d) ∗ (∃ d, owns (c : Thread nD τ) scA fullShare d) ∗ (∃ d, owns (c : Thread nD τ) scM fullShare d)) ∗ (∃ r, prngReg c r)) := by
  unfold Pipeline.ΦA; rw [scopedRest0_eq]; simp only [scB, scA, scM, owns_whole]; try rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stN m c (t.val + 1)).2.2.2
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (stN m c (t.val + 1)).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation at one point -/

/-- What the body is called with at point `t`: the invariant, and every window's current buffer — each input's at its
    block, the output's at whatever it then holds. -/
def bodyPre (c : Dev nD) (t : Fin cfg0.N) : sProp 𝕄 :=
  iprop(PhiS m c t.val ∗ (dats m 0 c).owesAt () t.castSucc
    ∗ (∃ d : Vec F S2048x1024 .bf16, owns (c : Thread nD τ) (st0_0 t) fullShare (bX m c t))
    ∗ (∃ d : Vec F S1024x1024 .bf16, owns (c : Thread nD τ) (st0_1 t) fullShare (bW m c t))
    ∗ (∃ d : Vec F S1024x128 .bf16, owns (c : Thread nD τ) (st0_2 t) fullShare (bA m c t))
    ∗ (∃ d : Vec F S128x1024 .bf16, owns (c : Thread nD τ) (st0_3 t) fullShare (bB m c t))
    ∗ (∃ d : Vec F S1x1024 .f32, owns (c : Thread nD τ) (st0_4 t) fullShare (bBias m c t))
    ∗ (∃ d : Vec F S2048x1 .i32, owns (c : Thread nD τ) (st0_5 t) fullShare (bTok m c t))
    ∗ (∃ d : Vec F S2048x1 .f32, owns (c : Thread nD τ) (st0_6 t) fullShare (bScal m c t))
    ∗ (∃ d, owns (c : Thread nD τ) (st0_7 t) fullShare ((dats m 0 c).before 7 t d)))

/-- What it returns: the invariant at the next point, the inputs as they were, and the output's buffer — the block
    just formed where `k = 3`, untouched elsewhere. -/
def bodyPost (c : Dev nD) (t : Fin cfg0.N) : sProp 𝕄 :=
  iprop(PhiS m c (t.val + 1) ∗ (dats m 0 c).owesAt () t.castSucc
    ∗ owns (c : Thread nD τ) (st0_0 t) fullShare (bX m c t)
    ∗ owns (c : Thread nD τ) (st0_1 t) fullShare (bW m c t)
    ∗ owns (c : Thread nD τ) (st0_2 t) fullShare (bA m c t)
    ∗ owns (c : Thread nD τ) (st0_3 t) fullShare (bB m c t)
    ∗ owns (c : Thread nD τ) (st0_4 t) fullShare (bBias m c t)
    ∗ owns (c : Thread nD τ) (st0_5 t) fullShare (bTok m c t)
    ∗ owns (c : Thread nD τ) (st0_6 t) fullShare (bScal m c t)
    ∗ (dats m 0 c).leavesExact 7 t)

/-- The inputs are read at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

theorem leaves_in0 (c : Dev nD) (t : Fin cfg0.N) : (dats m 0 c).leavesExact 0 t = owns (c : Thread nD τ) (st0_0 t) fullShare (bX m c t) := by
  unfold Dat.leavesExact; rw [live0 t, after0_0]
theorem leaves_in1 (c : Dev nD) (t : Fin cfg0.N) : (dats m 0 c).leavesExact 1 t = owns (c : Thread nD τ) (st0_1 t) fullShare (bW m c t) := by
  unfold Dat.leavesExact; rw [live1 t, after0_1]
theorem leaves_in2 (c : Dev nD) (t : Fin cfg0.N) : (dats m 0 c).leavesExact 2 t = owns (c : Thread nD τ) (st0_2 t) fullShare (bA m c t) := by
  unfold Dat.leavesExact; rw [live2 t, after0_2]
theorem leaves_in3 (c : Dev nD) (t : Fin cfg0.N) : (dats m 0 c).leavesExact 3 t = owns (c : Thread nD τ) (st0_3 t) fullShare (bB m c t) := by
  unfold Dat.leavesExact; rw [live3 t, after0_3]
theorem leaves_in4 (c : Dev nD) (t : Fin cfg0.N) : (dats m 0 c).leavesExact 4 t = owns (c : Thread nD τ) (st0_4 t) fullShare (bBias m c t) := by
  unfold Dat.leavesExact; rw [live4 t, after0_4]
theorem leaves_in5 (c : Dev nD) (t : Fin cfg0.N) : (dats m 0 c).leavesExact 5 t = owns (c : Thread nD τ) (st0_5 t) fullShare (bTok m c t) := by
  unfold Dat.leavesExact; rw [live5 t, after0_5]
theorem leaves_in6 (c : Dev nD) (t : Fin cfg0.N) : (dats m 0 c).leavesExact 6 t = owns (c : Thread nD τ) (st0_6 t) fullShare (bScal m c t) := by
  unfold Dat.leavesExact; rw [live6 t, after0_6]

/-- The same two assertions as the launch states them. -/
def bodyPreLib (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPostLib (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem bodyPre_eq (c : Dev nD) (t : Fin cfg0.N) : bodyPreLib m c t = bodyPre m c t := by
  unfold bodyPreLib bodyPre
  simp only [before0_0, before0_1, before0_2, before0_3, before0_4, before0_5, before0_6]
  rfl

theorem bodyPost_eq (c : Dev nD) (t : Fin cfg0.N) : bodyPostLib m c t = bodyPost m c t := by
  unfold bodyPostLib bodyPost
  rw [leaves_in0, leaves_in1, leaves_in2, leaves_in3, leaves_in4, leaves_in5, leaves_in6]
  rfl

end Cert.Kernel.Gen

end
-- ==== Proof.K.RunA.lean ====
import proofs.«151416_j8899172237474_2_alg».proof.Proof.K.Guards

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case A (which of the five guards hold is fixed by the hypotheses): from the buffers it
    touches at the named contents it runs to the end, leaving each buffer at the stated function of what it read. -/
theorem run_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : cK0 i) (h2 : cJK0 i) (h3 : cJ0 i) (h4 : ¬cJK3 i) (h5 : ¬cK3 i)
    (x0 : Vec F S2048x1024 .bf16) (x1 : Vec F S1024x1024 .bf16) (x2 : Vec F S1024x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg11 fullShare (k0_pay4 x0 x1 k0_pay1) ∗ owns (c : Thread nD τ) arg12 fullShare (k0_pay5 x0 k0_pay2 x2)) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f5, %hf5, H5⟩, ⟨%d11, %f11, -, H11⟩, ⟨%d12, %f12, -, H12⟩, Hk⟩
  subst hf3 hf4 hf5
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists _; isplitr
    swap; · iexact H11
    ipureintro
    stored_eq
  iexists _; isplitr
  swap; · iexact H12
  ipureintro
  stored_eq

end Cert.Kernel.Gen

end
-- ==== Proof.K.SoundA.lean ====
import proofs.«151416_j8899172237474_2_alg».proof.Proof.K.Data
import proofs.«151416_j8899172237474_2_alg».proof.Proof.K.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case A: the invariant supplies the scratch buffers the case reads at the carried
    state, the case's run applies, and the buffers it leaves are the carried state after the point. -/
theorem sound_A (c : Dev nD) (t : Fin cfg0.N) (hj : (t.val / 4) % 4 = 0) (hk0 : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [Dat.leavesExact_idle (dats m 0 c) 7 t (idle7 t (by omega : ¬t.val % 4 = 3)) (noFlush7 t (by omega : ¬t.val % 4 = 3))]
  rw [stN_succ, stepAt_A m c t (stN m c t.val) hj hk0]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply (run_A c (grid0.coords t) _ _ _ _ _ _ _ _ _ _ _ _ _ _ _ _ _ _ _ _ _ _ ((hK0 t).mpr hk0) ((hJK0 t).mpr ⟨hj, hk0⟩) ((hJ0 t).mpr hj) (fun h => absurd ((hJK3 t).mp h).2 (by omega)) (fun h => absurd ((hK3 t).mp h) (by omega)) (bX m c t) (bW m c t) (bA m c t) Set.univ _)
  isplitl [H0]; · iexact H0
  isplitl [H1]; · iexact H1
  isplitl [H2]; · iexact H2
  isplitl [HB]; · iexists _; iexact HB
  isplitl [HA]; · iexists _; iexact HA
  iintro ⟨H0, H1, H2, HB, HA⟩
  isplitl [HB HA HM Hg]
  · isplitl [HB]
    · iexists _; isplitr
      swap; · iexact HB
      ipureintro; intro _; rfl
    isplitl [HA]
    · iexists _; isplitr
      swap; · iexact HA
      ipureintro; intro _; rfl
    isplitl [HM]
    · iexists _; isplitr
      swap; · iexact HM
      ipureintro; intro _; exact hM (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists e7; iexact H7

end Cert.Kernel.Gen

end
-- ==== Proof.K.RunB.lean ====
import proofs.«151416_j8899172237474_2_alg».proof.Proof.K.Guards

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case B (which of the five guards hold is fixed by the hypotheses): from the buffers it
    touches at the named contents it runs to the end, leaving each buffer at the stated function of what it read. -/
theorem run_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : ¬cK0 i) (h2 : ¬cJK0 i) (h3 : cJ0 i) (h4 : ¬cJK3 i) (h5 : ¬cK3 i)
    (x0 : Vec F S2048x1024 .bf16) (x1 : Vec F S1024x1024 .bf16) (x2 : Vec F S1024x128 .bf16) (ab : Vec F S2048x1024 .f32) (aa : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg11 fullShare ab ∗ owns (c : Thread nD τ) arg12 fullShare aa
        ∗ (iprop(owns (c : Thread nD τ) arg3 fullShare x0 ∗ owns (c : Thread nD τ) arg4 fullShare x1 ∗ owns (c : Thread nD τ) arg5 fullShare x2 ∗ owns (c : Thread nD τ) arg11 fullShare (k0_pay4 x0 x1 ab) ∗ owns (c : Thread nD τ) arg12 fullShare (k0_pay5 x0 aa x2)) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f5, %hf5, H5⟩, ⟨%f11, %hf11, H11⟩, ⟨%f12, %hf12, H12⟩, Hk⟩
  subst hf3 hf4 hf5 hf11 hf12
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists _; isplitr
    swap; · iexact H11
    ipureintro
    stored_eq
  iexists _; isplitr
  swap; · iexact H12
  ipureintro
  stored_eq

end Cert.Kernel.Gen

end
-- ==== Proof.K.SoundB.lean ====
import proofs.«151416_j8899172237474_2_alg».proof.Proof.K.Data
import proofs.«151416_j8899172237474_2_alg».proof.Proof.K.RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case B: the invariant supplies the scratch buffers the case reads at the carried
    state, the case's run applies, and the buffers it leaves are the carried state after the point. -/
theorem sound_B (c : Dev nD) (t : Fin cfg0.N) (hj : (t.val / 4) % 4 = 0) (hk0 : ¬t.val % 4 = 0) (hk3 : ¬t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [Dat.leavesExact_idle (dats m 0 c) 7 t (idle7 t hk3) (noFlush7 t hk3)]
  rw [stN_succ, stepAt_B m c t (stN m c t.val) hj hk0 hk3]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  obtain rfl := hB (by omega)
  obtain rfl := hA (by omega)
  iapply (run_B c (grid0.coords t) _ _ _ _ _ _ _ _ _ _ _ _ _ _ _ _ _ _ _ _ _ _ (fun h => hk0 ((hK0 t).mp h)) (fun h => hk0 ((hJK0 t).mp h).2) ((hJ0 t).mpr hj) (fun h => hk3 ((hJK3 t).mp h).2) (fun h => hk3 ((hK3 t).mp h)) (bX m c t) (bW m c t) (bA m c t) (stN m c t.val).1 (stN m c t.val).2.1 Set.univ _)
  isplitl [H0]; · iexact H0
  isplitl [H1]; · iexact H1
  isplitl [H2]; · iexact H2
  isplitl [HB]; · iexact HB
  isplitl [HA]; · iexact HA
  iintro ⟨H0, H1, H2, HB, HA⟩
  isplitl [HB HA HM Hg]
  · isplitl [HB]
    · iexists _; isplitr
      swap; · iexact HB
      ipureintro; intro _; rfl
    isplitl [HA]
    · iexists _; isplitr
      swap; · iexact HA
      ipureintro; intro _; rfl
    isplitl [HM]
    · iexists _; isplitr
      swap; · iexact HM
      ipureintro; intro _; exact hM (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists e7; iexact H7

end Cert.Kernel.Gen

end
-- ==== Proof.K.RunC.lean ====
import proofs.«151416_j8899172237474_2_alg».proof.Proof.K.Guards

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case C (which of the five guards hold is fixed by the hypotheses): from the buffers it
    touches at the named contents it runs to the end, leaving each buffer at the stated function of what it read. -/
theorem run_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : ¬cK0 i) (h2 : ¬cJK0 i) (h3 : cJ0 i) (h4 : cJK3 i) (h5 : cK3 i)
    (x0 : Vec F S2048x1024 .bf16) (x1 : Vec F S1024x1024 .bf16) (x2 : Vec F S1024x128 .bf16) (x3 : Vec F S128x1024 .bf16) (x4 : Vec F S1x1024 .f32) (x5 : Vec F S2048x1 .i32) (x6 : Vec F S2048x1 .f32) (ab : Vec F S2048x1024 .f32) (aa : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare ab ∗ owns (c : Thread nD τ) arg12 fullShare aa ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay7 (k0_pay6 x5 x6 (k0_pay5 x0 aa x2)) x3 (k0_pay4 x0 x1 ab) x4) ∗ owns (c : Thread nD τ) arg11 fullShare (k0_pay4 x0 x1 ab) ∗ owns (c : Thread nD τ) arg12 fullShare (k0_pay5 x0 aa x2) ∗ owns (c : Thread nD τ) arg13 fullShare (k0_pay6 x5 x6 (k0_pay5 x0 aa x2))) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, Hk⟩
  subst hf3 hf4 hf5 hf6 hf7 hf8 hf9 hf11 hf12
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    stored_eq
  isplitl [H11]
  · iexists _; isplitr
    swap; · iexact H11
    ipureintro
    stored_eq
  isplitl [H12]
  · iexists _; isplitr
    swap; · iexact H12
    ipureintro
    stored_eq
  iexists _; isplitr
  swap; · iexact H13
  ipureintro
  stored_eq

end Cert.Kernel.Gen

end
-- ==== Proof.K.SoundC.lean ====
import proofs.«151416_j8899172237474_2_alg».proof.Proof.K.Data
import proofs.«151416_j8899172237474_2_alg».proof.Proof.K.RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case C: the invariant supplies the scratch buffers the case reads at the carried
    state, the case's run applies, and the buffers it leaves are the carried state after the point. -/
theorem sound_C (c : Dev nD) (t : Fin cfg0.N) (hj : (t.val / 4) % 4 = 0) (hk3 : t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [show (dats m 0 c).leavesExact 7 t = owns (c : Thread nD τ) (st0_7 t) fullShare (stN m c (t.val + 1)).2.2.2 from by
    unfold Dat.leavesExact; rw [live7 t hk3, after0_7]]
  rw [stN_succ, stepAt_C m c t (stN m c t.val) hj hk3]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  obtain rfl := hB (by omega)
  obtain rfl := hA (by omega)
  iapply (run_C c (grid0.coords t) _ _ _ _ _ _ _ _ _ _ _ _ _ _ _ _ _ _ _ _ _ _ (fun h => absurd ((hK0 t).mp h) (by omega)) (fun h => absurd ((hJK0 t).mp h).2 (by omega)) ((hJ0 t).mpr hj) ((hJK3 t).mpr ⟨hj, hk3⟩) ((hK3 t).mpr hk3) (bX m c t) (bW m c t) (bA m c t) (bB m c t) (bBias m c t) (bTok m c t) (bScal m c t) (stN m c t.val).1 (stN m c t.val).2.1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HB]; · iexact HB
  isplitl [HA]; · iexact HA
  isplitl [HM]; · iexists _; iexact HM
  iintro ⟨H0, H1, H2, H3, H4, H5, H6, H7, HB, HA, HM⟩
  isplitl [HB HA HM Hg]
  · isplitl [HB]
    · iexists _; isplitr
      swap; · iexact HB
      ipureintro; intro _; rfl
    isplitl [HA]
    · iexists _; isplitr
      swap; · iexact HA
      ipureintro; intro _; rfl
    isplitl [HM]
    · iexists _; isplitr
      swap; · iexact HM
      ipureintro; intro _; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel.Gen

end
-- ==== Proof.K.RunD.lean ====
import proofs.«151416_j8899172237474_2_alg».proof.Proof.K.Guards

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case D (which of the five guards hold is fixed by the hypotheses): from the buffers it
    touches at the named contents it runs to the end, leaving each buffer at the stated function of what it read. -/
theorem run_D (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : cK0 i) (h2 : ¬cJK0 i) (h3 : ¬cJ0 i) (h4 : ¬cJK3 i) (h5 : ¬cK3 i)
    (x0 : Vec F S2048x1024 .bf16) (x1 : Vec F S1024x1024 .bf16) (E : Set ℕ) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1 ∗ owns (c : Thread nD τ) arg11 fullShare (k0_pay4 x0 x1 k0_pay1)) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%d11, %f11, -, H11⟩, Hk⟩
  subst hf3 hf4
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  iexists _; isplitr
  swap; · iexact H11
  ipureintro
  stored_eq

end Cert.Kernel.Gen

end
-- ==== Proof.K.SoundD.lean ====
import proofs.«151416_j8899172237474_2_alg».proof.Proof.K.Data
import proofs.«151416_j8899172237474_2_alg».proof.Proof.K.RunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case D: the invariant supplies the scratch buffers the case reads at the carried
    state, the case's run applies, and the buffers it leaves are the carried state after the point. -/
theorem sound_D (c : Dev nD) (t : Fin cfg0.N) (hj : ¬(t.val / 4) % 4 = 0) (hk0 : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [Dat.leavesExact_idle (dats m 0 c) 7 t (idle7 t (by omega : ¬t.val % 4 = 3)) (noFlush7 t (by omega : ¬t.val % 4 = 3))]
  rw [stN_succ, stepAt_D m c t (stN m c t.val) hj hk0]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply (run_D c (grid0.coords t) _ _ _ _ _ _ _ _ _ _ _ _ _ _ _ _ _ _ _ _ _ _ ((hK0 t).mpr hk0) (fun h => hj ((hJK0 t).mp h).1) (fun h => hj ((hJ0 t).mp h)) (fun h => hj ((hJK3 t).mp h).1) (fun h => absurd ((hK3 t).mp h) (by omega)) (bX m c t) (bW m c t) Set.univ _)
  isplitl [H0]; · iexact H0
  isplitl [H1]; · iexact H1
  isplitl [HB]; · iexists _; iexact HB
  iintro ⟨H0, H1, HB⟩
  isplitl [HB HA HM Hg]
  · isplitl [HB]
    · iexists _; isplitr
      swap; · iexact HB
      ipureintro; intro _; rfl
    isplitl [HA]
    · iexists _; isplitr
      swap; · iexact HA
      ipureintro; intro _; exact hA (by omega)
    isplitl [HM]
    · iexists _; isplitr
      swap; · iexact HM
      ipureintro; intro _; exact hM (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists e7; iexact H7

end Cert.Kernel.Gen

end
-- ==== Proof.K.RunE.lean ====
import proofs.«151416_j8899172237474_2_alg».proof.Proof.K.Guards

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case E (which of the five guards hold is fixed by the hypotheses): from the buffers it
    touches at the named contents it runs to the end, leaving each buffer at the stated function of what it read. -/
theorem run_E (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : ¬cK0 i) (h2 : ¬cJK0 i) (h3 : ¬cJ0 i) (h4 : ¬cJK3 i) (h5 : ¬cK3 i)
    (x0 : Vec F S2048x1024 .bf16) (x1 : Vec F S1024x1024 .bf16) (ab : Vec F S2048x1024 .f32) (E : Set ℕ) (K : PUnit → sProp 𝕄) :
    iprop(owns (c : Thread nD τ) arg3 fullShare x0 ∗ owns (c : Thread nD τ) arg4 fullShare x1 ∗ owns (c : Thread nD τ) arg11 fullShare ab
        ∗ (iprop(owns (c : Thread nD τ) arg3 fullShare x0 ∗ owns (c : Thread nD τ) arg4 fullShare x1 ∗ owns (c : Thread nD τ) arg11 fullShare (k0_pay4 x0 x1 ab)) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f11, %hf11, H11⟩, Hk⟩
  subst hf3 hf4 hf11
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  iexists _; isplitr
  swap; · iexact H11
  ipureintro
  stored_eq

end Cert.Kernel.Gen

end
-- ==== Proof.K.SoundE.lean ====
import proofs.«151416_j8899172237474_2_alg».proof.Proof.K.Data
import proofs.«151416_j8899172237474_2_alg».proof.Proof.K.RunE

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case E: the invariant supplies the scratch buffers the case reads at the carried
    state, the case's run applies, and the buffers it leaves are the carried state after the point. -/
theorem sound_E (c : Dev nD) (t : Fin cfg0.N) (hj : ¬(t.val / 4) % 4 = 0) (hk0 : ¬t.val % 4 = 0) (hk3 : ¬t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [Dat.leavesExact_idle (dats m 0 c) 7 t (idle7 t hk3) (noFlush7 t hk3)]
  rw [stN_succ, stepAt_E m c t (stN m c t.val) hj hk0 hk3]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  obtain rfl := hB (by omega)
  iapply (run_E c (grid0.coords t) _ _ _ _ _ _ _ _ _ _ _ _ _ _ _ _ _ _ _ _ _ _ (fun h => hk0 ((hK0 t).mp h)) (fun h => hj ((hJK0 t).mp h).1) (fun h => hj ((hJ0 t).mp h)) (fun h => hj ((hJK3 t).mp h).1) (fun h => hk3 ((hK3 t).mp h)) (bX m c t) (bW m c t) (stN m c t.val).1 Set.univ _)
  isplitl [H0]; · iexact H0
  isplitl [H1]; · iexact H1
  isplitl [HB]; · iexact HB
  iintro ⟨H0, H1, HB⟩
  isplitl [HB HA HM Hg]
  · isplitl [HB]
    · iexists _; isplitr
      swap; · iexact HB
      ipureintro; intro _; rfl
    isplitl [HA]
    · iexists _; isplitr
      swap; · iexact HA
      ipureintro; intro _; exact hA (by omega)
    isplitl [HM]
    · iexists _; isplitr
      swap; · iexact HM
      ipureintro; intro _; exact hM (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists e7; iexact H7

end Cert.Kernel.Gen

end
-- ==== Proof.K.RunF.lean ====
import proofs.«151416_j8899172237474_2_alg».proof.Proof.K.Guards

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case F (which of the five guards hold is fixed by the hypotheses): from the buffers it
    touches at the named contents it runs to the end, leaving each buffer at the stated function of what it read. -/
theorem run_F (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : ¬cK0 i) (h2 : ¬cJK0 i) (h3 : ¬cJ0 i) (h4 : ¬cJK3 i) (h5 : cK3 i)
    (x0 : Vec F S2048x1024 .bf16) (x1 : Vec F S1024x1024 .bf16) (x3 : Vec F S128x1024 .bf16) (x4 : Vec F S1x1024 .f32) (ab : Vec F S2048x1024 .f32) (mk : Vec F S2048x128 .bf16) (E : Set ℕ) (K : PUnit → sProp 𝕄) :
    iprop(owns (c : Thread nD τ) arg3 fullShare x0 ∗ owns (c : Thread nD τ) arg4 fullShare x1 ∗ owns (c : Thread nD τ) arg6 fullShare x3 ∗ owns (c : Thread nD τ) arg7 fullShare x4 ∗ (∃ d, owns (c : Thread nD τ) arg10 fullShare d) ∗ owns (c : Thread nD τ) arg11 fullShare ab ∗ owns (c : Thread nD τ) arg13 fullShare mk
        ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg10 fullShare (k0_pay7 mk x3 (k0_pay4 x0 x1 ab) x4) ∗ owns (c : Thread nD τ) arg11 fullShare (k0_pay4 x0 x1 ab) ∗ owns (c : Thread nD τ) arg13 fullShare mk) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f6, %hf6, H6⟩, ⟨%f7, %hf7, H7⟩, ⟨%d10, %f10, -, H10⟩, ⟨%f11, %hf11, H11⟩, ⟨%f13, %hf13, H13⟩, Hk⟩
  subst hf3 hf4 hf6 hf7 hf11 hf13
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  isplitl [H7]
  · iexists f7; isplitr; · ipureintro; rfl
    iexact H7
  isplitl [H10]
  · iexists _; isplitr
    swap; · iexact H10
    ipureintro
    stored_eq
  isplitl [H11]
  · iexists _; isplitr
    swap; · iexact H11
    ipureintro
    stored_eq
  iexists f13; isplitr; · ipureintro; rfl
  iexact H13

end Cert.Kernel.Gen

end
-- ==== Proof.K.SoundF.lean ====
import proofs.«151416_j8899172237474_2_alg».proof.Proof.K.Data
import proofs.«151416_j8899172237474_2_alg».proof.Proof.K.RunF

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case F: the invariant supplies the scratch buffers the case reads at the carried
    state, the case's run applies, and the buffers it leaves are the carried state after the point. -/
theorem sound_F (c : Dev nD) (t : Fin cfg0.N) (hj : ¬(t.val / 4) % 4 = 0) (hk3 : t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [show (dats m 0 c).leavesExact 7 t = owns (c : Thread nD τ) (st0_7 t) fullShare (stN m c (t.val + 1)).2.2.2 from by
    unfold Dat.leavesExact; rw [live7 t hk3, after0_7]]
  rw [stN_succ, stepAt_F m c t (stN m c t.val) hj hk3]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  obtain rfl := hB (by omega)
  obtain rfl := hM (by omega)
  iapply (run_F c (grid0.coords t) _ _ _ _ _ _ _ _ _ _ _ _ _ _ _ _ _ _ _ _ _ _ (fun h => absurd ((hK0 t).mp h) (by omega)) (fun h => hj ((hJK0 t).mp h).1) (fun h => hj ((hJ0 t).mp h)) (fun h => hj ((hJK3 t).mp h).1) ((hK3 t).mpr hk3) (bX m c t) (bW m c t) (bB m c t) (bBias m c t) (stN m c t.val).1 (stN m c t.val).2.2.1 Set.univ _)
  isplitl [H0]; · iexact H0
  isplitl [H1]; · iexact H1
  isplitl [H3]; · iexact H3
  isplitl [H4]; · iexact H4
  isplitl [H7]; · iexists _; iexact H7
  isplitl [HB]; · iexact HB
  isplitl [HM]; · iexact HM
  iintro ⟨H0, H1, H3, H4, H7, HB, HM⟩
  isplitl [HB HA HM Hg]
  · isplitl [HB]
    · iexists _; isplitr
      swap; · iexact HB
      ipureintro; intro _; rfl
    isplitl [HA]
    · iexists _; isplitr
      swap; · iexact HA
      ipureintro; intro _; exact hA (by omega)
    isplitl [HM]
    · iexists _; isplitr
      swap; · iexact HM
      ipureintro; intro _; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel.Gen

end
-- ==== Proof.K.FrameRun.lean ====
import proofs.«151416_j8899172237474_2_alg».proof.Proof.K.SoundA
import proofs.«151416_j8899172237474_2_alg».proof.Proof.K.SoundB
import proofs.«151416_j8899172237474_2_alg».proof.Proof.K.SoundC
import proofs.«151416_j8899172237474_2_alg».proof.Proof.K.SoundD
import proofs.«151416_j8899172237474_2_alg».proof.Proof.K.SoundE
import proofs.«151416_j8899172237474_2_alg».proof.Proof.K.SoundF

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: which of `j = 0`, `k = 0`, `k = 3` hold picks the case. -/
theorem sound_body (c : Dev nD) (t : Fin cfg0.N) :
    bodyPre m c t ⊢ wp frame (wpE (defs₀ (F := F)) Variants.none c none) Set.univ (bodyAt0 t) (fun _ => bodyPost m c t) := by
  by_cases hj : (t.val / 4) % 4 = 0
  · by_cases hk0 : t.val % 4 = 0
    · exact sound_A m c t hj hk0
    · by_cases hk3 : t.val % 4 = 3
      · exact sound_C m c t hj hk3
      · exact sound_B m c t hj hk0 hk3
  · by_cases hk0 : t.val % 4 = 0
    · exact sound_D m c t hj hk0
    · by_cases hk3 : t.val % 4 = 3
      · exact sound_F m c t hj hk3
      · exact sound_E m c t hj hk0 hk3

/-- The launch's body obligation, at every point. -/
theorem body_obligation (c : Dev nD) : BodyObligation (dats (F := F) m 0 c) (defs₀ (F := F)) Variants.none () Set.univ := fun t => by
  rw [bigSep_W0, bigSep_W0]
  have h := sound_body m c t
  rw [← bodyPre_eq, ← bodyPost_eq] at h
  exact h

/-- Before the first point nothing is known of the scratch buffers: the class invariant is the tracked one at `0`. -/
theorem hin (c : Dev nD) : Pipeline.ΦA spec0 c ⊢ (dats m 0 c).Φ 0 := by
  rw [show (dats m 0 c).Φ 0 = PhiS m c 0 from rfl, PhiA_eq]; unfold PhiS
  iintro ⟨⟨⟨%d0, H0⟩, ⟨%d1, H1⟩, ⟨%d2, H2⟩⟩, Hg⟩
  isplitl [H0]
  · iexists d0; isplitr; · ipureintro; intro h; exact absurd h (by decide)
    iexact H0
  isplitl [H1]
  · iexists d1; isplitr; · ipureintro; intro h; exact absurd h (by decide)
    iexact H1
  isplitl [H2]
  · iexists d2; isplitr; · ipureintro; intro h; exact absurd h (by decide)
    iexact H2
  iexact Hg

/-- After the last point the carried contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨%d0, -, H0⟩, ⟨%d1, -, H1⟩, ⟨%d2, -, H2⟩, Hg⟩
  isplitl [H0 H1 H2]
  · isplitl [H0]; · iexists d0; iexact H0
    isplitl [H1]; · iexists d1; iexact H1
    iexists d2; iexact H2
  iexact Hg

set_option backward.isDefEq.respectTransparency.types false in
/-- Every weakly fair execution of @main terminates without a fault; each array of the region ends at what the proof
    data computes (an input: unchanged; the output: its blocks as the points with `k = 3` left them), every other
    unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Gen

end
-- ==== Proof.KI.Guards.lean ====
import proofs.«151416_j8899172237474_2_alg».proof.Proof.Gen.KernelIdeal.Frame
import proofs.«151416_j8899172237474_2_alg».proof.Proof.Gen.KernelIdeal.Skeleton
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The five guards of the body, as the body computes them from the grid coordinates `(i, j, k)`:
    `k = 0`; `j = 0 ∧ k = 0`; `j = 0`; `j = 0 ∧ k = 3`; `k = 3`. -/
abbrev cK0 (i : grid0.Coords) : Prop := Scalar.cmpi .ne (Scalar.extui (Scalar.cmpi .eq (BitVec.ofNat 32 (i 2).val) 0#32)) 0#32 = 1#1
abbrev cJK0 (i : grid0.Coords) : Prop := Scalar.cmpi .ne (Scalar.extui (Scalar.andi (Scalar.cmpi .eq (BitVec.ofNat 32 (i 1).val) 0#32) (Scalar.cmpi .eq (BitVec.ofNat 32 (i 2).val) 0#32))) 0#32 = 1#1
abbrev cJ0 (i : grid0.Coords) : Prop := Scalar.cmpi .ne (Scalar.extui (Scalar.cmpi .eq (BitVec.ofNat 32 (i 1).val) 0#32)) 0#32 = 1#1
abbrev cJK3 (i : grid0.Coords) : Prop := Scalar.cmpi .ne (Scalar.extui (Scalar.andi (Scalar.cmpi .eq (BitVec.ofNat 32 (i 1).val) 0#32) (Scalar.cmpi .eq (BitVec.ofNat 32 (i 2).val) 3#32))) 0#32 = 1#1
abbrev cK3 (i : grid0.Coords) : Prop := k0_cond5 i = 1#1

/-- The whole-buffer rectangle's offsets are zero. -/
theorem hz00 : (![0, 0] : Fin 2 → Nat) = fun _ => 0 := funext fun a => by fin_cases a <;> rfl

/-- After a last store through the whole-buffer rectangle a buffer reads as that store's payload, whatever it held and
    whatever was stored before. -/
theorem read_writes_unit_zero {sg : RefSig} {κ : Kind} {sp : Space} {S : Shape} {e : EltTy} {Val : EltTy → Type} [∀ e, Nonempty (Val e)]
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-- What whole-buffer stores leave reads back as the last payload; a whole-buffer load reads the contents, and after a
    whole-buffer store it reads that store's payload. -/
macro "stored_eq" : tactic => `(tactic| (
  sl_unfold_words
  first | rw [read_writes_unit_zero (S := S2048x1024) _ _ hz00] | rw [read_writes_unit_zero (S := S2048x128) _ _ hz00]
  simp only [View.readCov_unit_zero (S := S2048x1024) _ hz00, View.readCov_unit_zero (S := S2048x128) _ hz00, View.readAt_eq_ld, View.ld_unit_zero (S := S2048x1024) hz00, View.ld_unit_zero (S := S1024x1024) hz00, View.ld_unit_zero (S := S1024x128) hz00, View.ld_unit_zero (S := S128x1024) hz00, View.ld_unit_zero (S := S1x1024) hz00, View.ld_unit_zero (S := S2048x1) hz00, View.ld_unit_zero (S := S2048x128) hz00]))

end Cert.KernelIdeal.Gen

end
-- ==== Proof.KI.Data.lean ====
import proofs.«151416_j8899172237474_2_alg».proof.Proof.KI.Guards

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The guards over the grid

Point `t` of the 4 × 4 × 4 grid has coordinates `(i, j, k) = (t / 16, (t / 4) % 4, t % 4)`, `k` innermost. -/

theorem hK0 : ∀ t : Fin cfg0.N, cK0 (grid0.coords t) ↔ t.val % 4 = 0 :=
  (by decide +kernel : ∀ t : Fin grid0.N, cK0 (grid0.coords t) ↔ t.val % 4 = 0)
theorem hJK0 : ∀ t : Fin cfg0.N, cJK0 (grid0.coords t) ↔ ((t.val / 4) % 4 = 0 ∧ t.val % 4 = 0) :=
  (by decide +kernel : ∀ t : Fin grid0.N, cJK0 (grid0.coords t) ↔ ((t.val / 4) % 4 = 0 ∧ t.val % 4 = 0))
theorem hJ0 : ∀ t : Fin cfg0.N, cJ0 (grid0.coords t) ↔ (t.val / 4) % 4 = 0 :=
  (by decide +kernel : ∀ t : Fin grid0.N, cJ0 (grid0.coords t) ↔ (t.val / 4) % 4 = 0)
theorem hJK3 : ∀ t : Fin cfg0.N, cJK3 (grid0.coords t) ↔ ((t.val / 4) % 4 = 0 ∧ t.val % 4 = 3) :=
  (by decide +kernel : ∀ t : Fin grid0.N, cJK3 (grid0.coords t) ↔ ((t.val / 4) % 4 = 0 ∧ t.val % 4 = 3))
theorem hK3 : ∀ t : Fin cfg0.N, cK3 (grid0.coords t) ↔ t.val % 4 = 3 :=
  (by decide +kernel : ∀ t : Fin grid0.N, cK3 (grid0.coords t) ↔ t.val % 4 = 3)

/-- The output window is written only where `k = 3`; elsewhere it is idle and not written back. -/
theorem idle7 : ∀ t : Fin cfg0.N, ¬t.val % 4 = 3 → cfg0.idle 7 (grid0.coords t) = true := by decide +kernel
theorem live7 : ∀ t : Fin cfg0.N, t.val % 4 = 3 → cfg0.idle 7 (grid0.coords t) = false := by decide +kernel
theorem noFlush7 : ∀ t : Fin cfg0.N, ¬t.val % 4 = 3 → (cfg0.win 7).flush t = false := by decide +kernel

/-! ## The buffers -/

/-- The three scratch buffers: the base accumulator, the rank-128 accumulator, and its masked, scaled copy. -/
abbrev scB : Memref sig .tc .vmem S2048x1024 .f32 := Memref.whole cc0_scratch0
abbrev scA : Memref sig .tc .vmem S2048x128 .f32 := Memref.whole cc0_scratch1
abbrev scM : Memref sig .tc .vmem S2048x128 .bf16 := Memref.whole cc0_scratch2

/-- The input blocks at point `t`: rows of `x`, of the weight, of the combined `A`, of the combined `B`, of the bias,
    of the token indices and of the scalings. -/
abbrev bX (c : Dev nD) (t : Fin cfg0.N) : Vec F S2048x1024 .bf16 := iblk m c 0 t
abbrev bW (c : Dev nD) (t : Fin cfg0.N) : Vec F S1024x1024 .bf16 := iblk m c 1 t
abbrev bA (c : Dev nD) (t : Fin cfg0.N) : Vec F S1024x128 .bf16 := iblk m c 2 t
abbrev bB (c : Dev nD) (t : Fin cfg0.N) : Vec F S128x1024 .bf16 := iblk m c 3 t
abbrev bBias (c : Dev nD) (t : Fin cfg0.N) : Vec F S1x1024 .f32 := iblk m c 4 t
abbrev bTok (c : Dev nD) (t : Fin cfg0.N) : Vec F S2048x1 .i32 := iblk m c 5 t
abbrev bScal (c : Dev nD) (t : Fin cfg0.N) : Vec F S2048x1 .f32 := iblk m c 6 t

/-! ## What the body carries from point to point -/

/-- The base accumulator, the rank-128 accumulator, its masked copy, and the output block, in that order. -/
abbrev St (F : FTy → Type) [FloatOps F] : Type :=
  Vec F S2048x1024 .f32 × Vec F S2048x128 .f32 × Vec F S2048x128 .bf16 × Vec F S2048x1024 .f32

/-- One grid point: the base accumulator restarts at `k = 0` and always adds the point's product; the rank-128
    accumulator restarts at `j = 0, k = 0` and adds its product while `j = 0`; the masked copy is taken at
    `j = 0, k = 3`; the output block is formed at `k = 3`. -/
def stepAt (c : Dev nD) (t : Fin cfg0.N) (s : St F) : St F :=
  if (t.val / 4) % 4 = 0 then
    if t.val % 4 = 0 then
      (k0_pay4 (bX m c t) (bW m c t) k0_pay1, k0_pay5 (bX m c t) k0_pay2 (bA m c t), s.2.2.1, s.2.2.2)
    else if t.val % 4 = 3 then
      (k0_pay4 (bX m c t) (bW m c t) s.1, k0_pay5 (bX m c t) s.2.1 (bA m c t),
        k0_pay6 (bTok m c t) (bScal m c t) (k0_pay5 (bX m c t) s.2.1 (bA m c t)),
        k0_pay7 (k0_pay6 (bTok m c t) (bScal m c t) (k0_pay5 (bX m c t) s.2.1 (bA m c t))) (bB m c t)
          (k0_pay4 (bX m c t) (bW m c t) s.1) (bBias m c t))
    else
      (k0_pay4 (bX m c t) (bW m c t) s.1, k0_pay5 (bX m c t) s.2.1 (bA m c t), s.2.2.1, s.2.2.2)
  else
    if t.val % 4 = 0 then
      (k0_pay4 (bX m c t) (bW m c t) k0_pay1, s.2.1, s.2.2.1, s.2.2.2)
    else if t.val % 4 = 3 then
      (k0_pay4 (bX m c t) (bW m c t) s.1, s.2.1, s.2.2.1,
        k0_pay7 s.2.2.1 (bB m c t) (k0_pay4 (bX m c t) (bW m c t) s.1) (bBias m c t))
    else
      (k0_pay4 (bX m c t) (bW m c t) s.1, s.2.1, s.2.2.1, s.2.2.2)

/-! ### One point, case by case -/

theorem stepAt_A (c : Dev nD) (t : Fin cfg0.N) (s : St F) (hj : (t.val / 4) % 4 = 0) (hk0 : t.val % 4 = 0) :
    stepAt m c t s = (k0_pay4 (bX m c t) (bW m c t) k0_pay1, k0_pay5 (bX m c t) k0_pay2 (bA m c t), s.2.2.1, s.2.2.2) := by
  unfold stepAt; rw [if_pos hj, if_pos hk0]
theorem stepAt_B (c : Dev nD) (t : Fin cfg0.N) (s : St F) (hj : (t.val / 4) % 4 = 0) (hk0 : ¬t.val % 4 = 0) (hk3 : ¬t.val % 4 = 3) :
    stepAt m c t s = (k0_pay4 (bX m c t) (bW m c t) s.1, k0_pay5 (bX m c t) s.2.1 (bA m c t), s.2.2.1, s.2.2.2) := by
  unfold stepAt; rw [if_pos hj, if_neg hk0, if_neg hk3]
theorem stepAt_C (c : Dev nD) (t : Fin cfg0.N) (s : St F) (hj : (t.val / 4) % 4 = 0) (hk3 : t.val % 4 = 3) :
    stepAt m c t s = (k0_pay4 (bX m c t) (bW m c t) s.1, k0_pay5 (bX m c t) s.2.1 (bA m c t),
        k0_pay6 (bTok m c t) (bScal m c t) (k0_pay5 (bX m c t) s.2.1 (bA m c t)),
        k0_pay7 (k0_pay6 (bTok m c t) (bScal m c t) (k0_pay5 (bX m c t) s.2.1 (bA m c t))) (bB m c t)
          (k0_pay4 (bX m c t) (bW m c t) s.1) (bBias m c t)) := by
  unfold stepAt; rw [if_pos hj, if_neg (by omega : ¬t.val % 4 = 0), if_pos hk3]
theorem stepAt_D (c : Dev nD) (t : Fin cfg0.N) (s : St F) (hj : ¬(t.val / 4) % 4 = 0) (hk0 : t.val % 4 = 0) :
    stepAt m c t s = (k0_pay4 (bX m c t) (bW m c t) k0_pay1, s.2.1, s.2.2.1, s.2.2.2) := by
  unfold stepAt; rw [if_neg hj, if_pos hk0]
theorem stepAt_E (c : Dev nD) (t : Fin cfg0.N) (s : St F) (hj : ¬(t.val / 4) % 4 = 0) (hk0 : ¬t.val % 4 = 0) (hk3 : ¬t.val % 4 = 3) :
    stepAt m c t s = (k0_pay4 (bX m c t) (bW m c t) s.1, s.2.1, s.2.2.1, s.2.2.2) := by
  unfold stepAt; rw [if_neg hj, if_neg hk0, if_neg hk3]
theorem stepAt_F (c : Dev nD) (t : Fin cfg0.N) (s : St F) (hj : ¬(t.val / 4) % 4 = 0) (hk3 : t.val % 4 = 3) :
    stepAt m c t s = (k0_pay4 (bX m c t) (bW m c t) s.1, s.2.1, s.2.2.1,
        k0_pay7 s.2.2.1 (bB m c t) (k0_pay4 (bX m c t) (bW m c t) s.1) (bBias m c t)) := by
  unfold stepAt; rw [if_neg hj, if_neg (by omega : ¬t.val % 4 = 0), if_pos hk3]

/-- The carried state BEFORE point `n` (after point `n - 1`); before the first point nothing is known of it. -/
def stN (c : Dev nD) : ℕ → St F
  | 0 => (fun _ => Classical.choice (Elt.nonempty F _), fun _ => Classical.choice (Elt.nonempty F _), fun _ => Classical.choice (Elt.nonempty F _), fun _ => Classical.choice (Elt.nonempty F _))
  | n + 1 => if h : n < cfg0.N then stepAt m c ⟨n, h⟩ (stN c n) else stN c n

theorem stN_succ (c : Dev nD) (t : Fin cfg0.N) : stN m c (t.val + 1) = stepAt m c t (stN m c t.val) := by
  show (if h : t.val < cfg0.N then stepAt m c ⟨t.val, h⟩ (stN m c t.val) else stN m c t.val) = _
  rw [dif_pos t.isLt]

/-- The region's invariant before point `n`: the two accumulators at the carried state once a point has run, the masked
    copy at the carried state once it has been taken (from the fourth point on), anything before that. -/
def PhiS (c : Dev nD) (n : ℕ) : sProp 𝕄 :=
  iprop((∃ d, ⌜1 ≤ n → d = (stN m c n).1⌝ ∗ owns (c : Thread nD τ) scB fullShare d)
    ∗ (∃ d, ⌜1 ≤ n → d = (stN m c n).2.1⌝ ∗ owns (c : Thread nD τ) scA fullShare d)
    ∗ (∃ d, ⌜4 ≤ n → d = (stN m c n).2.2.1⌝ ∗ owns (c : Thread nD τ) scM fullShare d)
    ∗ (∃ r, prngReg c r))

/-- The class invariant with the scratch buffers as memrefs owned at some contents. -/
theorem PhiA_eq (c : Dev nD) :
    (Pipeline.ΦA spec0 c : sProp 𝕄)
      = iprop(iprop((∃ d, owns (c : Thread nD τ) scB fullShare d) ∗ (∃ d, owns (c : Thread nD τ) scA fullShare d) ∗ (∃ d, owns (c : Thread nD τ) scM fullShare d)) ∗ (∃ r, prngReg c r)) := by
  unfold Pipeline.ΦA; rw [scopedRest0_eq]; simp only [scB, scA, scM, owns_whole]; try rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stN m c (t.val + 1)).2.2.2
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (stN m c (t.val + 1)).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation at one point -/

/-- What the body is called with at point `t`: the invariant, and every window's current buffer — each input's at its
    block, the output's at whatever it then holds. -/
def bodyPre (c : Dev nD) (t : Fin cfg0.N) : sProp 𝕄 :=
  iprop(PhiS m c t.val ∗ (dats m 0 c).owesAt () t.castSucc
    ∗ (∃ d : Vec F S2048x1024 .bf16, owns (c : Thread nD τ) (st0_0 t) fullShare (bX m c t))
    ∗ (∃ d : Vec F S1024x1024 .bf16, owns (c : Thread nD τ) (st0_1 t) fullShare (bW m c t))
    ∗ (∃ d : Vec F S1024x128 .bf16, owns (c : Thread nD τ) (st0_2 t) fullShare (bA m c t))
    ∗ (∃ d : Vec F S128x1024 .bf16, owns (c : Thread nD τ) (st0_3 t) fullShare (bB m c t))
    ∗ (∃ d : Vec F S1x1024 .f32, owns (c : Thread nD τ) (st0_4 t) fullShare (bBias m c t))
    ∗ (∃ d : Vec F S2048x1 .i32, owns (c : Thread nD τ) (st0_5 t) fullShare (bTok m c t))
    ∗ (∃ d : Vec F S2048x1 .f32, owns (c : Thread nD τ) (st0_6 t) fullShare (bScal m c t))
    ∗ (∃ d, owns (c : Thread nD τ) (st0_7 t) fullShare ((dats m 0 c).before 7 t d)))

/-- What it returns: the invariant at the next point, the inputs as they were, and the output's buffer — the block
    just formed where `k = 3`, untouched elsewhere. -/
def bodyPost (c : Dev nD) (t : Fin cfg0.N) : sProp 𝕄 :=
  iprop(PhiS m c (t.val + 1) ∗ (dats m 0 c).owesAt () t.castSucc
    ∗ owns (c : Thread nD τ) (st0_0 t) fullShare (bX m c t)
    ∗ owns (c : Thread nD τ) (st0_1 t) fullShare (bW m c t)
    ∗ owns (c : Thread nD τ) (st0_2 t) fullShare (bA m c t)
    ∗ owns (c : Thread nD τ) (st0_3 t) fullShare (bB m c t)
    ∗ owns (c : Thread nD τ) (st0_4 t) fullShare (bBias m c t)
    ∗ owns (c : Thread nD τ) (st0_5 t) fullShare (bTok m c t)
    ∗ owns (c : Thread nD τ) (st0_6 t) fullShare (bScal m c t)
    ∗ (dats m 0 c).leavesExact 7 t)

/-- The inputs are read at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

theorem leaves_in0 (c : Dev nD) (t : Fin cfg0.N) : (dats m 0 c).leavesExact 0 t = owns (c : Thread nD τ) (st0_0 t) fullShare (bX m c t) := by
  unfold Dat.leavesExact; rw [live0 t, after0_0]
theorem leaves_in1 (c : Dev nD) (t : Fin cfg0.N) : (dats m 0 c).leavesExact 1 t = owns (c : Thread nD τ) (st0_1 t) fullShare (bW m c t) := by
  unfold Dat.leavesExact; rw [live1 t, after0_1]
theorem leaves_in2 (c : Dev nD) (t : Fin cfg0.N) : (dats m 0 c).leavesExact 2 t = owns (c : Thread nD τ) (st0_2 t) fullShare (bA m c t) := by
  unfold Dat.leavesExact; rw [live2 t, after0_2]
theorem leaves_in3 (c : Dev nD) (t : Fin cfg0.N) : (dats m 0 c).leavesExact 3 t = owns (c : Thread nD τ) (st0_3 t) fullShare (bB m c t) := by
  unfold Dat.leavesExact; rw [live3 t, after0_3]
theorem leaves_in4 (c : Dev nD) (t : Fin cfg0.N) : (dats m 0 c).leavesExact 4 t = owns (c : Thread nD τ) (st0_4 t) fullShare (bBias m c t) := by
  unfold Dat.leavesExact; rw [live4 t, after0_4]
theorem leaves_in5 (c : Dev nD) (t : Fin cfg0.N) : (dats m 0 c).leavesExact 5 t = owns (c : Thread nD τ) (st0_5 t) fullShare (bTok m c t) := by
  unfold Dat.leavesExact; rw [live5 t, after0_5]
theorem leaves_in6 (c : Dev nD) (t : Fin cfg0.N) : (dats m 0 c).leavesExact 6 t = owns (c : Thread nD τ) (st0_6 t) fullShare (bScal m c t) := by
  unfold Dat.leavesExact; rw [live6 t, after0_6]

/-- The same two assertions as the launch states them. -/
def bodyPreLib (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPostLib (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem bodyPre_eq (c : Dev nD) (t : Fin cfg0.N) : bodyPreLib m c t = bodyPre m c t := by
  unfold bodyPreLib bodyPre
  simp only [before0_0, before0_1, before0_2, before0_3, before0_4, before0_5, before0_6]
  rfl

theorem bodyPost_eq (c : Dev nD) (t : Fin cfg0.N) : bodyPostLib m c t = bodyPost m c t := by
  unfold bodyPostLib bodyPost
  rw [leaves_in0, leaves_in1, leaves_in2, leaves_in3, leaves_in4, leaves_in5, leaves_in6]
  rfl

end Cert.KernelIdeal.Gen

end
-- ==== Proof.KI.Carry.lean ====
import proofs.«151416_j8899172237474_2_alg».proof.Proof.KI.Data

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The carried state, one component at a time

Point `n` has `k = n % 4` and `j = (n / 4) % 4`. -/

/-- The base accumulator after point `n`: the point's product added to zero (`k = 0`) or to what was carried. -/
theorem ab_succ (c : Dev nD) (n : ℕ) (h : n < cfg0.N) :
    (stN m c (n + 1)).1 = k0_pay4 (bX m c ⟨n, h⟩) (bW m c ⟨n, h⟩) (if n % 4 = 0 then k0_pay1 else (stN m c n).1) := by
  rw [show stN m c (n + 1) = stepAt m c ⟨n, h⟩ (stN m c n) from stN_succ m c ⟨n, h⟩]
  unfold stepAt; dsimp only
  split_ifs <;> first | rfl | omega

/-- The rank-128 accumulator after a point with `j = 0`. -/
theorem aa_succ (c : Dev nD) (n : ℕ) (h : n < cfg0.N) (hj : (n / 4) % 4 = 0) :
    (stN m c (n + 1)).2.1 = k0_pay5 (bX m c ⟨n, h⟩) (if n % 4 = 0 then k0_pay2 else (stN m c n).2.1) (bA m c ⟨n, h⟩) := by
  rw [show stN m c (n + 1) = stepAt m c ⟨n, h⟩ (stN m c n) from stN_succ m c ⟨n, h⟩]
  unfold stepAt; dsimp only
  split_ifs <;> first | rfl | omega

/-- The masked copy is taken at `j = 0, k = 3` from the rank-128 accumulator just completed, -/
theorem mk_take (c : Dev nD) (n : ℕ) (h : n < cfg0.N) (hj : (n / 4) % 4 = 0) (hk : n % 4 = 3) :
    (stN m c (n + 1)).2.2.1 = k0_pay6 (bTok m c ⟨n, h⟩) (bScal m c ⟨n, h⟩) (stN m c (n + 1)).2.1 := by
  rw [show stN m c (n + 1) = stepAt m c ⟨n, h⟩ (stN m c n) from stN_succ m c ⟨n, h⟩]
  rw [stepAt_C m c ⟨n, h⟩ _ hj hk]

/-- and kept at every other point. -/
theorem mk_keep (c : Dev nD) (n : ℕ) (h : n < cfg0.N) (hn : ¬((n / 4) % 4 = 0 ∧ n % 4 = 3)) :
    (stN m c (n + 1)).2.2.1 = (stN m c n).2.2.1 := by
  rw [show stN m c (n + 1) = stepAt m c ⟨n, h⟩ (stN m c n) from stN_succ m c ⟨n, h⟩]
  unfold stepAt; dsimp only
  split_ifs <;> first | rfl | (exfalso; omega) | (exfalso; exact hn ⟨‹_›, ‹_›⟩)

/-- So after any point of row-tile `i` from its fourth on, the masked copy is the one taken at the tile's fourth point. -/
theorem mk_const (c : Dev nD) (i : ℕ) (hi : i < 4) : ∀ d : ℕ, d ≤ 12 →
    (stN m c (16 * i + 4 + d)).2.2.1 = (stN m c (16 * i + 4)).2.2.1
  | 0, _ => rfl
  | d + 1, hd => by
    have h : 16 * i + 4 + d < cfg0.N := lt_of_lt_of_eq (by omega) N_0.symm
    rw [show 16 * i + 4 + (d + 1) = (16 * i + 4 + d) + 1 from rfl, mk_keep m c _ h (by omega)]
    exact mk_const c i hi d (by omega)

/-- The output block formed at a point with `k = 3`. -/
theorem out_at (c : Dev nD) (n : ℕ) (h : n < cfg0.N) (hk : n % 4 = 3) :
    (stN m c (n + 1)).2.2.2 = k0_pay7 (stN m c (n + 1)).2.2.1 (bB m c ⟨n, h⟩) (stN m c (n + 1)).1 (bBias m c ⟨n, h⟩) := by
  rw [show stN m c (n + 1) = stepAt m c ⟨n, h⟩ (stN m c n) from stN_succ m c ⟨n, h⟩]
  by_cases hj : (n / 4) % 4 = 0
  · rw [stepAt_C m c ⟨n, h⟩ _ hj hk]
  · rw [stepAt_F m c ⟨n, h⟩ _ hj hk]

end Cert.KernelIdeal.Gen

end
-- ==== Proof.Spec.lean ====
import Idealize.ShloMosaic.PureOps.Ideal.Laws

/-!
  The mathematics of one LoRA linear layer with per-token adapter routing, over the extended reals.

  Inputs: activations `x : [8192, 4096]`, a weight `w : [4096, 4096]`, a bias `[4096]`, eight rank-16 adapters
  `A e : [16, 4096]`, `B e : [4096, 16]`, a scaling and an adapter index per token.

  `Gref` is the textbook form: the dense layer plus, adapter by adapter, the low-rank update of the tokens routed to
  that adapter. `Gker` is the fused form: the eight adapters side by side as one `[4096, 128]` and one `[128, 4096]`
  matrix, the contraction over 4096 cut into four stretches of 1024 that are added one after the other, and the
  routing applied as a 0-or-scaling factor on the rank-128 intermediate. `Gker_eq_Gref` says they agree at every entry,
  for all extended-real inputs: a sum over `Fin 4096` is the sum of its four stretches, a sum over `Fin 128` is the sum
  over eight adapters of sums over sixteen ranks, a factor `0` annihilates (also an infinite cofactor), and at most one
  adapter index matches a token.
-/

noncomputable section

namespace Cert.Spec

variable (x : Fin 8192 → Fin 4096 → EReal) (w : Fin 4096 → Fin 4096 → EReal) (bias : Fin 4096 → EReal)
  (A : Fin 8 → Fin 16 → Fin 4096 → EReal) (B : Fin 8 → Fin 4096 → Fin 16 → EReal)
  (scal : Fin 8192 → EReal) (tok : Fin 8192 → BitVec 32)

/-! ## The textbook form -/

/-- The dense layer. -/
def base (s : Fin 8192) (o : Fin 4096) : EReal := (∑ v : Fin 4096, x s v * w v o) + bias o

/-- Adapter `e`'s low-rank update of token `s`, scaled. -/
def lora (e : Fin 8) (s : Fin 8192) (o : Fin 4096) : EReal :=
  ∑ q : Fin 16, ((∑ v : Fin 4096, x s v * A e q v) * scal s) * B e o q

/-- The update of adapter `e`, kept only for the tokens routed to it. -/
def sel (e : Fin 8) (s : Fin 8192) (o : Fin 4096) : EReal :=
  if tok s = BitVec.ofNat 32 e.val then lora x A B scal e s o else 0

/-- The layer: dense part plus the routed updates, added in adapter order onto zero. -/
def Gref (s : Fin 8192) (o : Fin 4096) : EReal :=
  base x w bias s o +
    ((((((((0 + sel x A B scal tok 0 s o) + sel x A B scal tok 1 s o) + sel x A B scal tok 2 s o) + sel x A B scal tok 3 s o)
      + sel x A B scal tok 4 s o) + sel x A B scal tok 5 s o) + sel x A B scal tok 6 s o) + sel x A B scal tok 7 s o)

/-! ## The fused form -/

/-- The adapters' `A` side by side: column `16 e + q` is row `q` of adapter `e`. -/
def Acomb (v : Fin 4096) (q : Fin 128) : EReal :=
  A ⟨q.val / 16, by have := q.isLt; omega⟩ ⟨q.val % 16, Nat.mod_lt _ (by decide)⟩ v

/-- The adapters' `B` stacked: row `16 e + q` is column `q` of adapter `e`. -/
def Bcomb (q : Fin 128) (o : Fin 4096) : EReal :=
  B ⟨q.val / 16, by have := q.isLt; omega⟩ o ⟨q.val % 16, Nat.mod_lt _ (by decide)⟩

/-- Column `v` of stretch `k` of the contraction. -/
def col (k : Fin 4) (u : Fin 1024) : Fin 4096 := ⟨1024 * k.val + u.val, by have := k.isLt; have := u.isLt; omega⟩

/-- Stretch `k` of the dense product. -/
def dBase (k : Fin 4) (s : Fin 8192) (o : Fin 4096) : EReal := ∑ u : Fin 1024, x s (col k u) * w (col k u) o

/-- Stretch `k` of the rank-128 product. -/
def dA (k : Fin 4) (s : Fin 8192) (q : Fin 128) : EReal := ∑ u : Fin 1024, x s (col k u) * Acomb A (col k u) q

/-- The dense product, its four stretches added in order onto zero. -/
def accBase (s : Fin 8192) (o : Fin 4096) : EReal :=
  (((0 + dBase x w 0 s o) + dBase x w 1 s o) + dBase x w 2 s o) + dBase x w 3 s o

/-- The rank-128 product, likewise. -/
def accA (s : Fin 8192) (q : Fin 128) : EReal :=
  (((0 + dA x A 0 s q) + dA x A 1 s q) + dA x A 2 s q) + dA x A 3 s q

/-- The routing factor on the rank-128 intermediate: the token's scaling on its adapter's sixteen columns, zero elsewhere. -/
def fac (s : Fin 8192) (q : Fin 128) : EReal := if tok s = BitVec.ofNat 32 (q.val / 16) then scal s else 0

/-- The layer as the fused kernel forms it. -/
def Gker (s : Fin 8192) (o : Fin 4096) : EReal :=
  (accBase x w s o + bias o) + ∑ q : Fin 128, (accA x A s q * fac scal tok s q) * Bcomb B q o

end Cert.Spec

end
-- ==== Proof.KI.Coords.lean ====
import proofs.«151416_j8899172237474_2_alg».proof.Proof.KI.Data
import proofs.«151416_j8899172237474_2_alg».proof.Proof.Spec
import Idealize.ShloMosaic.Lib.ValueIdx

noncomputable section

/-! The argument arrays of the idealized kernel as curried functions of plain coordinates, and the rows and columns of
    the arrays that the blocks of grid point `t = 16 i + 4 j + k` hold: rows `2048 i + r` of the activations, columns
    `1024 k + u` of the contraction, columns `1024 j + cc` of the output. -/

namespace Cert.KernelIdeal.Val

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

def aX : Fin 8192 → Fin 4096 → EReal := fun s v => m ((c.tc : Thread nD τ).loc main_arg0) (ix2 s v)
def aW : Fin 4096 → Fin 4096 → EReal := fun v o => m ((c.tc : Thread nD τ).loc main_arg1) (ix2 v o)
def aBias : Fin 4096 → EReal := fun o => m ((c.tc : Thread nD τ).loc main_arg2) (ix1 o)
def aA : Fin 8 → Fin 16 → Fin 4096 → EReal := fun e q v => m ((c.tc : Thread nD τ).loc main_arg3) (ix3 e q v)
def aB : Fin 8 → Fin 4096 → Fin 16 → EReal := fun e o q => m ((c.tc : Thread nD τ).loc main_arg4) (ix3 e o q)
def aScal : Fin 8192 → EReal := fun s => m ((c.tc : Thread nD τ).loc main_arg5) (ix1 s)
def aTok : Fin 8192 → BitVec 32 := fun s => m ((c.tc : Thread nD τ).loc main_arg6) (ix1 s)

theorem N64 (t : Fin cfg0.N) : t.val < 64 := lt_of_lt_of_eq t.isLt (show cfg0.N = 64 from N_0)

/-- Row `2048 i + r` of the activations, for the point's `i = t / 16`. -/
def rowOf (t : Fin cfg0.N) (r : Fin 2048) : Fin 8192 := ⟨2048 * (t.val / 16) + r.val, by have := N64 t; have := r.isLt; omega⟩
/-- Column `1024 k + u` of the contraction, for the point's `k = t % 4`. -/
def kcol (t : Fin cfg0.N) (u : Fin 1024) : Fin 4096 := ⟨1024 * (t.val % 4) + u.val, by have := u.isLt; omega⟩
/-- Column `1024 j + cc` of the output, for the point's `j = (t / 4) % 4`. -/
def jcol (t : Fin cfg0.N) (cc : Fin 1024) : Fin 4096 := ⟨1024 * ((t.val / 4) % 4) + cc.val, by have := cc.isLt; omega⟩

end Cert.KernelIdeal.Val

end
-- ==== Proof.KI.PayIdx.lean ====
import proofs.«151416_j8899172237474_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx
open scoped BigOperators

/-! # The kernel body's payloads read at an index, over the extended reals

Every float is an extended real and every float operation the exact one; a format change is the identity. -/

/-! ## The zero fill -/

/-- The first zero fill is 0 everywhere. -/
theorem pay1_apply (j : S2048x1024.Idx) : (k0_pay1 (F := Ideal)) j = 0 := by
  unfold k0_pay1
  simp only [shapeCast_self]
  exact Ideal.ofBits_zero_f32

/-- The second zero fill is 0 everywhere. -/
theorem pay2_apply (j : S2048x128.Idx) : (k0_pay2 (F := Ideal)) j = 0 := by
  unfold k0_pay2
  simp only [shapeCast_self]
  exact Ideal.ofBits_zero_f32

/-! ## The three matrix products into a zero accumulator -/

/-! ### the x block times the W block: [2048, 1024] × [1024, 1024] -/

/-- The left operand's row is the result's row. -/
theorem mmW_lhs0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
/-- The left operand's column is the contraction coordinate. -/
theorem mmW_lhs1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
/-- The right operand's row is the contraction coordinate. -/
theorem mmW_rhs0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
/-- The right operand's column is the result's column. -/
theorem mmW_rhs1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl
/-- Into the zero accumulator the matrix product at (r, c) is the sum over the contracted axis of the products. -/
theorem mmW_apply (lhs : FVec Ideal S2048x1024 .bf16) (rhs : FVec Ideal S1024x1024 .bf16) (r : Fin 2048) (c : Fin 1024) :
    FloatOps.matmul dot_S2048x1024_S1024x1024_S2048x1024_1_0_0_1_n_n none lhs rhs (constant (F := Ideal) S2048x1024 .f32 0x00000000#32) (ix2 r c)
      = ∑ u : Fin 1024, lhs (ix2 r u) * rhs (ix2 u c) := by
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r c) ((contrEquiv1 dot_S2048x1024_S1024x1024_S2048x1024_1_0_0_1_n_n 1024 rfl rfl).symm k) = ix2 r k := funext fun a => Fin.ext (by
    match a with
    | ⟨0, _⟩ => exact mmW_lhs0 _ _
    | ⟨1, _⟩ => exact (mmW_lhs1 _ _).trans hk)
  have er : dot_S2048x1024_S1024x1024_S2048x1024_1_0_0_1_n_n.rhsIdx (ix2 r c) ((contrEquiv1 dot_S2048x1024_S1024x1024_S2048x1024_1_0_0_1_n_n 1024 rfl rfl).symm k) = ix2 k c := funext fun a => Fin.ext (by
    match a with
    | ⟨0, _⟩ => exact (mmW_rhs0 _ _).trans hk
    | ⟨1, _⟩ => exact mmW_rhs1 _ _)
  rw [el, er]

/-! ### the x block times the A block: [2048, 1024] × [1024, 128] -/

/-- The left operand's row is the result's row. -/
theorem mmA_lhs0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
/-- The left operand's column is the contraction coordinate. -/
theorem mmA_lhs1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
/-- The right operand's row is the contraction coordinate. -/
theorem mmA_rhs0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
/-- The right operand's column is the result's column. -/
theorem mmA_rhs1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl
/-- Into the zero accumulator the matrix product at (r, c) is the sum over the contracted axis of the products. -/
theorem mmA_apply (lhs : FVec Ideal S2048x1024 .bf16) (rhs : FVec Ideal S1024x128 .bf16) (r : Fin 2048) (c : Fin 128) :
    FloatOps.matmul dot_S2048x1024_S1024x128_S2048x128_1_0_0_1_n_n none lhs rhs (constant (F := Ideal) S2048x128 .f32 0x00000000#32) (ix2 r c)
      = ∑ u : Fin 1024, lhs (ix2 r u) * rhs (ix2 u c) := by
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 r c) ((contrEquiv1 dot_S2048x1024_S1024x128_S2048x128_1_0_0_1_n_n 1024 rfl rfl).symm k) = ix2 r k := funext fun a => Fin.ext (by
    match a with
    | ⟨0, _⟩ => exact mmA_lhs0 _ _
    | ⟨1, _⟩ => exact (mmA_lhs1 _ _).trans hk)
  have er : dot_S2048x1024_S1024x128_S2048x128_1_0_0_1_n_n.rhsIdx (ix2 r c) ((contrEquiv1 dot_S2048x1024_S1024x128_S2048x128_1_0_0_1_n_n 1024 rfl rfl).symm k) = ix2 k c := funext fun a => Fin.ext (by
    match a with
    | ⟨0, _⟩ => exact (mmA_rhs0 _ _).trans hk
    | ⟨1, _⟩ => exact mmA_rhs1 _ _)
  rw [el, er]

/-! ### the masked block times the B block: [2048, 128] × [128, 1024] -/

/-- The left operand's row is the result's row. -/
theorem mmB_lhs0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide), dif_pos (show (0 : Fin S2048x128.rank) ∈ dot_S2048x128_S128x1024_S2048x1024_1_0_0_1_n_n.lhsNonContracting by decide)]
  rfl
/-- The left operand's column is the contraction coordinate. -/
theorem mmB_lhs1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
/-- The right operand's row is the contraction coordinate. -/
theorem mmB_rhs0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
/-- The right operand's column is the result's column. -/
theorem mmB_rhs1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide), dif_pos (show (1 : Fin S128x1024.rank) ∈ dot_S2048x128_S128x1024_S2048x1024_1_0_0_1_n_n.rhsNonContracting by decide)]
  rfl
/-- Into the zero accumulator the matrix product at (r, c) is the sum over the contracted axis of the products. -/
theorem mmB_apply (lhs : FVec Ideal S2048x128 .bf16) (rhs : FVec Ideal S128x1024 .bf16) (r : Fin 2048) (c : Fin 1024) :
    FloatOps.matmul dot_S2048x128_S128x1024_S2048x1024_1_0_0_1_n_n none lhs rhs (constant (F := Ideal) S2048x1024 .f32 0x00000000#32) (ix2 r c)
      = ∑ u : Fin 128, lhs (ix2 r u) * rhs (ix2 u c) := by
  rw [Ideal.matmul_constant_zero_apply, ← Equiv.sum_comp (contrEquiv1 dot_S2048x128_S128x1024_S2048x1024_1_0_0_1_n_n 128 rfl rfl).symm]
  refine Finset.sum_congr rfl fun k _ => ?_
  have hk := contrEquiv1_symm_val dot_S2048x128_S128x1024_S2048x1024_1_0_0_1_n_n 128 rfl rfl k
  have el : dot_S2048x128_S128x1024_S2048x1024_1_0_0_1_n_n.lhsIdx (ix2 r c) ((contrEquiv1 dot_S2048x128_S128x1024_S2048x1024_1_0_0_1_n_n 128 rfl rfl).symm k) = ix2 r k := funext fun a => Fin.ext (by
    match a with
    | ⟨0, _⟩ => exact mmB_lhs0 _ _
    | ⟨1, _⟩ => exact (mmB_lhs1 _ _).trans hk)
  have er : dot_S2048x128_S128x1024_S2048x1024_1_0_0_1_n_n.rhsIdx (ix2 r c) ((contrEquiv1 dot_S2048x128_S128x1024_S2048x1024_1_0_0_1_n_n 128 rfl rfl).symm k) = ix2 k c := funext fun a => Fin.ext (by
    match a with
    | ⟨0, _⟩ => exact (mmB_rhs0 _ _).trans hk
    | ⟨1, _⟩ => exact mmB_rhs1 _ _)
  rw [el, er]

/-! ## The accumulating payloads -/

/-- The accumulator plus the product of the x block and the W block. -/
theorem pay4_apply (xb : Vec Ideal S2048x1024 .bf16) (wb : Vec Ideal S1024x1024 .bf16) (acc : Vec Ideal S2048x1024 .f32) (r : Fin 2048) (cc : Fin 1024) :
    k0_pay4 xb wb acc (ix2 r cc) = acc (ix2 r cc) + ∑ u : Fin 1024, xb (ix2 r u) * wb (ix2 u cc) := by
  unfold k0_pay4 k0_pay3
  simp only [shapeCast_self, matmul]
  exact congrArg (acc (ix2 r cc) + ·) (mmW_apply xb wb r cc)

/-- The accumulator plus the product of the x block and the A block. -/
theorem pay5_apply (xb : Vec Ideal S2048x1024 .bf16) (acc : Vec Ideal S2048x128 .f32) (ab : Vec Ideal S1024x128 .bf16) (r : Fin 2048) (q : Fin 128) :
    k0_pay5 xb acc ab (ix2 r q) = acc (ix2 r q) + ∑ u : Fin 1024, xb (ix2 r u) * ab (ix2 u q) := by
  unfold k0_pay5 k0_pay3
  simp only [shapeCast_self, matmul]
  exact congrArg (acc (ix2 r q) + ·) (mmA_apply xb ab r q)

/-- The accumulator plus the bias row, plus the product of the masked block and the B block. -/
theorem pay7_apply (mk : Vec Ideal S2048x128 .bf16) (bb : Vec Ideal S128x1024 .bf16) (ab : Vec Ideal S2048x1024 .f32) (bs : Vec Ideal S1x1024 .f32) (r : Fin 2048) (cc : Fin 1024) :
    k0_pay7 mk bb ab bs (ix2 r cc) = (ab (ix2 r cc) + bs (ix2 0 cc)) + ∑ q : Fin 128, mk (ix2 r q) * bb (ix2 q cc) := by
  unfold k0_pay7
  simp only [shapeCast_self, matmul]
  exact congrArg₂ (· + ·) (congrArg (ab (ix2 r cc) + ·) (broadcastTo_1b_ab_apply bs broadcasts_S1x1024_S2048x1024 r cc)) (mmB_apply mk bb r cc)

/-! ## The routing factor -/

/-- A column vector [a, 1] broadcast along the rows to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- A select on the comparison "x = y" of two words is the `if` on their equality. -/
theorem select_cmpi_eq {α : Type} (x y : BitVec 32) (A B : α) :
    Scalar.select (IntOp.cmpi .eq x y) A B = if x = y then A else B := by
  show (if BitVec.ofBool (x == y) = 1#1 then A else B) = _
  by_cases h : x = y
  · rw [if_pos h, if_pos (by rw [beq_iff_eq.mpr h]; rfl)]
  · rw [if_neg h, if_neg (by rw [beq_eq_false_iff_ne.mpr h]; decide)]

/-- The adapter word of a column word x: the signed quotient x / 16 rounded toward zero, lowered by one when the signs of
    x and of 16 differ and the remainder is not zero — the floor of x / 16. -/
def colWord (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- On the 128 columns the adapter word is the column's number divided by 16: column q belongs to adapter q / 16.
    Checked column by column. -/
theorem colWord_eq : ∀ q : Fin 128, colWord (BitVec.ofNat 32 q.val) = BitVec.ofNat 32 (q.val / 16) := by
  decide +kernel

/-- The accumulator times the routing factor: the token's scaling where the token's adapter is the column's adapter
    q / 16, and 0 elsewhere. -/
theorem pay6_apply (tk : Vec Ideal S2048x1 .i32) (sc : Vec Ideal S2048x1 .f32) (aa : Vec Ideal S2048x128 .f32) (r : Fin 2048) (q : Fin 128) :
    k0_pay6 tk sc aa (ix2 r q) = aa (ix2 r q) * (if tk (ix2 r 0) = BitVec.ofNat 32 (q.val / 16) then sc (ix2 r 0) else 0) := by
  unfold k0_pay6
  simp only [shapeCast_self]
  show aa (ix2 r q) * Scalar.select
      (IntOp.cmpi .eq (broadcastTo S2048x128 tk broadcasts_S2048x1_S2048x128 (ix2 r q))
        (colWord (iota .tc S2048x128 32 [1] iota_S2048x128_d1_w32 (ix2 r q))))
      (broadcastTo S2048x128 sc broadcasts_S2048x1_S2048x128 (ix2 r q)) (Ideal.ofBits .f32 0x00000000#32) = _
  have hi : iota .tc S2048x128 32 [1] iota_S2048x128_d1_w32 (ix2 r q) = BitVec.ofNat 32 q.val :=
    iota_single_apply .tc S2048x128 32 1 iota_S2048x128_d1_w32 (ix2 r q)
  rw [hi, colWord_eq q, broadcastTo_a1_ab_apply, broadcastTo_a1_ab_apply, select_cmpi_eq, Ideal.ofBits_zero_f32]

end Cert.KernelIdeal.PayIdx

end
-- ==== Proof.KI.OutIdx.lean ====
import proofs.«151416_j8899172237474_2_alg».proof.Proof.KI.Carry
import proofs.«151416_j8899172237474_2_alg».proof.Proof.KI.Coords
import proofs.«151416_j8899172237474_2_alg».proof.Proof.KI.PayIdx

set_option maxRecDepth 16384

noncomputable section

/-! The output block the idealized kernel forms at a grid point with `k = 3`, entry by entry, is the fused form
    `Cert.Spec.Gker` of the argument arrays at the block's rows and columns: the base accumulator has added, onto zero, the
    four stretches of the dense product; the rank-128 accumulator, while `j = 0`, the four stretches of the product with the
    adapters' `A` side by side; the masked copy, taken at `j = 0, k = 3` and kept for the rest of the row tile, is that
    accumulator times the routing factor; the block is (base + bias) + masked copy × the adapters' `B` stacked. -/

namespace Cert.KernelIdeal.Val

open Cert.KernelIdeal Cert.KernelIdeal.Gen Cert.KernelIdeal.PayIdx Idealize.ShloMosaic Idealize.ShloMosaic.TcCoe Idealize.SL.Sem Idealize.ShloMosaic.ValueIdx

variable (m : (ℓ : Loc nD τ sig) → Buf (Elt Ideal) ℓ) (c : Dev nD)

/-- The input blocks at a point as entries of the argument arrays. -/
structure BlockReads : Prop where
  rX : ∀ (t : Fin cfg0.N) (r : Fin 2048) (u : Fin 1024), bX (F := Ideal) m c t (ix2 r u) = aX m c (rowOf t r) (kcol t u)
  rW : ∀ (t : Fin cfg0.N) (u : Fin 1024) (cc : Fin 1024), bW (F := Ideal) m c t (ix2 u cc) = aW m c (kcol t u) (jcol t cc)
  rA : ∀ (t : Fin cfg0.N) (u : Fin 1024) (q : Fin 128), bA (F := Ideal) m c t (ix2 u q) = Cert.Spec.Acomb (aA m c) (kcol t u) q
  rB : ∀ (t : Fin cfg0.N) (q : Fin 128) (cc : Fin 1024), bB (F := Ideal) m c t (ix2 q cc) = Cert.Spec.Bcomb (aB m c) q (jcol t cc)
  rBias : ∀ (t : Fin cfg0.N) (cc : Fin 1024), bBias (F := Ideal) m c t (ix2 (0 : Fin 1) cc) = aBias m c (jcol t cc)
  rTok : ∀ (t : Fin cfg0.N) (r : Fin 2048), bTok (F := Ideal) m c t (ix2 r (0 : Fin 1)) = aTok m c (rowOf t r)
  rScal : ∀ (t : Fin cfg0.N) (r : Fin 2048), bScal (F := Ideal) m c t (ix2 r (0 : Fin 1)) = aScal m c (rowOf t r)

variable {m c} (R : BlockReads m c)

/-- Points `4 p + k`, `k < 4`, share their row tile and output columns; their contraction stretch is `k`. -/
theorem row_eq (p k : ℕ) (hk : k < 4) (h : 4 * p + k < cfg0.N) (h3 : 4 * p + 3 < cfg0.N) (r : Fin 2048) :
    rowOf (⟨4 * p + k, h⟩ : Fin cfg0.N) r = rowOf ⟨4 * p + 3, h3⟩ r := Fin.ext (by
  show 2048 * ((4 * p + k) / 16) + r.val = 2048 * ((4 * p + 3) / 16) + r.val
  have : (4 * p + k) / 16 = (4 * p + 3) / 16 := by omega
  rw [this])
theorem jcol_eq (p k : ℕ) (hk : k < 4) (h : 4 * p + k < cfg0.N) (h3 : 4 * p + 3 < cfg0.N) (cc : Fin 1024) :
    jcol (⟨4 * p + k, h⟩ : Fin cfg0.N) cc = jcol ⟨4 * p + 3, h3⟩ cc := Fin.ext (by
  show 1024 * (((4 * p + k) / 4) % 4) + cc.val = 1024 * (((4 * p + 3) / 4) % 4) + cc.val
  have : (4 * p + k) / 4 = (4 * p + 3) / 4 := by omega
  rw [this])
theorem kcol_eq (p k : ℕ) (hk : k < 4) (h : 4 * p + k < cfg0.N) (u : Fin 1024) :
    kcol (⟨4 * p + k, h⟩ : Fin cfg0.N) u = Cert.Spec.col ⟨k, hk⟩ u := Fin.ext (by
  show 1024 * ((4 * p + k) % 4) + u.val = 1024 * k + u.val
  have : (4 * p + k) % 4 = k := by omega
  rw [this])

include R

/-- The dense product of the blocks at point `4 p + k` is stretch `k` of the dense product of the arrays. -/
theorem dBase_at (p k : ℕ) (hk : k < 4) (h : 4 * p + k < cfg0.N) (h3 : 4 * p + 3 < cfg0.N) (r : Fin 2048) (cc : Fin 1024) :
    ∑ u : Fin 1024, bX (F := Ideal) m c ⟨4 * p + k, h⟩ (ix2 r u) * bW (F := Ideal) m c ⟨4 * p + k, h⟩ (ix2 u cc)
      = Cert.Spec.dBase (aX m c) (aW m c) ⟨k, hk⟩ (rowOf ⟨4 * p + 3, h3⟩ r) (jcol ⟨4 * p + 3, h3⟩ cc) := by
  unfold Cert.Spec.dBase
  refine Finset.sum_congr rfl fun u _ => ?_
  rw [R.rX, R.rW, row_eq p k hk h h3, jcol_eq p k hk h h3, kcol_eq p k hk h]

/-- Likewise the product with the adapters' `A` side by side. -/
theorem dA_at (p k : ℕ) (hk : k < 4) (h : 4 * p + k < cfg0.N) (h3 : 4 * p + 3 < cfg0.N) (r : Fin 2048) (q : Fin 128) :
    ∑ u : Fin 1024, bX (F := Ideal) m c ⟨4 * p + k, h⟩ (ix2 r u) * bA (F := Ideal) m c ⟨4 * p + k, h⟩ (ix2 u q)
      = Cert.Spec.dA (aX m c) (aA m c) ⟨k, hk⟩ (rowOf ⟨4 * p + 3, h3⟩ r) q := by
  unfold Cert.Spec.dA
  refine Finset.sum_congr rfl fun u _ => ?_
  rw [R.rX, R.rA, row_eq p k hk h h3, kcol_eq p k hk h]

/-- The base accumulator after the point with `k = 3`: the four stretches added in order onto zero. -/
theorem ab_idx (p : ℕ) (h3 : 4 * p + 3 < cfg0.N) (r : Fin 2048) (cc : Fin 1024) :
    (stN m c (4 * p + 3 + 1)).1 (ix2 r cc)
      = Cert.Spec.accBase (aX m c) (aW m c) (rowOf ⟨4 * p + 3, h3⟩ r) (jcol ⟨4 * p + 3, h3⟩ cc) := by
  have h2 : 4 * p + 2 < cfg0.N := by omega
  have h1 : 4 * p + 1 < cfg0.N := by omega
  have h0 : 4 * p + 0 < cfg0.N := by omega
  unfold Cert.Spec.accBase
  rw [ab_succ m c (4 * p + 3) h3, if_neg (by omega), pay4_apply, dBase_at R p 3 (by omega) h3 h3]
  rw [(ab_succ m c (4 * p + 2) h2 : (stN m c (4 * p + 3)).1 = _), if_neg (by omega), pay4_apply, dBase_at R p 2 (by omega) h2 h3]
  rw [(ab_succ m c (4 * p + 1) h1 : (stN m c (4 * p + 2)).1 = _), if_neg (by omega), pay4_apply, dBase_at R p 1 (by omega) h1 h3]
  rw [(ab_succ m c (4 * p + 0) h0 : (stN m c (4 * p + 1)).1 = _), if_pos (by omega), pay4_apply, dBase_at R p 0 (by omega) h0 h3, pay1_apply]
  rfl

/-- The rank-128 accumulator after the point `j = 0, k = 3`. -/
theorem aa_idx (p : ℕ) (hp : p % 4 = 0) (h3 : 4 * p + 3 < cfg0.N) (r : Fin 2048) (q : Fin 128) :
    (stN m c (4 * p + 3 + 1)).2.1 (ix2 r q)
      = Cert.Spec.accA (aX m c) (aA m c) (rowOf ⟨4 * p + 3, h3⟩ r) q := by
  have h2 : 4 * p + 2 < cfg0.N := by omega
  have h1 : 4 * p + 1 < cfg0.N := by omega
  have h0 : 4 * p + 0 < cfg0.N := by omega
  unfold Cert.Spec.accA
  rw [aa_succ m c (4 * p + 3) h3 (by omega), if_neg (by omega), pay5_apply, dA_at R p 3 (by omega) h3 h3]
  rw [(aa_succ m c (4 * p + 2) h2 (by omega) : (stN m c (4 * p + 3)).2.1 = _), if_neg (by omega), pay5_apply, dA_at R p 2 (by omega) h2 h3]
  rw [(aa_succ m c (4 * p + 1) h1 (by omega) : (stN m c (4 * p + 2)).2.1 = _), if_neg (by omega), pay5_apply, dA_at R p 1 (by omega) h1 h3]
  rw [(aa_succ m c (4 * p + 0) h0 (by omega) : (stN m c (4 * p + 1)).2.1 = _), if_pos (by omega), pay5_apply, dA_at R p 0 (by omega) h0 h3, pay2_apply]
  rfl

/-- The masked copy taken there: the accumulator times the routing factor. -/
theorem mk_idx (p : ℕ) (hp : p % 4 = 0) (h3 : 4 * p + 3 < cfg0.N) (r : Fin 2048) (q : Fin 128) :
    (stN m c (4 * p + 3 + 1)).2.2.1 (ix2 r q)
      = Cert.Spec.accA (aX m c) (aA m c) (rowOf ⟨4 * p + 3, h3⟩ r) q * Cert.Spec.fac (aScal m c) (aTok m c) (rowOf ⟨4 * p + 3, h3⟩ r) q := by
  rw [mk_take m c (4 * p + 3) h3 (by omega) (by omega), pay6_apply, aa_idx R p hp h3, R.rTok, R.rScal]
  rfl

/-- THE OUTPUT BLOCK at the point with `k = 3` of any `(i, j)`, entry by entry. -/
theorem out_idx (p : ℕ) (h3 : 4 * p + 3 < cfg0.N) (r : Fin 2048) (cc : Fin 1024) :
    (stN m c (4 * p + 3 + 1)).2.2.2 (ix2 r cc)
      = Cert.Spec.Gker (aX m c) (aW m c) (aBias m c) (aA m c) (aB m c) (aScal m c) (aTok m c)
          (rowOf ⟨4 * p + 3, h3⟩ r) (jcol ⟨4 * p + 3, h3⟩ cc) := by
  have hN : 4 * p + 3 < 64 := lt_of_lt_of_eq h3 N_0
  have h3' : 4 * (4 * (p / 4)) + 3 < cfg0.N := lt_of_lt_of_eq (by omega) N_0.symm
  have hrow : ∀ r : Fin 2048, rowOf (⟨4 * (4 * (p / 4)) + 3, h3'⟩ : Fin cfg0.N) r = rowOf ⟨4 * p + 3, h3⟩ r := fun r => Fin.ext (by
    show 2048 * ((4 * (4 * (p / 4)) + 3) / 16) + r.val = 2048 * ((4 * p + 3) / 16) + r.val
    have : (4 * (4 * (p / 4)) + 3) / 16 = (4 * p + 3) / 16 := by omega
    rw [this])
  have hmk : (stN m c (4 * p + 3 + 1)).2.2.1 = (stN m c (4 * (4 * (p / 4)) + 3 + 1)).2.2.1 := by
    have e := mk_const m c (p / 4) (by omega) (4 * (p % 4)) (by omega)
    have e1 : 16 * (p / 4) + 4 + 4 * (p % 4) = 4 * p + 3 + 1 := by omega
    have e2 : 16 * (p / 4) + 4 = 4 * (4 * (p / 4)) + 3 + 1 := by omega
    rw [e1, e2] at e
    exact e
  unfold Cert.Spec.Gker
  rw [out_at m c (4 * p + 3) h3 (by omega), pay7_apply, ab_idx R p h3, R.rBias, hmk]
  congr 1
  refine Finset.sum_congr rfl fun q _ => ?_
  rw [mk_idx R (4 * (p / 4)) (by omega) h3', R.rB, hrow]

end Cert.KernelIdeal.Val

end
-- ==== Proof.KI.RunA.lean ====
import proofs.«151416_j8899172237474_2_alg».proof.Proof.KI.Guards

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case A (which of the five guards hold is fixed by the hypotheses): from the buffers it
    touches at the named contents it runs to the end, leaving each buffer at the stated function of what it read. -/
theorem run_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : cK0 i) (h2 : cJK0 i) (h3 : cJ0 i) (h4 : ¬cJK3 i) (h5 : ¬cK3 i)
    (x0 : Vec F S2048x1024 .bf16) (x1 : Vec F S1024x1024 .bf16) (x2 : Vec F S1024x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg11 fullShare (k0_pay4 x0 x1 k0_pay1) ∗ owns (c : Thread nD τ) arg12 fullShare (k0_pay5 x0 k0_pay2 x2)) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f5, %hf5, H5⟩, ⟨%d11, %f11, -, H11⟩, ⟨%d12, %f12, -, H12⟩, Hk⟩
  subst hf3 hf4 hf5
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists _; isplitr
    swap; · iexact H11
    ipureintro
    stored_eq
  iexists _; isplitr
  swap; · iexact H12
  ipureintro
  stored_eq

end Cert.KernelIdeal.Gen

end
-- ==== Proof.KI.SoundA.lean ====
import proofs.«151416_j8899172237474_2_alg».proof.Proof.KI.Data
import proofs.«151416_j8899172237474_2_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case A: the invariant supplies the scratch buffers the case reads at the carried
    state, the case's run applies, and the buffers it leaves are the carried state after the point. -/
theorem sound_A (c : Dev nD) (t : Fin cfg0.N) (hj : (t.val / 4) % 4 = 0) (hk0 : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [Dat.leavesExact_idle (dats m 0 c) 7 t (idle7 t (by omega : ¬t.val % 4 = 3)) (noFlush7 t (by omega : ¬t.val % 4 = 3))]
  rw [stN_succ, stepAt_A m c t (stN m c t.val) hj hk0]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply (run_A c (grid0.coords t) _ _ _ _ _ _ _ _ _ _ _ _ _ _ _ _ _ _ _ _ _ _ ((hK0 t).mpr hk0) ((hJK0 t).mpr ⟨hj, hk0⟩) ((hJ0 t).mpr hj) (fun h => absurd ((hJK3 t).mp h).2 (by omega)) (fun h => absurd ((hK3 t).mp h) (by omega)) (bX m c t) (bW m c t) (bA m c t) Set.univ _)
  isplitl [H0]; · iexact H0
  isplitl [H1]; · iexact H1
  isplitl [H2]; · iexact H2
  isplitl [HB]; · iexists _; iexact HB
  isplitl [HA]; · iexists _; iexact HA
  iintro ⟨H0, H1, H2, HB, HA⟩
  isplitl [HB HA HM Hg]
  · isplitl [HB]
    · iexists _; isplitr
      swap; · iexact HB
      ipureintro; intro _; rfl
    isplitl [HA]
    · iexists _; isplitr
      swap; · iexact HA
      ipureintro; intro _; rfl
    isplitl [HM]
    · iexists _; isplitr
      swap; · iexact HM
      ipureintro; intro _; exact hM (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists e7; iexact H7

end Cert.KernelIdeal.Gen

end
-- ==== Proof.KI.RunB.lean ====
import proofs.«151416_j8899172237474_2_alg».proof.Proof.KI.Guards

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case B (which of the five guards hold is fixed by the hypotheses): from the buffers it
    touches at the named contents it runs to the end, leaving each buffer at the stated function of what it read. -/
theorem run_B (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : ¬cK0 i) (h2 : ¬cJK0 i) (h3 : cJ0 i) (h4 : ¬cJK3 i) (h5 : ¬cK3 i)
    (x0 : Vec F S2048x1024 .bf16) (x1 : Vec F S1024x1024 .bf16) (x2 : Vec F S1024x128 .bf16) (ab : Vec F S2048x1024 .f32) (aa : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg11 fullShare ab ∗ owns (c : Thread nD τ) arg12 fullShare aa
        ∗ (iprop(owns (c : Thread nD τ) arg3 fullShare x0 ∗ owns (c : Thread nD τ) arg4 fullShare x1 ∗ owns (c : Thread nD τ) arg5 fullShare x2 ∗ owns (c : Thread nD τ) arg11 fullShare (k0_pay4 x0 x1 ab) ∗ owns (c : Thread nD τ) arg12 fullShare (k0_pay5 x0 aa x2)) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f5, %hf5, H5⟩, ⟨%f11, %hf11, H11⟩, ⟨%f12, %hf12, H12⟩, Hk⟩
  subst hf3 hf4 hf5 hf11 hf12
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H11]
  · iexists _; isplitr
    swap; · iexact H11
    ipureintro
    stored_eq
  iexists _; isplitr
  swap; · iexact H12
  ipureintro
  stored_eq

end Cert.KernelIdeal.Gen

end
-- ==== Proof.KI.SoundB.lean ====
import proofs.«151416_j8899172237474_2_alg».proof.Proof.KI.Data
import proofs.«151416_j8899172237474_2_alg».proof.Proof.KI.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case B: the invariant supplies the scratch buffers the case reads at the carried
    state, the case's run applies, and the buffers it leaves are the carried state after the point. -/
theorem sound_B (c : Dev nD) (t : Fin cfg0.N) (hj : (t.val / 4) % 4 = 0) (hk0 : ¬t.val % 4 = 0) (hk3 : ¬t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [Dat.leavesExact_idle (dats m 0 c) 7 t (idle7 t hk3) (noFlush7 t hk3)]
  rw [stN_succ, stepAt_B m c t (stN m c t.val) hj hk0 hk3]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  obtain rfl := hB (by omega)
  obtain rfl := hA (by omega)
  iapply (run_B c (grid0.coords t) _ _ _ _ _ _ _ _ _ _ _ _ _ _ _ _ _ _ _ _ _ _ (fun h => hk0 ((hK0 t).mp h)) (fun h => hk0 ((hJK0 t).mp h).2) ((hJ0 t).mpr hj) (fun h => hk3 ((hJK3 t).mp h).2) (fun h => hk3 ((hK3 t).mp h)) (bX m c t) (bW m c t) (bA m c t) (stN m c t.val).1 (stN m c t.val).2.1 Set.univ _)
  isplitl [H0]; · iexact H0
  isplitl [H1]; · iexact H1
  isplitl [H2]; · iexact H2
  isplitl [HB]; · iexact HB
  isplitl [HA]; · iexact HA
  iintro ⟨H0, H1, H2, HB, HA⟩
  isplitl [HB HA HM Hg]
  · isplitl [HB]
    · iexists _; isplitr
      swap; · iexact HB
      ipureintro; intro _; rfl
    isplitl [HA]
    · iexists _; isplitr
      swap; · iexact HA
      ipureintro; intro _; rfl
    isplitl [HM]
    · iexists _; isplitr
      swap; · iexact HM
      ipureintro; intro _; exact hM (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists e7; iexact H7

end Cert.KernelIdeal.Gen

end
-- ==== Proof.KI.RunC.lean ====
import proofs.«151416_j8899172237474_2_alg».proof.Proof.KI.Guards

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case C (which of the five guards hold is fixed by the hypotheses): from the buffers it
    touches at the named contents it runs to the end, leaving each buffer at the stated function of what it read. -/
theorem run_C (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : ¬cK0 i) (h2 : ¬cJK0 i) (h3 : cJ0 i) (h4 : cJK3 i) (h5 : cK3 i)
    (x0 : Vec F S2048x1024 .bf16) (x1 : Vec F S1024x1024 .bf16) (x2 : Vec F S1024x128 .bf16) (x3 : Vec F S128x1024 .bf16) (x4 : Vec F S1x1024 .f32) (x5 : Vec F S2048x1 .i32) (x6 : Vec F S2048x1 .f32) (ab : Vec F S2048x1024 .f32) (aa : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare ab ∗ owns (c : Thread nD τ) arg12 fullShare aa ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay7 (k0_pay6 x5 x6 (k0_pay5 x0 aa x2)) x3 (k0_pay4 x0 x1 ab) x4) ∗ owns (c : Thread nD τ) arg11 fullShare (k0_pay4 x0 x1 ab) ∗ owns (c : Thread nD τ) arg12 fullShare (k0_pay5 x0 aa x2) ∗ owns (c : Thread nD τ) arg13 fullShare (k0_pay6 x5 x6 (k0_pay5 x0 aa x2))) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, Hk⟩
  subst hf3 hf4 hf5 hf6 hf7 hf8 hf9 hf11 hf12
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    stored_eq
  isplitl [H11]
  · iexists _; isplitr
    swap; · iexact H11
    ipureintro
    stored_eq
  isplitl [H12]
  · iexists _; isplitr
    swap; · iexact H12
    ipureintro
    stored_eq
  iexists _; isplitr
  swap; · iexact H13
  ipureintro
  stored_eq

end Cert.KernelIdeal.Gen

end
-- ==== Proof.KI.SoundC.lean ====
import proofs.«151416_j8899172237474_2_alg».proof.Proof.KI.Data
import proofs.«151416_j8899172237474_2_alg».proof.Proof.KI.RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case C: the invariant supplies the scratch buffers the case reads at the carried
    state, the case's run applies, and the buffers it leaves are the carried state after the point. -/
theorem sound_C (c : Dev nD) (t : Fin cfg0.N) (hj : (t.val / 4) % 4 = 0) (hk3 : t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [show (dats m 0 c).leavesExact 7 t = owns (c : Thread nD τ) (st0_7 t) fullShare (stN m c (t.val + 1)).2.2.2 from by
    unfold Dat.leavesExact; rw [live7 t hk3, after0_7]]
  rw [stN_succ, stepAt_C m c t (stN m c t.val) hj hk3]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  obtain rfl := hB (by omega)
  obtain rfl := hA (by omega)
  iapply (run_C c (grid0.coords t) _ _ _ _ _ _ _ _ _ _ _ _ _ _ _ _ _ _ _ _ _ _ (fun h => absurd ((hK0 t).mp h) (by omega)) (fun h => absurd ((hJK0 t).mp h).2 (by omega)) ((hJ0 t).mpr hj) ((hJK3 t).mpr ⟨hj, hk3⟩) ((hK3 t).mpr hk3) (bX m c t) (bW m c t) (bA m c t) (bB m c t) (bBias m c t) (bTok m c t) (bScal m c t) (stN m c t.val).1 (stN m c t.val).2.1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HB]; · iexact HB
  isplitl [HA]; · iexact HA
  isplitl [HM]; · iexists _; iexact HM
  iintro ⟨H0, H1, H2, H3, H4, H5, H6, H7, HB, HA, HM⟩
  isplitl [HB HA HM Hg]
  · isplitl [HB]
    · iexists _; isplitr
      swap; · iexact HB
      ipureintro; intro _; rfl
    isplitl [HA]
    · iexists _; isplitr
      swap; · iexact HA
      ipureintro; intro _; rfl
    isplitl [HM]
    · iexists _; isplitr
      swap; · iexact HM
      ipureintro; intro _; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Gen

end
-- ==== Proof.KI.RunD.lean ====
import proofs.«151416_j8899172237474_2_alg».proof.Proof.KI.Guards

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case D (which of the five guards hold is fixed by the hypotheses): from the buffers it
    touches at the named contents it runs to the end, leaving each buffer at the stated function of what it read. -/
theorem run_D (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : cK0 i) (h2 : ¬cJK0 i) (h3 : ¬cJ0 i) (h4 : ¬cJK3 i) (h5 : ¬cK3 i)
    (x0 : Vec F S2048x1024 .bf16) (x1 : Vec F S1024x1024 .bf16) (E : Set ℕ) (K : PUnit → sProp 𝕄) :
    iprop(owns (c : Thread nD τ) arg3 fullShare x0 ∗ owns (c : Thread nD τ) arg4 fullShare x1 ∗ (∃ d, owns (c : Thread nD τ) arg11 fullShare d)
        ∗ (iprop(owns (c : Thread nD τ) arg3 fullShare x0 ∗ owns (c : Thread nD τ) arg4 fullShare x1 ∗ owns (c : Thread nD τ) arg11 fullShare (k0_pay4 x0 x1 k0_pay1)) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%d11, %f11, -, H11⟩, Hk⟩
  subst hf3 hf4
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  iexists _; isplitr
  swap; · iexact H11
  ipureintro
  stored_eq

end Cert.KernelIdeal.Gen

end
-- ==== Proof.KI.SoundD.lean ====
import proofs.«151416_j8899172237474_2_alg».proof.Proof.KI.Data
import proofs.«151416_j8899172237474_2_alg».proof.Proof.KI.RunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case D: the invariant supplies the scratch buffers the case reads at the carried
    state, the case's run applies, and the buffers it leaves are the carried state after the point. -/
theorem sound_D (c : Dev nD) (t : Fin cfg0.N) (hj : ¬(t.val / 4) % 4 = 0) (hk0 : t.val % 4 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [Dat.leavesExact_idle (dats m 0 c) 7 t (idle7 t (by omega : ¬t.val % 4 = 3)) (noFlush7 t (by omega : ¬t.val % 4 = 3))]
  rw [stN_succ, stepAt_D m c t (stN m c t.val) hj hk0]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  iapply (run_D c (grid0.coords t) _ _ _ _ _ _ _ _ _ _ _ _ _ _ _ _ _ _ _ _ _ _ ((hK0 t).mpr hk0) (fun h => hj ((hJK0 t).mp h).1) (fun h => hj ((hJ0 t).mp h)) (fun h => hj ((hJK3 t).mp h).1) (fun h => absurd ((hK3 t).mp h) (by omega)) (bX m c t) (bW m c t) Set.univ _)
  isplitl [H0]; · iexact H0
  isplitl [H1]; · iexact H1
  isplitl [HB]; · iexists _; iexact HB
  iintro ⟨H0, H1, HB⟩
  isplitl [HB HA HM Hg]
  · isplitl [HB]
    · iexists _; isplitr
      swap; · iexact HB
      ipureintro; intro _; rfl
    isplitl [HA]
    · iexists _; isplitr
      swap; · iexact HA
      ipureintro; intro _; exact hA (by omega)
    isplitl [HM]
    · iexists _; isplitr
      swap; · iexact HM
      ipureintro; intro _; exact hM (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists e7; iexact H7

end Cert.KernelIdeal.Gen

end
-- ==== Proof.KI.RunE.lean ====
import proofs.«151416_j8899172237474_2_alg».proof.Proof.KI.Guards

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case E (which of the five guards hold is fixed by the hypotheses): from the buffers it
    touches at the named contents it runs to the end, leaving each buffer at the stated function of what it read. -/
theorem run_E (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : ¬cK0 i) (h2 : ¬cJK0 i) (h3 : ¬cJ0 i) (h4 : ¬cJK3 i) (h5 : ¬cK3 i)
    (x0 : Vec F S2048x1024 .bf16) (x1 : Vec F S1024x1024 .bf16) (ab : Vec F S2048x1024 .f32) (E : Set ℕ) (K : PUnit → sProp 𝕄) :
    iprop(owns (c : Thread nD τ) arg3 fullShare x0 ∗ owns (c : Thread nD τ) arg4 fullShare x1 ∗ owns (c : Thread nD τ) arg11 fullShare ab
        ∗ (iprop(owns (c : Thread nD τ) arg3 fullShare x0 ∗ owns (c : Thread nD τ) arg4 fullShare x1 ∗ owns (c : Thread nD τ) arg11 fullShare (k0_pay4 x0 x1 ab)) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f11, %hf11, H11⟩, Hk⟩
  subst hf3 hf4 hf11
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  iexists _; isplitr
  swap; · iexact H11
  ipureintro
  stored_eq

end Cert.KernelIdeal.Gen

end
-- ==== Proof.KI.SoundE.lean ====
import proofs.«151416_j8899172237474_2_alg».proof.Proof.KI.Data
import proofs.«151416_j8899172237474_2_alg».proof.Proof.KI.RunE

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case E: the invariant supplies the scratch buffers the case reads at the carried
    state, the case's run applies, and the buffers it leaves are the carried state after the point. -/
theorem sound_E (c : Dev nD) (t : Fin cfg0.N) (hj : ¬(t.val / 4) % 4 = 0) (hk0 : ¬t.val % 4 = 0) (hk3 : ¬t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [Dat.leavesExact_idle (dats m 0 c) 7 t (idle7 t hk3) (noFlush7 t hk3)]
  rw [stN_succ, stepAt_E m c t (stN m c t.val) hj hk0 hk3]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  obtain rfl := hB (by omega)
  iapply (run_E c (grid0.coords t) _ _ _ _ _ _ _ _ _ _ _ _ _ _ _ _ _ _ _ _ _ _ (fun h => hk0 ((hK0 t).mp h)) (fun h => hj ((hJK0 t).mp h).1) (fun h => hj ((hJ0 t).mp h)) (fun h => hj ((hJK3 t).mp h).1) (fun h => hk3 ((hK3 t).mp h)) (bX m c t) (bW m c t) (stN m c t.val).1 Set.univ _)
  isplitl [H0]; · iexact H0
  isplitl [H1]; · iexact H1
  isplitl [HB]; · iexact HB
  iintro ⟨H0, H1, HB⟩
  isplitl [HB HA HM Hg]
  · isplitl [HB]
    · iexists _; isplitr
      swap; · iexact HB
      ipureintro; intro _; rfl
    isplitl [HA]
    · iexists _; isplitr
      swap; · iexact HA
      ipureintro; intro _; exact hA (by omega)
    isplitl [HM]
    · iexists _; isplitr
      swap; · iexact HM
      ipureintro; intro _; exact hM (by omega)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists e7; iexact H7

end Cert.KernelIdeal.Gen

end
-- ==== Proof.KI.RunF.lean ====
import proofs.«151416_j8899172237474_2_alg».proof.Proof.KI.Guards

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a grid point of case F (which of the five guards hold is fixed by the hypotheses): from the buffers it
    touches at the named contents it runs to the end, leaving each buffer at the stated function of what it read. -/
theorem run_F (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S2048x1 .i32) (harg8 : arg8.IsWhole) (arg9 : Memref sig .tc .vmem S2048x1 .f32) (harg9 : arg9.IsWhole) (arg10 : Memref sig .tc .vmem S2048x1024 .f32) (harg10 : arg10.IsWhole) (arg11 : Memref sig .tc .vmem S2048x1024 .f32) (harg11 : arg11.IsWhole) (arg12 : Memref sig .tc .vmem S2048x128 .f32) (harg12 : arg12.IsWhole) (arg13 : Memref sig .tc .vmem S2048x128 .bf16) (harg13 : arg13.IsWhole)
    (h1 : ¬cK0 i) (h2 : ¬cJK0 i) (h3 : ¬cJ0 i) (h4 : ¬cJK3 i) (h5 : cK3 i)
    (x0 : Vec F S2048x1024 .bf16) (x1 : Vec F S1024x1024 .bf16) (x3 : Vec F S128x1024 .bf16) (x4 : Vec F S1x1024 .f32) (ab : Vec F S2048x1024 .f32) (mk : Vec F S2048x128 .bf16) (E : Set ℕ) (K : PUnit → sProp 𝕄) :
    iprop(owns (c : Thread nD τ) arg3 fullShare x0 ∗ owns (c : Thread nD τ) arg4 fullShare x1 ∗ owns (c : Thread nD τ) arg6 fullShare x3 ∗ owns (c : Thread nD τ) arg7 fullShare x4 ∗ (∃ d, owns (c : Thread nD τ) arg10 fullShare d) ∗ owns (c : Thread nD τ) arg11 fullShare ab ∗ owns (c : Thread nD τ) arg13 fullShare mk
        ∗ (iprop(owns (c : Thread nD τ) arg3 fullShare x0 ∗ owns (c : Thread nD τ) arg4 fullShare x1 ∗ owns (c : Thread nD τ) arg6 fullShare x3 ∗ owns (c : Thread nD τ) arg7 fullShare x4 ∗ owns (c : Thread nD τ) arg10 fullShare (k0_pay7 mk x3 (k0_pay4 x0 x1 ab) x4) ∗ owns (c : Thread nD τ) arg11 fullShare (k0_pay4 x0 x1 ab) ∗ owns (c : Thread nD τ) arg13 fullShare mk) -∗ K ⟨⟩))
      ⊢ wp frame (wpE (defs₀ (F := F)) Variants.none c none) E (cc0__lora_kernel i arg3 harg3 arg4 harg4 arg5 harg5 arg6 harg6 arg7 harg7 arg8 harg8 arg9 harg9 arg10 harg10 arg11 harg11 arg12 harg12 arg13 harg13) K := by
  simp only [cc0__lora_kernel_eq_skeleton]; unfold cc0__lora_kernel_skel
  unfold owns
  iintro ⟨⟨%f3, %hf3, H3⟩, ⟨%f4, %hf4, H4⟩, ⟨%f6, %hf6, H6⟩, ⟨%f7, %hf7, H7⟩, ⟨%d10, %f10, -, H10⟩, ⟨%f11, %hf11, H11⟩, ⟨%f13, %hf13, H13⟩, Hk⟩
  subst hf3 hf4 hf6 hf7 hf11 hf13
  sl_exec (disch := first | exact h1 | exact h2 | exact h3 | exact h4 | exact h5)
  sl_step
  iapply Hk
  isplitl [H3]
  · iexists f3; isplitr; · ipureintro; rfl
    iexact H3
  isplitl [H4]
  · iexists f4; isplitr; · ipureintro; rfl
    iexact H4
  isplitl [H6]
  · iexists f6; isplitr; · ipureintro; rfl
    iexact H6
  isplitl [H7]
  · iexists f7; isplitr; · ipureintro; rfl
    iexact H7
  isplitl [H10]
  · iexists _; isplitr
    swap; · iexact H10
    ipureintro
    stored_eq
  isplitl [H11]
  · iexists _; isplitr
    swap; · iexact H11
    ipureintro
    stored_eq
  iexists f13; isplitr; · ipureintro; rfl
  iexact H13

end Cert.KernelIdeal.Gen

end
-- ==== Proof.KI.SoundF.lean ====
import proofs.«151416_j8899172237474_2_alg».proof.Proof.KI.Data
import proofs.«151416_j8899172237474_2_alg».proof.Proof.KI.RunF

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body obligation at a point of case F: the invariant supplies the scratch buffers the case reads at the carried
    state, the case's run applies, and the buffers it leaves are the carried state after the point. -/
theorem sound_F (c : Dev nD) (t : Fin cfg0.N) (hj : ¬(t.val / 4) % 4 = 0) (hk3 : t.val % 4 = 3) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0 PhiS
  rw [show (dats m 0 c).leavesExact 7 t = owns (c : Thread nD τ) (st0_7 t) fullShare (stN m c (t.val + 1)).2.2.2 from by
    unfold Dat.leavesExact; rw [live7 t hk3, after0_7]]
  rw [stN_succ, stepAt_F m c t (stN m c t.val) hj hk3]
  iintro ⟨⟨⟨%dB, %hB, HB⟩, ⟨%dA, %hA, HA⟩, ⟨%dM, %hM, HM⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
  obtain rfl := hB (by omega)
  obtain rfl := hM (by omega)
  iapply (run_F c (grid0.coords t) _ _ _ _ _ _ _ _ _ _ _ _ _ _ _ _ _ _ _ _ _ _ (fun h => absurd ((hK0 t).mp h) (by omega)) (fun h => hj ((hJK0 t).mp h).1) (fun h => hj ((hJ0 t).mp h)) (fun h => hj ((hJK3 t).mp h).1) ((hK3 t).mpr hk3) (bX m c t) (bW m c t) (bB m c t) (bBias m c t) (stN m c t.val).1 (stN m c t.val).2.2.1 Set.univ _)
  isplitl [H0]; · iexact H0
  isplitl [H1]; · iexact H1
  isplitl [H3]; · iexact H3
  isplitl [H4]; · iexact H4
  isplitl [H7]; · iexists _; iexact H7
  isplitl [HB]; · iexact HB
  isplitl [HM]; · iexact HM
  iintro ⟨H0, H1, H3, H4, H7, HB, HM⟩
  isplitl [HB HA HM Hg]
  · isplitl [HB]
    · iexists _; isplitr
      swap; · iexact HB
      ipureintro; intro _; rfl
    isplitl [HA]
    · iexists _; isplitr
      swap; · iexact HA
      ipureintro; intro _; exact hA (by omega)
    isplitl [HM]
    · iexists _; isplitr
      swap; · iexact HM
      ipureintro; intro _; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Gen

end
-- ==== Proof.KI.FrameRun.lean ====
import proofs.«151416_j8899172237474_2_alg».proof.Proof.KI.SoundA
import proofs.«151416_j8899172237474_2_alg».proof.Proof.KI.SoundB
import proofs.«151416_j8899172237474_2_alg».proof.Proof.KI.SoundC
import proofs.«151416_j8899172237474_2_alg».proof.Proof.KI.SoundD
import proofs.«151416_j8899172237474_2_alg».proof.Proof.KI.SoundE
import proofs.«151416_j8899172237474_2_alg».proof.Proof.KI.SoundF

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: which of `j = 0`, `k = 0`, `k = 3` hold picks the case. -/
theorem sound_body (c : Dev nD) (t : Fin cfg0.N) :
    bodyPre m c t ⊢ wp frame (wpE (defs₀ (F := F)) Variants.none c none) Set.univ (bodyAt0 t) (fun _ => bodyPost m c t) := by
  by_cases hj : (t.val / 4) % 4 = 0
  · by_cases hk0 : t.val % 4 = 0
    · exact sound_A m c t hj hk0
    · by_cases hk3 : t.val % 4 = 3
      · exact sound_C m c t hj hk3
      · exact sound_B m c t hj hk0 hk3
  · by_cases hk0 : t.val % 4 = 0
    · exact sound_D m c t hj hk0
    · by_cases hk3 : t.val % 4 = 3
      · exact sound_F m c t hj hk3
      · exact sound_E m c t hj hk0 hk3

/-- The launch's body obligation, at every point. -/
theorem body_obligation (c : Dev nD) : BodyObligation (dats (F := F) m 0 c) (defs₀ (F := F)) Variants.none () Set.univ := fun t => by
  rw [bigSep_W0, bigSep_W0]
  have h := sound_body m c t
  rw [← bodyPre_eq, ← bodyPost_eq] at h
  exact h

/-- Before the first point nothing is known of the scratch buffers: the class invariant is the tracked one at `0`. -/
theorem hin (c : Dev nD) : Pipeline.ΦA spec0 c ⊢ (dats m 0 c).Φ 0 := by
  rw [show (dats m 0 c).Φ 0 = PhiS m c 0 from rfl, PhiA_eq]; unfold PhiS
  iintro ⟨⟨⟨%d0, H0⟩, ⟨%d1, H1⟩, ⟨%d2, H2⟩⟩, Hg⟩
  isplitl [H0]
  · iexists d0; isplitr; · ipureintro; intro h; exact absurd h (by decide)
    iexact H0
  isplitl [H1]
  · iexists d1; isplitr; · ipureintro; intro h; exact absurd h (by decide)
    iexact H1
  isplitl [H2]
  · iexists d2; isplitr; · ipureintro; intro h; exact absurd h (by decide)
    iexact H2
  iexact Hg

/-- After the last point the carried contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨%d0, -, H0⟩, ⟨%d1, -, H1⟩, ⟨%d2, -, H2⟩, Hg⟩
  isplitl [H0 H1 H2]
  · isplitl [H0]; · iexists d0; iexact H0
    isplitl [H1]; · iexists d1; iexact H1
    iexists d2; iexact H2
  iexact Hg

set_option backward.isDefEq.respectTransparency.types false in
/-- Every weakly fair execution of @main terminates without a fault; each array of the region ends at what the proof
    data computes (an input: unchanged; the output: its blocks as the points with `k = 3` left them), every other
    unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Gen

end
-- ==== Proof.KI.Final.lean ====
import proofs.«151416_j8899172237474_2_alg».proof.Proof.KI.OutIdx
import proofs.«151416_j8899172237474_2_alg».proof.Proof.KI.FrameRun
import Idealize.ShloMosaic.Lib.Pipeline.Value

set_option maxRecDepth 16384

noncomputable section

/-! From blocks to the array: the sixteen output blocks `(i, j)`, each written back once after its point with `k = 3`,
    tile the `[8192, 4096]` result, and each is the block of ONE function of the argument arrays — the fused form of the
    layer — so the result array ends as that function. -/

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's result as one function of the argument arrays, entry by entry. -/
def Gout (c : Dev nD) : S8192x4096.Idx → EReal := fun i =>
  Cert.Spec.Gker (aX m c) (aW m c) (aBias m c) (aA m c) (aB m c) (aScal m c) (aTok m c) (i 0) (i 1)

/-- The output's block index at point `t` is `(i, j) = (t / 16, (t / 4) % 4)`. -/
theorem idx_facts7 : ∀ t : Fin cfg0.N, win0_7.index t (0 : Fin 2) = t.val / 16 ∧ win0_7.index t (1 : Fin 2) = (t.val / 4) % 4 :=
  (by decide +kernel : ∀ t : Fin grid0.N, win0_7.index t (0 : Fin 2) = t.val / 16 ∧ win0_7.index t (1 : Fin 2) = (t.val / 4) % 4)

variable {m}

/-- WHAT A POINT WITH `k = 3` WRITES BACK is its block of `Gout`. -/
theorem flushed7_eq (c : Dev nD) (R : BlockReads m c) (t : Fin cfg0.N) (hk : t.val % 4 = 3) :
    (dats m 0 c).flushed 7 t = ((cfg0.win 7).blk t).view.read (Elt Ideal) (Gout m c) := by
  show (cfg0.win 7).cut (grid0.coords t) ((dats m 0 c).after 7 t) = _
  rw [after0_7]
  obtain ⟨n, hn⟩ := t
  obtain ⟨p, rfl⟩ : ∃ p, n = 4 * p + 3 := ⟨n / 4, by dsimp only at hk; omega⟩
  obtain ⟨e0, e1⟩ := idx_facts7 ⟨4 * p + 3, hn⟩
  dsimp only at e0 e1
  funext y
  obtain ⟨r, cc, rfl⟩ : ∃ (r : Fin 2048) (cc : Fin 1024), y = ix2 r cc := ⟨y 0, y 1, eq_ix2 y⟩
  show (stN m c (4 * p + 3 + 1)).2.2.2 (ix2 r cc) = Gout m c (((cfg0.win 7).blk ⟨4 * p + 3, hn⟩).view.emb (ix2 r cc))
  rw [out_idx R p hn r cc]
  unfold Gout
  have h0 : (((cfg0.win 7).blk ⟨4 * p + 3, hn⟩).view.emb (ix2 r cc)) 0 = rowOf ⟨4 * p + 3, hn⟩ r := Fin.ext (by
    show win0_7.index ⟨4 * p + 3, hn⟩ (0 : Fin 2) * 2048 + 1 * r.val = 2048 * ((4 * p + 3) / 16) + r.val
    rw [e0]; omega)
  have h1 : (((cfg0.win 7).blk ⟨4 * p + 3, hn⟩).view.emb (ix2 r cc)) 1 = jcol ⟨4 * p + 3, hn⟩ cc := Fin.ext (by
    show win0_7.index ⟨4 * p + 3, hn⟩ (1 : Fin 2) * 1024 + 1 * cc.val = 1024 * (((4 * p + 3) / 4) % 4) + cc.val
    rw [e1]; omega)
  rw [h0, h1]

/-- An index of the result is in point `t`'s block iff each coordinate is in the block's range on its axis. -/
theorem mem_blk7 (t : Fin cfg0.N) (i : S8192x4096.Idx) :
    i ∈ ((cfg0.win 7).blk t).view.set ↔ ∀ a : Fin 2, win0_7.index t a * S2048x1024.size a ≤ (i a).val ∧ (i a).val < win0_7.index t a * S2048x1024.size a + S2048x1024.size a := by
  show i ∈ ((View.whole main_v11).slice (win0_7.rect t)).set ↔ _
  rw [View.set_slice_whole, Rect.mem_set_unit]
  exact Iff.rfl

/-- Every entry of the result lies in the block of the point `(i, j, 3)` with `i` its row tile and `j` its column tile. -/
theorem cover7 (i : S8192x4096.Idx) : ∃ t : Fin cfg0.N, (cfg0.win 7).flush t = true ∧ i ∈ ((cfg0.win 7).blk t).view.set := by
  have hi0 : (i 0).val < 8192 := (i 0).isLt
  have hi1 : (i 1).val < 4096 := (i 1).isLt
  obtain ⟨a, ha⟩ : ∃ a, a = (i 0).val / 2048 := ⟨_, rfl⟩
  obtain ⟨b, hb⟩ : ∃ b, b = (i 1).val / 1024 := ⟨_, rfl⟩
  have hN : 16 * a + 4 * b + 3 < cfg0.N := lt_of_lt_of_eq (by omega) N_0.symm
  obtain ⟨e0, e1⟩ := idx_facts7 ⟨16 * a + 4 * b + 3, hN⟩
  dsimp only at e0 e1
  refine ⟨⟨16 * a + 4 * b + 3, hN⟩, (flush0_7 _).mpr (by show (16 * a + 4 * b + 3) % 4 = 3; omega), ?_⟩
  rw [mem_blk7]
  intro x
  match x with
  | ⟨0, _⟩ =>
    show win0_7.index ⟨16 * a + 4 * b + 3, hN⟩ (0 : Fin 2) * 2048 ≤ (i 0).val ∧ (i 0).val < win0_7.index ⟨16 * a + 4 * b + 3, hN⟩ (0 : Fin 2) * 2048 + 2048
    rw [e0]; omega
  | ⟨1, _⟩ =>
    show win0_7.index ⟨16 * a + 4 * b + 3, hN⟩ (1 : Fin 2) * 1024 ≤ (i 1).val ∧ (i 1).val < win0_7.index ⟨16 * a + 4 * b + 3, hN⟩ (1 : Fin 2) * 1024 + 1024
    rw [e1]; omega

/-- THE RESULT ARRAY after the run. -/
theorem final7 (c : Dev nD) (R : BlockReads m c) : (dats m 0 c).arrAt 7 cfg0.N = Gout m c :=
  (dats m 0 c).arrAt_eq_of_cover 7 (Gout m c) (fun t hf => flushed7_eq c R t ((flush0_7 t).mp hf)) cover7

/-- The run, read: the result at the fused form of the layer, the seven arguments unchanged. -/
theorem run_value (R : ∀ c, BlockReads m c) : θ_run defs (onTc (τ := τ) (main (F := Ideal))) ⟨m, fun _ => 0, ρ⟩ fun r => ∀ c : Dev nD,
      r.2.mem ((c.tc : Thread nD τ).loc main_v11) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 7).trans (final7 c (R c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Val

end
-- ==== Proof.KI.Blocks.lean ====
import proofs.«151416_j8899172237474_2_alg».proof.Proof.KI.Coords
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

/-! The input blocks of grid point `t = 16 i + 4 j + k`, entry by entry, as entries of the argument arrays.

    The arrays the grid reads are layout changes of the arguments made before it starts: the activations and the weight
    converted to the narrower format (no change of value over the extended reals); the adapters' `A`, `[8, 16, 4096]`,
    with the contraction axis moved to the front and the two adapter axes merged, so that column `16 e + q` of the
    `[4096, 128]` result is row `q` of adapter `e`; the adapters' `B`, `[8, 4096, 16]`, with its last two axes swapped and
    the first two of the result merged, so that row `16 e + q` of the `[128, 4096]` result is column `q` of adapter `e`;
    the bias as one row, the token indices and the scalings as one column each.

    A block covers, along each axis, the array indices `(block index) * (block extent) + (coordinate in the block)`; the
    block indices at point `t` are `(i, k)` for the activations, `(k, j)` for the weight, `(k, 0)` for the combined `A`,
    `(0, j)` for the combined `B` and for the bias row, `(i, 0)` for the token indices and the scalings. -/

namespace Cert.KernelIdeal.Val

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-! ## The arrays the region finds, as operations of the arguments -/

/-- The activations as the grid finds them: the argument, converted. -/
theorem V_x : (V m c main_v9 : S8192x4096.Idx → EReal)
    = (truncf .bf16 (m ((c.tc : Thread nD τ).loc main_arg0)) bitsLt_bf16_f32 : FVec Ideal S8192x4096 .bf16) := by
  dsimp only [Gen.V, Gen.hostOps0]; after_results; try rfl

/-- The weight as the grid finds it: the argument, converted. -/
theorem V_w : (V m c main_v10 : S4096x4096.Idx → EReal)
    = (truncf .bf16 (m ((c.tc : Thread nD τ).loc main_arg1)) bitsLt_bf16_f32 : FVec Ideal S4096x4096 .bf16) := by
  dsimp only [Gen.V, Gen.hostOps0]; after_results; try rfl

/-- The combined `A`: the adapters' `A` with the contraction axis first, the adapter axes merged, converted. -/
theorem V_A : (V m c main_v2 : S4096x128.Idx → EReal)
    = (truncf .bf16 (shapeCast S4096x128 (transpose S4096x8x16 [2, 0, 1] (m ((c.tc : Thread nD τ).loc main_arg3)) transposes_S8x16x4096_S4096x8x16_2_0_1) shapeCasts_S4096x8x16_S4096x128) bitsLt_bf16_f32 : FVec Ideal S4096x128 .bf16) := by
  dsimp only [Gen.V, Gen.hostOps0]; after_results; try rfl

/-- The combined `B`: the adapters' `B` with its last two axes swapped, the first two then merged, converted. -/
theorem V_B : (V m c main_v5 : S128x4096.Idx → EReal)
    = (truncf .bf16 (shapeCast S128x4096 (transpose S8x16x4096 [0, 2, 1] (m ((c.tc : Thread nD τ).loc main_arg4)) transposes_S8x4096x16_S8x16x4096_0_2_1) shapeCasts_S8x16x4096_S128x4096) bitsLt_bf16_f32 : FVec Ideal S128x4096 .bf16) := by
  dsimp only [Gen.V, Gen.hostOps0]; after_results; try rfl

/-- The bias as one row. -/
theorem V_bias : (V m c main_v6 : S1x4096.Idx → EReal)
    = shapeCast S1x4096 (m ((c.tc : Thread nD τ).loc main_arg2) : S4096.Idx → EReal) shapeCasts_S4096_S1x4096 := by
  dsimp only [Gen.V, Gen.hostOps0]; after_results; try rfl

/-- The token indices as one column. -/
theorem V_tok : (V m c main_v7 : S8192x1.Idx → BitVec 32)
    = shapeCast S8192x1 (m ((c.tc : Thread nD τ).loc main_arg6) : S8192.Idx → BitVec 32) shapeCasts_S8192_S8192x1 := by
  dsimp only [Gen.V, Gen.hostOps0]; after_results; try rfl

/-- The scalings as one column. -/
theorem V_scal : (V m c main_v8 : S8192x1.Idx → EReal)
    = shapeCast S8192x1 (m ((c.tc : Thread nD τ).loc main_arg5) : S8192.Idx → EReal) shapeCasts_S8192_S8192x1 := by
  dsimp only [Gen.V, Gen.hostOps0]; after_results; try rfl

/-! ## The same arrays read at an index -/

/-- A conversion to a narrower format is the identity on extended reals. -/
theorem V_x_apply (s : Fin 8192) (v : Fin 4096) : (V m c main_v9 : S8192x4096.Idx → EReal) (ix2 s v) = aX m c s v := by
  rw [V_x]; rfl

theorem V_w_apply (v : Fin 4096) (o : Fin 4096) : (V m c main_v10 : S4096x4096.Idx → EReal) (ix2 v o) = aW m c v o := by
  rw [V_w]; rfl

/-- Entry `(v, 16 e + q)` of the combined `A` is `A e q v`: position `128 v + (16 e + q)` of the merged array is position
    `(8 v + e) 16 + q` of the `[4096, 8, 16]` one, whose entry `(v, e, q)` is the argument's `(e, q, v)`. -/
theorem V_A_apply (v : Fin 4096) (q : Fin 128) :
    (V m c main_v2 : S4096x128.Idx → EReal) (ix2 v q) = Cert.Spec.Acomb (aA m c) v q := by
  rw [V_A, truncf_apply]
  refine (shapeCast_apply _ shapeCasts_S4096x8x16_S4096x128 (ix2 v q)
    (ix3 v (⟨q.val / 16, by have := q.isLt; omega⟩ : Fin 8) (⟨q.val % 16, Nat.mod_lt _ (by decide)⟩ : Fin 16)) (by
      rw [Shape.rowMajor_val_three, Shape.rowMajor_val_two]
      show (v.val * 8 + q.val / 16) * 16 + q.val % 16 = v.val * 128 + q.val
      omega)).trans ?_
  exact transpose_apply _ _ transposes_S8x16x4096_S4096x8x16_2_0_1 _
    (ix3 (⟨q.val / 16, by have := q.isLt; omega⟩ : Fin 8) (⟨q.val % 16, Nat.mod_lt _ (by decide)⟩ : Fin 16) v)
    fun b => match b with | ⟨0, _⟩ => rfl | ⟨1, _⟩ => rfl | ⟨2, _⟩ => rfl

/-- Entry `(16 e + q, o)` of the combined `B` is `B e o q`: position `4096 (16 e + q) + o` of the merged array is position
    `(16 e + q) 4096 + o` of the `[8, 16, 4096]` one, whose entry `(e, q, o)` is the argument's `(e, o, q)`. -/
theorem V_B_apply (q : Fin 128) (o : Fin 4096) :
    (V m c main_v5 : S128x4096.Idx → EReal) (ix2 q o) = Cert.Spec.Bcomb (aB m c) q o := by
  rw [V_B, truncf_apply]
  refine (shapeCast_apply _ shapeCasts_S8x16x4096_S128x4096 (ix2 q o)
    (ix3 (⟨q.val / 16, by have := q.isLt; omega⟩ : Fin 8) (⟨q.val % 16, Nat.mod_lt _ (by decide)⟩ : Fin 16) o) (by
      rw [Shape.rowMajor_val_three, Shape.rowMajor_val_two]
      show ((q.val / 16) * 16 + q.val % 16) * 4096 + o.val = q.val * 4096 + o.val
      omega)).trans ?_
  exact transpose_apply _ _ transposes_S8x4096x16_S8x16x4096_0_2_1 _
    (ix3 (⟨q.val / 16, by have := q.isLt; omega⟩ : Fin 8) o (⟨q.val % 16, Nat.mod_lt _ (by decide)⟩ : Fin 16))
    fun b => match b with | ⟨0, _⟩ => rfl | ⟨1, _⟩ => rfl | ⟨2, _⟩ => rfl

/-- Entry `(0, o)` of the bias row is the bias at `o`. -/
theorem V_bias_apply (o : Fin 4096) : (V m c main_v6 : S1x4096.Idx → EReal) (ix2 (0 : Fin 1) o) = aBias m c o := by
  rw [V_bias]
  exact shapeCast_a_1a_apply _ shapeCasts_S4096_S1x4096 0 o

/-- Entry `(s, 0)` of the token column is token `s`'s adapter index. -/
theorem V_tok_apply (s : Fin 8192) : (V m c main_v7 : S8192x1.Idx → BitVec 32) (ix2 s (0 : Fin 1)) = aTok m c s := by
  rw [V_tok]
  exact shapeCast_apply _ shapeCasts_S8192_S8192x1 (ix2 s (0 : Fin 1)) (ix1 s) (by
    rw [Shape.rowMajor_val_two, Shape.rowMajor_val_one]
    show s.val = s.val * 1 + 0
    omega)

/-- Entry `(s, 0)` of the scaling column is token `s`'s scaling. -/
theorem V_scal_apply (s : Fin 8192) : (V m c main_v8 : S8192x1.Idx → EReal) (ix2 s (0 : Fin 1)) = aScal m c s := by
  rw [V_scal]
  exact shapeCast_apply _ shapeCasts_S8192_S8192x1 (ix2 s (0 : Fin 1)) (ix1 s) (by
    rw [Shape.rowMajor_val_two, Shape.rowMajor_val_one]
    show s.val = s.val * 1 + 0
    omega)

/-! ## The index maps over the grid -/

/-- The printed index maps at point `t = 16 i + 4 j + k`: the activations' block is `(i, k)`, the weight's `(k, j)`, the
    combined `A`'s `(k, 0)`, the combined `B`'s and the bias row's `(0, j)`, the tokens' and the scalings' `(i, 0)`. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = (t.val / 4) % 4
    ∧ win0_2.index t (0 : Fin 2) = t.val % 4 ∧ win0_2.index t (1 : Fin 2) = 0
    ∧ win0_3.index t (0 : Fin 2) = 0 ∧ win0_3.index t (1 : Fin 2) = (t.val / 4) % 4
    ∧ win0_4.index t (0 : Fin 2) = 0 ∧ win0_4.index t (1 : Fin 2) = (t.val / 4) % 4
    ∧ win0_5.index t (0 : Fin 2) = t.val / 16 ∧ win0_5.index t (1 : Fin 2) = 0
    ∧ win0_6.index t (0 : Fin 2) = t.val / 16 ∧ win0_6.index t (1 : Fin 2) = 0 :=
  (by decide +kernel : ∀ t : Fin grid0.N, _)

/-! ## The blocks -/

variable (t : Fin cfg0.N)

/-- The activations' block: rows `2048 i + r`, columns `1024 k + u`. -/
theorem bX_apply (r : Fin 2048) (u : Fin 1024) :
    bX (F := Ideal) m c t (ix2 r u) = aX m c (rowOf t r) (kcol t u) := by
  obtain ⟨e0, e1, -⟩ := idx_facts t
  have h : ((cfg0.win 0).blk t).view.emb (ix2 r u) = ix2 (rowOf t r) (kcol t u) := by
    funext a; apply Fin.ext
    match a with
    | ⟨0, _⟩ => show win0_0.index t (0 : Fin 2) * 2048 + 1 * r.val = 2048 * (t.val / 16) + r.val; omega
    | ⟨1, _⟩ => show win0_0.index t (1 : Fin 2) * 1024 + 1 * u.val = 1024 * (t.val % 4) + u.val; omega
  show (V m c main_v9 : S8192x4096.Idx → EReal) (((cfg0.win 0).blk t).view.emb (ix2 r u)) = _
  rw [h, V_x_apply]

/-- The weight's block: rows `1024 k + u`, columns `1024 j + cc`. -/
theorem bW_apply (u : Fin 1024) (cc : Fin 1024) :
    bW (F := Ideal) m c t (ix2 u cc) = aW m c (kcol t u) (jcol t cc) := by
  obtain ⟨-, -, e0, e1, -⟩ := idx_facts t
  have h : ((cfg0.win 1).blk t).view.emb (ix2 u cc) = ix2 (kcol t u) (jcol t cc) := by
    funext a; apply Fin.ext
    match a with
    | ⟨0, _⟩ => show win0_1.index t (0 : Fin 2) * 1024 + 1 * u.val = 1024 * (t.val % 4) + u.val; omega
    | ⟨1, _⟩ => show win0_1.index t (1 : Fin 2) * 1024 + 1 * cc.val = 1024 * ((t.val / 4) % 4) + cc.val; omega
  show (V m c main_v10 : S4096x4096.Idx → EReal) (((cfg0.win 1).blk t).view.emb (ix2 u cc)) = _
  rw [h, V_w_apply]

/-- The combined `A`'s block: rows `1024 k + u`, all 128 columns. -/
theorem bA_apply (u : Fin 1024) (q : Fin 128) :
    bA (F := Ideal) m c t (ix2 u q) = Cert.Spec.Acomb (aA m c) (kcol t u) q := by
  obtain ⟨-, -, -, -, e0, e1, -⟩ := idx_facts t
  have h : ((cfg0.win 2).blk t).view.emb (ix2 u q) = ix2 (kcol t u) q := by
    funext a; apply Fin.ext
    match a with
    | ⟨0, _⟩ => show win0_2.index t (0 : Fin 2) * 1024 + 1 * u.val = 1024 * (t.val % 4) + u.val; omega
    | ⟨1, _⟩ => show win0_2.index t (1 : Fin 2) * 128 + 1 * q.val = q.val; omega
  show (V m c main_v2 : S4096x128.Idx → EReal) (((cfg0.win 2).blk t).view.emb (ix2 u q)) = _
  rw [h, V_A_apply]

/-- The combined `B`'s block: all 128 rows, columns `1024 j + cc`. -/
theorem bB_apply (q : Fin 128) (cc : Fin 1024) :
    bB (F := Ideal) m c t (ix2 q cc) = Cert.Spec.Bcomb (aB m c) q (jcol t cc) := by
  obtain ⟨-, -, -, -, -, -, e0, e1, -⟩ := idx_facts t
  have h : ((cfg0.win 3).blk t).view.emb (ix2 q cc) = ix2 q (jcol t cc) := by
    funext a; apply Fin.ext
    match a with
    | ⟨0, _⟩ => show win0_3.index t (0 : Fin 2) * 128 + 1 * q.val = q.val; omega
    | ⟨1, _⟩ => show win0_3.index t (1 : Fin 2) * 1024 + 1 * cc.val = 1024 * ((t.val / 4) % 4) + cc.val; omega
  show (V m c main_v5 : S128x4096.Idx → EReal) (((cfg0.win 3).blk t).view.emb (ix2 q cc)) = _
  rw [h, V_B_apply]

/-- The bias row's block: columns `1024 j + cc`. -/
theorem bBias_apply (cc : Fin 1024) :
    bBias (F := Ideal) m c t (ix2 (0 : Fin 1) cc) = aBias m c (jcol t cc) := by
  obtain ⟨-, -, -, -, -, -, -, -, e0, e1, -⟩ := idx_facts t
  have h : ((cfg0.win 4).blk t).view.emb (ix2 (0 : Fin 1) cc) = ix2 (0 : Fin 1) (jcol t cc) := by
    funext a; apply Fin.ext
    match a with
    | ⟨0, _⟩ => show win0_4.index t (0 : Fin 2) * 1 + 1 * 0 = 0; omega
    | ⟨1, _⟩ => show win0_4.index t (1 : Fin 2) * 1024 + 1 * cc.val = 1024 * ((t.val / 4) % 4) + cc.val; omega
  show (V m c main_v6 : S1x4096.Idx → EReal) (((cfg0.win 4).blk t).view.emb (ix2 (0 : Fin 1) cc)) = _
  rw [h, V_bias_apply]

/-- The token column's block: rows `2048 i + r`. -/
theorem bTok_apply (r : Fin 2048) :
    bTok (F := Ideal) m c t (ix2 r (0 : Fin 1)) = aTok m c (rowOf t r) := by
  obtain ⟨-, -, -, -, -, -, -, -, -, -, e0, e1, -⟩ := idx_facts t
  have h : ((cfg0.win 5).blk t).view.emb (ix2 r (0 : Fin 1)) = ix2 (rowOf t r) (0 : Fin 1) := by
    funext a; apply Fin.ext
    match a with
    | ⟨0, _⟩ => show win0_5.index t (0 : Fin 2) * 2048 + 1 * r.val = 2048 * (t.val / 16) + r.val; omega
    | ⟨1, _⟩ => show win0_5.index t (1 : Fin 2) * 1 + 1 * 0 = 0; omega
  show (V m c main_v7 : S8192x1.Idx → BitVec 32) (((cfg0.win 5).blk t).view.emb (ix2 r (0 : Fin 1))) = _
  rw [h, V_tok_apply]

/-- The scaling column's block: rows `2048 i + r`. -/
theorem bScal_apply (r : Fin 2048) :
    bScal (F := Ideal) m c t (ix2 r (0 : Fin 1)) = aScal m c (rowOf t r) := by
  obtain ⟨-, -, -, -, -, -, -, -, -, -, -, -, e0, e1⟩ := idx_facts t
  have h : ((cfg0.win 6).blk t).view.emb (ix2 r (0 : Fin 1)) = ix2 (rowOf t r) (0 : Fin 1) := by
    funext a; apply Fin.ext
    match a with
    | ⟨0, _⟩ => show win0_6.index t (0 : Fin 2) * 2048 + 1 * r.val = 2048 * (t.val / 16) + r.val; omega
    | ⟨1, _⟩ => show win0_6.index t (1 : Fin 2) * 1 + 1 * 0 = 0; omega
  show (V m c main_v8 : S8192x1.Idx → EReal) (((cfg0.win 6).blk t).view.emb (ix2 r (0 : Fin 1))) = _
  rw [h, V_scal_apply]

end Cert.KernelIdeal.Val
end
-- ==== Proof.RefRead.lean ====
import proofs.«151416_j8899172237474_2_alg».proof.Proof.Gen.ReferenceIdeal.Read
import proofs.«151416_j8899172237474_2_alg».proof.Proof.Spec

/-!
  The reference program's result at an index, over the extended reals, is the textbook form `Cert.Spec.Gref`.

  The generated module reads the program one operation at a time. Here the readings are chained: the dense product with
  its bias; then, adapter by adapter, the slice of `A` (reshaped, transposed) contracted with the activations over the
  4096 columns, scaled by the token's scaling, contracted with the slice of `B` over the sixteen ranks, and kept where
  the token's adapter index equals the adapter's number (zero elsewhere); the eight routed updates added in order onto
  zero, and the dense part added in front.

  The only arithmetic is on indices: a reshape `[1, m, n] → [m, n]` reads entry `(a, b)` at the row-major position
  `a * n + b`, whose quotient and remainder by `n` are `a` and `b` again.
-/

noncomputable section

namespace Cert.ReferenceIdeal.RefValue

open Cert.ReferenceIdeal Cert.ReferenceIdeal.Gen Cert.ReferenceIdeal.Read Idealize.ShloMosaic Idealize.ShloMosaic.ValueIdx

/-- A select on the bit of an equality test of two words is the `if` on the equality. -/
theorem select_cmpi_eq {α : Type} (a b : BitVec 32) (A B : α) :
    Scalar.select (IntOp.cmpi .eq a b) A B = if a = b then A else B := by
  have hc : IntOp.cmpi .eq a b = 1 ↔ a = b := by
    show BitVec.ofBool (a == b) = 1 ↔ a = b
    by_cases h : a = b
    · subst h; simp
    · have hb : (a == b) = false := beq_eq_false_iff_ne.mpr h
      rw [hb]
      exact ⟨fun h' => absurd h' (by decide), fun h' => absurd h' h⟩
  unfold Scalar.select
  by_cases h : a = b
  · rw [if_pos h, if_pos (hc.mpr h)]
  · rw [if_neg h, if_neg (fun h' => h (hc.mp h'))]

/-! ### The dense layer -/

/-- The dense product plus the bias at `(s, o)`. -/
theorem base_apply (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (s : Fin 8192) (o : Fin 4096) :
    val_main_v3 (F := Ideal) x0 x1 x2 (ix2 s o)
      = Cert.Spec.base (fun s v => x0 (ix2 s v)) (fun v o => x1 (ix2 v o)) (fun o => x2 (ix1 o)) s o := by
  rw [val_main_v3_apply, val_main_v0_apply, val_main_v2_apply, val_main_v1_apply, Ideal.addf_def]
  unfold Cert.Spec.base
  have e2 : idx_main_v1 (idx_main_v2 (ix2 s o)) = ix1 o := funext fun a => Fin.ext (by match a with | ⟨0, _⟩ => rfl)
  rw [e2]
  congr 1
  refine Finset.sum_congr rfl fun v _ => ?_
  have el : lidx_main_v0 (ix2 s o) v = ix2 s v := funext fun a => Fin.ext (by match a with | ⟨0, _⟩ => rfl | ⟨1, _⟩ => rfl)
  have er : ridx_main_v0 (ix2 s o) v = ix2 v o := funext fun a => Fin.ext (by match a with | ⟨0, _⟩ => rfl | ⟨1, _⟩ => rfl)
  rw [el, er]

/-! ### Adapter 0 -/

/-- Adapter 0's slice of `A`, reshaped and transposed, read inside the two contractions: entry `(0, q, v)`. -/
theorem idxA0 (s : Fin 8192) (o : Fin 4096) (q : Fin 16) (v : Fin 4096) :
    idx_main_v5 (idx_main_v6 (idx_main_v7 (ridx_main_v8 (lidx_main_v15 (ix2 s o) q) v))) = ix3 (0 : Fin 8) q v :=
  funext fun a => Fin.ext (by
    have hq := q.isLt; have hv := v.isLt
    match a with
    | ⟨0, _⟩ => rfl
    | ⟨1, _⟩ => show (q.val * 4096 + v.val) / 4096 % 16 = q.val; omega
    | ⟨2, _⟩ => show (q.val * 4096 + v.val) % 4096 = v.val; omega)

/-- Adapter 0's slice of `B`, reshaped and transposed, read inside the second contraction: entry `(0, o, q)`. -/
theorem idxB0 (s : Fin 8192) (o : Fin 4096) (q : Fin 16) :
    idx_main_v12 (idx_main_v13 (idx_main_v14 (ridx_main_v15 (ix2 s o) q))) = ix3 (0 : Fin 8) o q :=
  funext fun a => Fin.ext (by
    have hq := q.isLt; have ho := o.isLt
    match a with
    | ⟨0, _⟩ => rfl
    | ⟨1, _⟩ => show (o.val * 16 + q.val) / 16 % 4096 = o.val; omega
    | ⟨2, _⟩ => show (o.val * 16 + q.val) % 16 = q.val; omega)

/-- The activations read inside the two contractions: entry `(s, v)`. -/
theorem idxX0 (s : Fin 8192) (o : Fin 4096) (q : Fin 16) (v : Fin 4096) :
    lidx_main_v8 (lidx_main_v15 (ix2 s o) q) v = ix2 s v :=
  funext fun a => Fin.ext (by match a with | ⟨0, _⟩ => rfl | ⟨1, _⟩ => rfl)

/-- The scaling, broadcast along the rank axis, read inside the second contraction: entry `s`. -/
theorem idxS0 (s : Fin 8192) (o : Fin 4096) (q : Fin 16) :
    idx_main_v9 (idx_main_v10 (lidx_main_v15 (ix2 s o) q)) = ix1 s :=
  funext fun a => Fin.ext (by match a with | ⟨0, _⟩ => rfl)

/-- The routing bit, broadcast along the output axis: entry `s`. -/
theorem idxT0 (s : Fin 8192) (o : Fin 4096) :
    idx_main_v18 (idx_main_call0_v1 (ix2 s o)) = ix1 s :=
  funext fun a => Fin.ext (by match a with | ⟨0, _⟩ => rfl)

/-- Adapter 0's low-rank product at `(s, o)`. -/
theorem lora0_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (s : Fin 8192) (o : Fin 4096) :
    val_main_v15 (F := Ideal) x0 x3 x4 x5 (ix2 s o)
      = Cert.Spec.lora (fun s v => x0 (ix2 s v)) (fun e q v => x3 (ix3 e q v)) (fun e o q => x4 (ix3 e o q))
          (fun s => x5 (ix1 s)) 0 s o := by
  rw [val_main_v15_apply]
  unfold Cert.Spec.lora
  refine Finset.sum_congr rfl fun q _ => ?_
  rw [val_main_v11_apply, val_main_v8_apply, val_main_v10_apply, val_main_v9_apply, val_main_v14_apply, val_main_v13_apply,
    val_main_v12_apply, idxB0, idxS0, Ideal.mulf_def]
  congr 2
  refine Finset.sum_congr rfl fun v _ => ?_
  rw [val_main_v7_apply, val_main_v6_apply, val_main_v5_apply, idxA0, idxX0]

/-- Adapter 0's routed update at `(s, o)`: the product where the token's index is 0, zero elsewhere. -/
theorem sel0_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v19 (F := Ideal) x0 x3 x4 x5 x6 (ix2 s o)
      = Cert.Spec.sel (fun s v => x0 (ix2 s v)) (fun e q v => x3 (ix3 e q v)) (fun e o q => x4 (ix3 e o q))
          (fun s => x5 (ix1 s)) (fun s => x6 (ix1 s)) 0 s o := by
  rw [val_main_v19_apply, val_main_call0_v1_apply, val_main_v18_apply, val_main_v17_apply, val_main_v16_apply, val_main_c_apply,
    val_main_call0_v2_apply, val_main_call0_v0_apply, val_main_cst_0_apply, idxT0, lora0_apply, select_cmpi_eq]
  unfold Cert.Spec.sel
  rw [Ideal.ofBits_def, Ideal.ofBits_zero_f32]
  rfl

/-! ### Adapter 1 -/

/-- Adapter 1's slice of `A`, reshaped and transposed, read inside the two contractions: entry `(1, q, v)`. -/
theorem idxA1 (s : Fin 8192) (o : Fin 4096) (q : Fin 16) (v : Fin 4096) :
    idx_main_v21 (idx_main_v22 (idx_main_v23 (ridx_main_v24 (lidx_main_v31 (ix2 s o) q) v))) = ix3 (1 : Fin 8) q v :=
  funext fun a => Fin.ext (by
    have hq := q.isLt; have hv := v.isLt
    match a with
    | ⟨0, _⟩ => rfl
    | ⟨1, _⟩ => show (q.val * 4096 + v.val) / 4096 % 16 = q.val; omega
    | ⟨2, _⟩ => show (q.val * 4096 + v.val) % 4096 = v.val; omega)

/-- Adapter 1's slice of `B`, reshaped and transposed, read inside the second contraction: entry `(1, o, q)`. -/
theorem idxB1 (s : Fin 8192) (o : Fin 4096) (q : Fin 16) :
    idx_main_v28 (idx_main_v29 (idx_main_v30 (ridx_main_v31 (ix2 s o) q))) = ix3 (1 : Fin 8) o q :=
  funext fun a => Fin.ext (by
    have hq := q.isLt; have ho := o.isLt
    match a with
    | ⟨0, _⟩ => rfl
    | ⟨1, _⟩ => show (o.val * 16 + q.val) / 16 % 4096 = o.val; omega
    | ⟨2, _⟩ => show (o.val * 16 + q.val) % 16 = q.val; omega)

/-- The activations read inside the two contractions: entry `(s, v)`. -/
theorem idxX1 (s : Fin 8192) (o : Fin 4096) (q : Fin 16) (v : Fin 4096) :
    lidx_main_v24 (lidx_main_v31 (ix2 s o) q) v = ix2 s v :=
  funext fun a => Fin.ext (by match a with | ⟨0, _⟩ => rfl | ⟨1, _⟩ => rfl)

/-- The scaling, broadcast along the rank axis, read inside the second contraction: entry `s`. -/
theorem idxS1 (s : Fin 8192) (o : Fin 4096) (q : Fin 16) :
    idx_main_v25 (idx_main_v26 (lidx_main_v31 (ix2 s o) q)) = ix1 s :=
  funext fun a => Fin.ext (by match a with | ⟨0, _⟩ => rfl)

/-- The routing bit, broadcast along the output axis: entry `s`. -/
theorem idxT1 (s : Fin 8192) (o : Fin 4096) :
    idx_main_v34 (idx_main_call1_v1 (ix2 s o)) = ix1 s :=
  funext fun a => Fin.ext (by match a with | ⟨0, _⟩ => rfl)

/-- Adapter 1's low-rank product at `(s, o)`. -/
theorem lora1_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (s : Fin 8192) (o : Fin 4096) :
    val_main_v31 (F := Ideal) x0 x3 x4 x5 (ix2 s o)
      = Cert.Spec.lora (fun s v => x0 (ix2 s v)) (fun e q v => x3 (ix3 e q v)) (fun e o q => x4 (ix3 e o q))
          (fun s => x5 (ix1 s)) 1 s o := by
  rw [val_main_v31_apply]
  unfold Cert.Spec.lora
  refine Finset.sum_congr rfl fun q _ => ?_
  rw [val_main_v27_apply, val_main_v24_apply, val_main_v26_apply, val_main_v25_apply, val_main_v30_apply, val_main_v29_apply,
    val_main_v28_apply, idxB1, idxS1, Ideal.mulf_def]
  congr 2
  refine Finset.sum_congr rfl fun v _ => ?_
  rw [val_main_v23_apply, val_main_v22_apply, val_main_v21_apply, idxA1, idxX1]

/-- Adapter 1's routed update at `(s, o)`: the product where the token's index is 1, zero elsewhere. -/
theorem sel1_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v35 (F := Ideal) x0 x3 x4 x5 x6 (ix2 s o)
      = Cert.Spec.sel (fun s v => x0 (ix2 s v)) (fun e q v => x3 (ix3 e q v)) (fun e o q => x4 (ix3 e o q))
          (fun s => x5 (ix1 s)) (fun s => x6 (ix1 s)) 1 s o := by
  rw [val_main_v35_apply, val_main_call1_v1_apply, val_main_v34_apply, val_main_v33_apply, val_main_v32_apply, val_main_c_1_apply,
    val_main_call1_v2_apply, val_main_call1_v0_apply, val_main_cst_2_apply, idxT1, lora1_apply, select_cmpi_eq]
  unfold Cert.Spec.sel
  rw [Ideal.ofBits_def, Ideal.ofBits_zero_f32]
  rfl

/-! ### Adapter 2 -/

/-- Adapter 2's slice of `A`, reshaped and transposed, read inside the two contractions: entry `(2, q, v)`. -/
theorem idxA2 (s : Fin 8192) (o : Fin 4096) (q : Fin 16) (v : Fin 4096) :
    idx_main_v37 (idx_main_v38 (idx_main_v39 (ridx_main_v40 (lidx_main_v47 (ix2 s o) q) v))) = ix3 (2 : Fin 8) q v :=
  funext fun a => Fin.ext (by
    have hq := q.isLt; have hv := v.isLt
    match a with
    | ⟨0, _⟩ => rfl
    | ⟨1, _⟩ => show (q.val * 4096 + v.val) / 4096 % 16 = q.val; omega
    | ⟨2, _⟩ => show (q.val * 4096 + v.val) % 4096 = v.val; omega)

/-- Adapter 2's slice of `B`, reshaped and transposed, read inside the second contraction: entry `(2, o, q)`. -/
theorem idxB2 (s : Fin 8192) (o : Fin 4096) (q : Fin 16) :
    idx_main_v44 (idx_main_v45 (idx_main_v46 (ridx_main_v47 (ix2 s o) q))) = ix3 (2 : Fin 8) o q :=
  funext fun a => Fin.ext (by
    have hq := q.isLt; have ho := o.isLt
    match a with
    | ⟨0, _⟩ => rfl
    | ⟨1, _⟩ => show (o.val * 16 + q.val) / 16 % 4096 = o.val; omega
    | ⟨2, _⟩ => show (o.val * 16 + q.val) % 16 = q.val; omega)

/-- The activations read inside the two contractions: entry `(s, v)`. -/
theorem idxX2 (s : Fin 8192) (o : Fin 4096) (q : Fin 16) (v : Fin 4096) :
    lidx_main_v40 (lidx_main_v47 (ix2 s o) q) v = ix2 s v :=
  funext fun a => Fin.ext (by match a with | ⟨0, _⟩ => rfl | ⟨1, _⟩ => rfl)

/-- The scaling, broadcast along the rank axis, read inside the second contraction: entry `s`. -/
theorem idxS2 (s : Fin 8192) (o : Fin 4096) (q : Fin 16) :
    idx_main_v41 (idx_main_v42 (lidx_main_v47 (ix2 s o) q)) = ix1 s :=
  funext fun a => Fin.ext (by match a with | ⟨0, _⟩ => rfl)

/-- The routing bit, broadcast along the output axis: entry `s`. -/
theorem idxT2 (s : Fin 8192) (o : Fin 4096) :
    idx_main_v50 (idx_main_call2_v1 (ix2 s o)) = ix1 s :=
  funext fun a => Fin.ext (by match a with | ⟨0, _⟩ => rfl)

/-- Adapter 2's low-rank product at `(s, o)`. -/
theorem lora2_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (s : Fin 8192) (o : Fin 4096) :
    val_main_v47 (F := Ideal) x0 x3 x4 x5 (ix2 s o)
      = Cert.Spec.lora (fun s v => x0 (ix2 s v)) (fun e q v => x3 (ix3 e q v)) (fun e o q => x4 (ix3 e o q))
          (fun s => x5 (ix1 s)) 2 s o := by
  rw [val_main_v47_apply]
  unfold Cert.Spec.lora
  refine Finset.sum_congr rfl fun q _ => ?_
  rw [val_main_v43_apply, val_main_v40_apply, val_main_v42_apply, val_main_v41_apply, val_main_v46_apply, val_main_v45_apply,
    val_main_v44_apply, idxB2, idxS2, Ideal.mulf_def]
  congr 2
  refine Finset.sum_congr rfl fun v _ => ?_
  rw [val_main_v39_apply, val_main_v38_apply, val_main_v37_apply, idxA2, idxX2]

/-- Adapter 2's routed update at `(s, o)`: the product where the token's index is 2, zero elsewhere. -/
theorem sel2_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v51 (F := Ideal) x0 x3 x4 x5 x6 (ix2 s o)
      = Cert.Spec.sel (fun s v => x0 (ix2 s v)) (fun e q v => x3 (ix3 e q v)) (fun e o q => x4 (ix3 e o q))
          (fun s => x5 (ix1 s)) (fun s => x6 (ix1 s)) 2 s o := by
  rw [val_main_v51_apply, val_main_call2_v1_apply, val_main_v50_apply, val_main_v49_apply, val_main_v48_apply, val_main_c_3_apply,
    val_main_call2_v2_apply, val_main_call2_v0_apply, val_main_cst_4_apply, idxT2, lora2_apply, select_cmpi_eq]
  unfold Cert.Spec.sel
  rw [Ideal.ofBits_def, Ideal.ofBits_zero_f32]
  rfl

/-! ### Adapter 3 -/

/-- Adapter 3's slice of `A`, reshaped and transposed, read inside the two contractions: entry `(3, q, v)`. -/
theorem idxA3 (s : Fin 8192) (o : Fin 4096) (q : Fin 16) (v : Fin 4096) :
    idx_main_v53 (idx_main_v54 (idx_main_v55 (ridx_main_v56 (lidx_main_v63 (ix2 s o) q) v))) = ix3 (3 : Fin 8) q v :=
  funext fun a => Fin.ext (by
    have hq := q.isLt; have hv := v.isLt
    match a with
    | ⟨0, _⟩ => rfl
    | ⟨1, _⟩ => show (q.val * 4096 + v.val) / 4096 % 16 = q.val; omega
    | ⟨2, _⟩ => show (q.val * 4096 + v.val) % 4096 = v.val; omega)

/-- Adapter 3's slice of `B`, reshaped and transposed, read inside the second contraction: entry `(3, o, q)`. -/
theorem idxB3 (s : Fin 8192) (o : Fin 4096) (q : Fin 16) :
    idx_main_v60 (idx_main_v61 (idx_main_v62 (ridx_main_v63 (ix2 s o) q))) = ix3 (3 : Fin 8) o q :=
  funext fun a => Fin.ext (by
    have hq := q.isLt; have ho := o.isLt
    match a with
    | ⟨0, _⟩ => rfl
    | ⟨1, _⟩ => show (o.val * 16 + q.val) / 16 % 4096 = o.val; omega
    | ⟨2, _⟩ => show (o.val * 16 + q.val) % 16 = q.val; omega)

/-- The activations read inside the two contractions: entry `(s, v)`. -/
theorem idxX3 (s : Fin 8192) (o : Fin 4096) (q : Fin 16) (v : Fin 4096) :
    lidx_main_v56 (lidx_main_v63 (ix2 s o) q) v = ix2 s v :=
  funext fun a => Fin.ext (by match a with | ⟨0, _⟩ => rfl | ⟨1, _⟩ => rfl)

/-- The scaling, broadcast along the rank axis, read inside the second contraction: entry `s`. -/
theorem idxS3 (s : Fin 8192) (o : Fin 4096) (q : Fin 16) :
    idx_main_v57 (idx_main_v58 (lidx_main_v63 (ix2 s o) q)) = ix1 s :=
  funext fun a => Fin.ext (by match a with | ⟨0, _⟩ => rfl)

/-- The routing bit, broadcast along the output axis: entry `s`. -/
theorem idxT3 (s : Fin 8192) (o : Fin 4096) :
    idx_main_v66 (idx_main_call3_v1 (ix2 s o)) = ix1 s :=
  funext fun a => Fin.ext (by match a with | ⟨0, _⟩ => rfl)

/-- Adapter 3's low-rank product at `(s, o)`. -/
theorem lora3_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (s : Fin 8192) (o : Fin 4096) :
    val_main_v63 (F := Ideal) x0 x3 x4 x5 (ix2 s o)
      = Cert.Spec.lora (fun s v => x0 (ix2 s v)) (fun e q v => x3 (ix3 e q v)) (fun e o q => x4 (ix3 e o q))
          (fun s => x5 (ix1 s)) 3 s o := by
  rw [val_main_v63_apply]
  unfold Cert.Spec.lora
  refine Finset.sum_congr rfl fun q _ => ?_
  rw [val_main_v59_apply, val_main_v56_apply, val_main_v58_apply, val_main_v57_apply, val_main_v62_apply, val_main_v61_apply,
    val_main_v60_apply, idxB3, idxS3, Ideal.mulf_def]
  congr 2
  refine Finset.sum_congr rfl fun v _ => ?_
  rw [val_main_v55_apply, val_main_v54_apply, val_main_v53_apply, idxA3, idxX3]

/-- Adapter 3's routed update at `(s, o)`: the product where the token's index is 3, zero elsewhere. -/
theorem sel3_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v67 (F := Ideal) x0 x3 x4 x5 x6 (ix2 s o)
      = Cert.Spec.sel (fun s v => x0 (ix2 s v)) (fun e q v => x3 (ix3 e q v)) (fun e o q => x4 (ix3 e o q))
          (fun s => x5 (ix1 s)) (fun s => x6 (ix1 s)) 3 s o := by
  rw [val_main_v67_apply, val_main_call3_v1_apply, val_main_v66_apply, val_main_v65_apply, val_main_v64_apply, val_main_c_5_apply,
    val_main_call3_v2_apply, val_main_call3_v0_apply, val_main_cst_6_apply, idxT3, lora3_apply, select_cmpi_eq]
  unfold Cert.Spec.sel
  rw [Ideal.ofBits_def, Ideal.ofBits_zero_f32]
  rfl

/-! ### Adapter 4 -/

/-- Adapter 4's slice of `A`, reshaped and transposed, read inside the two contractions: entry `(4, q, v)`. -/
theorem idxA4 (s : Fin 8192) (o : Fin 4096) (q : Fin 16) (v : Fin 4096) :
    idx_main_v69 (idx_main_v70 (idx_main_v71 (ridx_main_v72 (lidx_main_v79 (ix2 s o) q) v))) = ix3 (4 : Fin 8) q v :=
  funext fun a => Fin.ext (by
    have hq := q.isLt; have hv := v.isLt
    match a with
    | ⟨0, _⟩ => rfl
    | ⟨1, _⟩ => show (q.val * 4096 + v.val) / 4096 % 16 = q.val; omega
    | ⟨2, _⟩ => show (q.val * 4096 + v.val) % 4096 = v.val; omega)

/-- Adapter 4's slice of `B`, reshaped and transposed, read inside the second contraction: entry `(4, o, q)`. -/
theorem idxB4 (s : Fin 8192) (o : Fin 4096) (q : Fin 16) :
    idx_main_v76 (idx_main_v77 (idx_main_v78 (ridx_main_v79 (ix2 s o) q))) = ix3 (4 : Fin 8) o q :=
  funext fun a => Fin.ext (by
    have hq := q.isLt; have ho := o.isLt
    match a with
    | ⟨0, _⟩ => rfl
    | ⟨1, _⟩ => show (o.val * 16 + q.val) / 16 % 4096 = o.val; omega
    | ⟨2, _⟩ => show (o.val * 16 + q.val) % 16 = q.val; omega)

/-- The activations read inside the two contractions: entry `(s, v)`. -/
theorem idxX4 (s : Fin 8192) (o : Fin 4096) (q : Fin 16) (v : Fin 4096) :
    lidx_main_v72 (lidx_main_v79 (ix2 s o) q) v = ix2 s v :=
  funext fun a => Fin.ext (by match a with | ⟨0, _⟩ => rfl | ⟨1, _⟩ => rfl)

/-- The scaling, broadcast along the rank axis, read inside the second contraction: entry `s`. -/
theorem idxS4 (s : Fin 8192) (o : Fin 4096) (q : Fin 16) :
    idx_main_v73 (idx_main_v74 (lidx_main_v79 (ix2 s o) q)) = ix1 s :=
  funext fun a => Fin.ext (by match a with | ⟨0, _⟩ => rfl)

/-- The routing bit, broadcast along the output axis: entry `s`. -/
theorem idxT4 (s : Fin 8192) (o : Fin 4096) :
    idx_main_v82 (idx_main_call4_v1 (ix2 s o)) = ix1 s :=
  funext fun a => Fin.ext (by match a with | ⟨0, _⟩ => rfl)

/-- Adapter 4's low-rank product at `(s, o)`. -/
theorem lora4_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (s : Fin 8192) (o : Fin 4096) :
    val_main_v79 (F := Ideal) x0 x3 x4 x5 (ix2 s o)
      = Cert.Spec.lora (fun s v => x0 (ix2 s v)) (fun e q v => x3 (ix3 e q v)) (fun e o q => x4 (ix3 e o q))
          (fun s => x5 (ix1 s)) 4 s o := by
  rw [val_main_v79_apply]
  unfold Cert.Spec.lora
  refine Finset.sum_congr rfl fun q _ => ?_
  rw [val_main_v75_apply, val_main_v72_apply, val_main_v74_apply, val_main_v73_apply, val_main_v78_apply, val_main_v77_apply,
    val_main_v76_apply, idxB4, idxS4, Ideal.mulf_def]
  congr 2
  refine Finset.sum_congr rfl fun v _ => ?_
  rw [val_main_v71_apply, val_main_v70_apply, val_main_v69_apply, idxA4, idxX4]

/-- Adapter 4's routed update at `(s, o)`: the product where the token's index is 4, zero elsewhere. -/
theorem sel4_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v83 (F := Ideal) x0 x3 x4 x5 x6 (ix2 s o)
      = Cert.Spec.sel (fun s v => x0 (ix2 s v)) (fun e q v => x3 (ix3 e q v)) (fun e o q => x4 (ix3 e o q))
          (fun s => x5 (ix1 s)) (fun s => x6 (ix1 s)) 4 s o := by
  rw [val_main_v83_apply, val_main_call4_v1_apply, val_main_v82_apply, val_main_v81_apply, val_main_v80_apply, val_main_c_7_apply,
    val_main_call4_v2_apply, val_main_call4_v0_apply, val_main_cst_8_apply, idxT4, lora4_apply, select_cmpi_eq]
  unfold Cert.Spec.sel
  rw [Ideal.ofBits_def, Ideal.ofBits_zero_f32]
  rfl

/-! ### Adapter 5 -/

/-- Adapter 5's slice of `A`, reshaped and transposed, read inside the two contractions: entry `(5, q, v)`. -/
theorem idxA5 (s : Fin 8192) (o : Fin 4096) (q : Fin 16) (v : Fin 4096) :
    idx_main_v85 (idx_main_v86 (idx_main_v87 (ridx_main_v88 (lidx_main_v95 (ix2 s o) q) v))) = ix3 (5 : Fin 8) q v :=
  funext fun a => Fin.ext (by
    have hq := q.isLt; have hv := v.isLt
    match a with
    | ⟨0, _⟩ => rfl
    | ⟨1, _⟩ => show (q.val * 4096 + v.val) / 4096 % 16 = q.val; omega
    | ⟨2, _⟩ => show (q.val * 4096 + v.val) % 4096 = v.val; omega)

/-- Adapter 5's slice of `B`, reshaped and transposed, read inside the second contraction: entry `(5, o, q)`. -/
theorem idxB5 (s : Fin 8192) (o : Fin 4096) (q : Fin 16) :
    idx_main_v92 (idx_main_v93 (idx_main_v94 (ridx_main_v95 (ix2 s o) q))) = ix3 (5 : Fin 8) o q :=
  funext fun a => Fin.ext (by
    have hq := q.isLt; have ho := o.isLt
    match a with
    | ⟨0, _⟩ => rfl
    | ⟨1, _⟩ => show (o.val * 16 + q.val) / 16 % 4096 = o.val; omega
    | ⟨2, _⟩ => show (o.val * 16 + q.val) % 16 = q.val; omega)

/-- The activations read inside the two contractions: entry `(s, v)`. -/
theorem idxX5 (s : Fin 8192) (o : Fin 4096) (q : Fin 16) (v : Fin 4096) :
    lidx_main_v88 (lidx_main_v95 (ix2 s o) q) v = ix2 s v :=
  funext fun a => Fin.ext (by match a with | ⟨0, _⟩ => rfl | ⟨1, _⟩ => rfl)

/-- The scaling, broadcast along the rank axis, read inside the second contraction: entry `s`. -/
theorem idxS5 (s : Fin 8192) (o : Fin 4096) (q : Fin 16) :
    idx_main_v89 (idx_main_v90 (lidx_main_v95 (ix2 s o) q)) = ix1 s :=
  funext fun a => Fin.ext (by match a with | ⟨0, _⟩ => rfl)

/-- The routing bit, broadcast along the output axis: entry `s`. -/
theorem idxT5 (s : Fin 8192) (o : Fin 4096) :
    idx_main_v98 (idx_main_call5_v1 (ix2 s o)) = ix1 s :=
  funext fun a => Fin.ext (by match a with | ⟨0, _⟩ => rfl)

/-- Adapter 5's low-rank product at `(s, o)`. -/
theorem lora5_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (s : Fin 8192) (o : Fin 4096) :
    val_main_v95 (F := Ideal) x0 x3 x4 x5 (ix2 s o)
      = Cert.Spec.lora (fun s v => x0 (ix2 s v)) (fun e q v => x3 (ix3 e q v)) (fun e o q => x4 (ix3 e o q))
          (fun s => x5 (ix1 s)) 5 s o := by
  rw [val_main_v95_apply]
  unfold Cert.Spec.lora
  refine Finset.sum_congr rfl fun q _ => ?_
  rw [val_main_v91_apply, val_main_v88_apply, val_main_v90_apply, val_main_v89_apply, val_main_v94_apply, val_main_v93_apply,
    val_main_v92_apply, idxB5, idxS5, Ideal.mulf_def]
  congr 2
  refine Finset.sum_congr rfl fun v _ => ?_
  rw [val_main_v87_apply, val_main_v86_apply, val_main_v85_apply, idxA5, idxX5]

/-- Adapter 5's routed update at `(s, o)`: the product where the token's index is 5, zero elsewhere. -/
theorem sel5_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v99 (F := Ideal) x0 x3 x4 x5 x6 (ix2 s o)
      = Cert.Spec.sel (fun s v => x0 (ix2 s v)) (fun e q v => x3 (ix3 e q v)) (fun e o q => x4 (ix3 e o q))
          (fun s => x5 (ix1 s)) (fun s => x6 (ix1 s)) 5 s o := by
  rw [val_main_v99_apply, val_main_call5_v1_apply, val_main_v98_apply, val_main_v97_apply, val_main_v96_apply, val_main_c_9_apply,
    val_main_call5_v2_apply, val_main_call5_v0_apply, val_main_cst_10_apply, idxT5, lora5_apply, select_cmpi_eq]
  unfold Cert.Spec.sel
  rw [Ideal.ofBits_def, Ideal.ofBits_zero_f32]
  rfl

/-! ### Adapter 6 -/

/-- Adapter 6's slice of `A`, reshaped and transposed, read inside the two contractions: entry `(6, q, v)`. -/
theorem idxA6 (s : Fin 8192) (o : Fin 4096) (q : Fin 16) (v : Fin 4096) :
    idx_main_v101 (idx_main_v102 (idx_main_v103 (ridx_main_v104 (lidx_main_v111 (ix2 s o) q) v))) = ix3 (6 : Fin 8) q v :=
  funext fun a => Fin.ext (by
    have hq := q.isLt; have hv := v.isLt
    match a with
    | ⟨0, _⟩ => rfl
    | ⟨1, _⟩ => show (q.val * 4096 + v.val) / 4096 % 16 = q.val; omega
    | ⟨2, _⟩ => show (q.val * 4096 + v.val) % 4096 = v.val; omega)

/-- Adapter 6's slice of `B`, reshaped and transposed, read inside the second contraction: entry `(6, o, q)`. -/
theorem idxB6 (s : Fin 8192) (o : Fin 4096) (q : Fin 16) :
    idx_main_v108 (idx_main_v109 (idx_main_v110 (ridx_main_v111 (ix2 s o) q))) = ix3 (6 : Fin 8) o q :=
  funext fun a => Fin.ext (by
    have hq := q.isLt; have ho := o.isLt
    match a with
    | ⟨0, _⟩ => rfl
    | ⟨1, _⟩ => show (o.val * 16 + q.val) / 16 % 4096 = o.val; omega
    | ⟨2, _⟩ => show (o.val * 16 + q.val) % 16 = q.val; omega)

/-- The activations read inside the two contractions: entry `(s, v)`. -/
theorem idxX6 (s : Fin 8192) (o : Fin 4096) (q : Fin 16) (v : Fin 4096) :
    lidx_main_v104 (lidx_main_v111 (ix2 s o) q) v = ix2 s v :=
  funext fun a => Fin.ext (by match a with | ⟨0, _⟩ => rfl | ⟨1, _⟩ => rfl)

/-- The scaling, broadcast along the rank axis, read inside the second contraction: entry `s`. -/
theorem idxS6 (s : Fin 8192) (o : Fin 4096) (q : Fin 16) :
    idx_main_v105 (idx_main_v106 (lidx_main_v111 (ix2 s o) q)) = ix1 s :=
  funext fun a => Fin.ext (by match a with | ⟨0, _⟩ => rfl)

/-- The routing bit, broadcast along the output axis: entry `s`. -/
theorem idxT6 (s : Fin 8192) (o : Fin 4096) :
    idx_main_v114 (idx_main_call6_v1 (ix2 s o)) = ix1 s :=
  funext fun a => Fin.ext (by match a with | ⟨0, _⟩ => rfl)

/-- Adapter 6's low-rank product at `(s, o)`. -/
theorem lora6_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (s : Fin 8192) (o : Fin 4096) :
    val_main_v111 (F := Ideal) x0 x3 x4 x5 (ix2 s o)
      = Cert.Spec.lora (fun s v => x0 (ix2 s v)) (fun e q v => x3 (ix3 e q v)) (fun e o q => x4 (ix3 e o q))
          (fun s => x5 (ix1 s)) 6 s o := by
  rw [val_main_v111_apply]
  unfold Cert.Spec.lora
  refine Finset.sum_congr rfl fun q _ => ?_
  rw [val_main_v107_apply, val_main_v104_apply, val_main_v106_apply, val_main_v105_apply, val_main_v110_apply, val_main_v109_apply,
    val_main_v108_apply, idxB6, idxS6, Ideal.mulf_def]
  congr 2
  refine Finset.sum_congr rfl fun v _ => ?_
  rw [val_main_v103_apply, val_main_v102_apply, val_main_v101_apply, idxA6, idxX6]

/-- Adapter 6's routed update at `(s, o)`: the product where the token's index is 6, zero elsewhere. -/
theorem sel6_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v115 (F := Ideal) x0 x3 x4 x5 x6 (ix2 s o)
      = Cert.Spec.sel (fun s v => x0 (ix2 s v)) (fun e q v => x3 (ix3 e q v)) (fun e o q => x4 (ix3 e o q))
          (fun s => x5 (ix1 s)) (fun s => x6 (ix1 s)) 6 s o := by
  rw [val_main_v115_apply, val_main_call6_v1_apply, val_main_v114_apply, val_main_v113_apply, val_main_v112_apply, val_main_c_11_apply,
    val_main_call6_v2_apply, val_main_call6_v0_apply, val_main_cst_12_apply, idxT6, lora6_apply, select_cmpi_eq]
  unfold Cert.Spec.sel
  rw [Ideal.ofBits_def, Ideal.ofBits_zero_f32]
  rfl

/-! ### Adapter 7 -/

/-- Adapter 7's slice of `A`, reshaped and transposed, read inside the two contractions: entry `(7, q, v)`. -/
theorem idxA7 (s : Fin 8192) (o : Fin 4096) (q : Fin 16) (v : Fin 4096) :
    idx_main_v117 (idx_main_v118 (idx_main_v119 (ridx_main_v120 (lidx_main_v127 (ix2 s o) q) v))) = ix3 (7 : Fin 8) q v :=
  funext fun a => Fin.ext (by
    have hq := q.isLt; have hv := v.isLt
    match a with
    | ⟨0, _⟩ => rfl
    | ⟨1, _⟩ => show (q.val * 4096 + v.val) / 4096 % 16 = q.val; omega
    | ⟨2, _⟩ => show (q.val * 4096 + v.val) % 4096 = v.val; omega)

/-- Adapter 7's slice of `B`, reshaped and transposed, read inside the second contraction: entry `(7, o, q)`. -/
theorem idxB7 (s : Fin 8192) (o : Fin 4096) (q : Fin 16) :
    idx_main_v124 (idx_main_v125 (idx_main_v126 (ridx_main_v127 (ix2 s o) q))) = ix3 (7 : Fin 8) o q :=
  funext fun a => Fin.ext (by
    have hq := q.isLt; have ho := o.isLt
    match a with
    | ⟨0, _⟩ => rfl
    | ⟨1, _⟩ => show (o.val * 16 + q.val) / 16 % 4096 = o.val; omega
    | ⟨2, _⟩ => show (o.val * 16 + q.val) % 16 = q.val; omega)

/-- The activations read inside the two contractions: entry `(s, v)`. -/
theorem idxX7 (s : Fin 8192) (o : Fin 4096) (q : Fin 16) (v : Fin 4096) :
    lidx_main_v120 (lidx_main_v127 (ix2 s o) q) v = ix2 s v :=
  funext fun a => Fin.ext (by match a with | ⟨0, _⟩ => rfl | ⟨1, _⟩ => rfl)

/-- The scaling, broadcast along the rank axis, read inside the second contraction: entry `s`. -/
theorem idxS7 (s : Fin 8192) (o : Fin 4096) (q : Fin 16) :
    idx_main_v121 (idx_main_v122 (lidx_main_v127 (ix2 s o) q)) = ix1 s :=
  funext fun a => Fin.ext (by match a with | ⟨0, _⟩ => rfl)

/-- The routing bit, broadcast along the output axis: entry `s`. -/
theorem idxT7 (s : Fin 8192) (o : Fin 4096) :
    idx_main_v130 (idx_main_call7_v1 (ix2 s o)) = ix1 s :=
  funext fun a => Fin.ext (by match a with | ⟨0, _⟩ => rfl)

/-- Adapter 7's low-rank product at `(s, o)`. -/
theorem lora7_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (s : Fin 8192) (o : Fin 4096) :
    val_main_v127 (F := Ideal) x0 x3 x4 x5 (ix2 s o)
      = Cert.Spec.lora (fun s v => x0 (ix2 s v)) (fun e q v => x3 (ix3 e q v)) (fun e o q => x4 (ix3 e o q))
          (fun s => x5 (ix1 s)) 7 s o := by
  rw [val_main_v127_apply]
  unfold Cert.Spec.lora
  refine Finset.sum_congr rfl fun q _ => ?_
  rw [val_main_v123_apply, val_main_v120_apply, val_main_v122_apply, val_main_v121_apply, val_main_v126_apply, val_main_v125_apply,
    val_main_v124_apply, idxB7, idxS7, Ideal.mulf_def]
  congr 2
  refine Finset.sum_congr rfl fun v _ => ?_
  rw [val_main_v119_apply, val_main_v118_apply, val_main_v117_apply, idxA7, idxX7]

/-- Adapter 7's routed update at `(s, o)`: the product where the token's index is 7, zero elsewhere. -/
theorem sel7_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v131 (F := Ideal) x0 x3 x4 x5 x6 (ix2 s o)
      = Cert.Spec.sel (fun s v => x0 (ix2 s v)) (fun e q v => x3 (ix3 e q v)) (fun e o q => x4 (ix3 e o q))
          (fun s => x5 (ix1 s)) (fun s => x6 (ix1 s)) 7 s o := by
  rw [val_main_v131_apply, val_main_call7_v1_apply, val_main_v130_apply, val_main_v129_apply, val_main_v128_apply, val_main_c_13_apply,
    val_main_call7_v2_apply, val_main_call7_v0_apply, val_main_cst_14_apply, idxT7, lora7_apply, select_cmpi_eq]
  unfold Cert.Spec.sel
  rw [Ideal.ofBits_def, Ideal.ofBits_zero_f32]
  rfl

/-! ### The routed updates added in order onto zero -/

/-- The zero the updates are added onto. -/
theorem zero_apply (i : S8192x4096.Idx) : val_main_v4 (F := Ideal) i = (0 : EReal) := by
  rw [val_main_v4_apply, val_main_cst_apply, Ideal.ofBits_def, Ideal.ofBits_zero_f32]

/-- The first 1 routed update at `(s, o)`. -/
theorem acc0_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v20 (F := Ideal) x0 x3 x4 x5 x6 (ix2 s o)
      = ((0 : EReal) + Cert.Spec.sel (fun s v => x0 (ix2 s v)) (fun e q v => x3 (ix3 e q v)) (fun e o q => x4 (ix3 e o q)) (fun s => x5 (ix1 s)) (fun s => x6 (ix1 s)) 0 s o) := by
  rw [val_main_v20_apply, zero_apply, sel0_apply, Ideal.addf_def]

/-- The first 2 routed updates at `(s, o)`. -/
theorem acc1_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v36 (F := Ideal) x0 x3 x4 x5 x6 (ix2 s o)
      = (((0 : EReal) + Cert.Spec.sel (fun s v => x0 (ix2 s v)) (fun e q v => x3 (ix3 e q v)) (fun e o q => x4 (ix3 e o q)) (fun s => x5 (ix1 s)) (fun s => x6 (ix1 s)) 0 s o) + Cert.Spec.sel (fun s v => x0 (ix2 s v)) (fun e q v => x3 (ix3 e q v)) (fun e o q => x4 (ix3 e o q)) (fun s => x5 (ix1 s)) (fun s => x6 (ix1 s)) 1 s o) := by
  rw [val_main_v36_apply, acc0_apply, sel1_apply, Ideal.addf_def]

/-- The first 3 routed updates at `(s, o)`. -/
theorem acc2_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v52 (F := Ideal) x0 x3 x4 x5 x6 (ix2 s o)
      = ((((0 : EReal) + Cert.Spec.sel (fun s v => x0 (ix2 s v)) (fun e q v => x3 (ix3 e q v)) (fun e o q => x4 (ix3 e o q)) (fun s => x5 (ix1 s)) (fun s => x6 (ix1 s)) 0 s o) + Cert.Spec.sel (fun s v => x0 (ix2 s v)) (fun e q v => x3 (ix3 e q v)) (fun e o q => x4 (ix3 e o q)) (fun s => x5 (ix1 s)) (fun s => x6 (ix1 s)) 1 s o) + Cert.Spec.sel (fun s v => x0 (ix2 s v)) (fun e q v => x3 (ix3 e q v)) (fun e o q => x4 (ix3 e o q)) (fun s => x5 (ix1 s)) (fun s => x6 (ix1 s)) 2 s o) := by
  rw [val_main_v52_apply, acc1_apply, sel2_apply, Ideal.addf_def]

/-- The first 4 routed updates at `(s, o)`. -/
theorem acc3_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v68 (F := Ideal) x0 x3 x4 x5 x6 (ix2 s o)
      = (((((0 : EReal) + Cert.Spec.sel (fun s v => x0 (ix2 s v)) (fun e q v => x3 (ix3 e q v)) (fun e o q => x4 (ix3 e o q)) (fun s => x5 (ix1 s)) (fun s => x6 (ix1 s)) 0 s o) + Cert.Spec.sel (fun s v => x0 (ix2 s v)) (fun e q v => x3 (ix3 e q v)) (fun e o q => x4 (ix3 e o q)) (fun s => x5 (ix1 s)) (fun s => x6 (ix1 s)) 1 s o) + Cert.Spec.sel (fun s v => x0 (ix2 s v)) (fun e q v => x3 (ix3 e q v)) (fun e o q => x4 (ix3 e o q)) (fun s => x5 (ix1 s)) (fun s => x6 (ix1 s)) 2 s o) + Cert.Spec.sel (fun s v => x0 (ix2 s v)) (fun e q v => x3 (ix3 e q v)) (fun e o q => x4 (ix3 e o q)) (fun s => x5 (ix1 s)) (fun s => x6 (ix1 s)) 3 s o) := by
  rw [val_main_v68_apply, acc2_apply, sel3_apply, Ideal.addf_def]

/-- The first 5 routed updates at `(s, o)`. -/
theorem acc4_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v84 (F := Ideal) x0 x3 x4 x5 x6 (ix2 s o)
      = ((((((0 : EReal) + Cert.Spec.sel (fun s v => x0 (ix2 s v)) (fun e q v => x3 (ix3 e q v)) (fun e o q => x4 (ix3 e o q)) (fun s => x5 (ix1 s)) (fun s => x6 (ix1 s)) 0 s o) + Cert.Spec.sel (fun s v => x0 (ix2 s v)) (fun e q v => x3 (ix3 e q v)) (fun e o q => x4 (ix3 e o q)) (fun s => x5 (ix1 s)) (fun s => x6 (ix1 s)) 1 s o) + Cert.Spec.sel (fun s v => x0 (ix2 s v)) (fun e q v => x3 (ix3 e q v)) (fun e o q => x4 (ix3 e o q)) (fun s => x5 (ix1 s)) (fun s => x6 (ix1 s)) 2 s o) + Cert.Spec.sel (fun s v => x0 (ix2 s v)) (fun e q v => x3 (ix3 e q v)) (fun e o q => x4 (ix3 e o q)) (fun s => x5 (ix1 s)) (fun s => x6 (ix1 s)) 3 s o) + Cert.Spec.sel (fun s v => x0 (ix2 s v)) (fun e q v => x3 (ix3 e q v)) (fun e o q => x4 (ix3 e o q)) (fun s => x5 (ix1 s)) (fun s => x6 (ix1 s)) 4 s o) := by
  rw [val_main_v84_apply, acc3_apply, sel4_apply, Ideal.addf_def]

/-- The first 6 routed updates at `(s, o)`. -/
theorem acc5_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v100 (F := Ideal) x0 x3 x4 x5 x6 (ix2 s o)
      = (((((((0 : EReal) + Cert.Spec.sel (fun s v => x0 (ix2 s v)) (fun e q v => x3 (ix3 e q v)) (fun e o q => x4 (ix3 e o q)) (fun s => x5 (ix1 s)) (fun s => x6 (ix1 s)) 0 s o) + Cert.Spec.sel (fun s v => x0 (ix2 s v)) (fun e q v => x3 (ix3 e q v)) (fun e o q => x4 (ix3 e o q)) (fun s => x5 (ix1 s)) (fun s => x6 (ix1 s)) 1 s o) + Cert.Spec.sel (fun s v => x0 (ix2 s v)) (fun e q v => x3 (ix3 e q v)) (fun e o q => x4 (ix3 e o q)) (fun s => x5 (ix1 s)) (fun s => x6 (ix1 s)) 2 s o) + Cert.Spec.sel (fun s v => x0 (ix2 s v)) (fun e q v => x3 (ix3 e q v)) (fun e o q => x4 (ix3 e o q)) (fun s => x5 (ix1 s)) (fun s => x6 (ix1 s)) 3 s o) + Cert.Spec.sel (fun s v => x0 (ix2 s v)) (fun e q v => x3 (ix3 e q v)) (fun e o q => x4 (ix3 e o q)) (fun s => x5 (ix1 s)) (fun s => x6 (ix1 s)) 4 s o) + Cert.Spec.sel (fun s v => x0 (ix2 s v)) (fun e q v => x3 (ix3 e q v)) (fun e o q => x4 (ix3 e o q)) (fun s => x5 (ix1 s)) (fun s => x6 (ix1 s)) 5 s o) := by
  rw [val_main_v100_apply, acc4_apply, sel5_apply, Ideal.addf_def]

/-- The first 7 routed updates at `(s, o)`. -/
theorem acc6_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v116 (F := Ideal) x0 x3 x4 x5 x6 (ix2 s o)
      = ((((((((0 : EReal) + Cert.Spec.sel (fun s v => x0 (ix2 s v)) (fun e q v => x3 (ix3 e q v)) (fun e o q => x4 (ix3 e o q)) (fun s => x5 (ix1 s)) (fun s => x6 (ix1 s)) 0 s o) + Cert.Spec.sel (fun s v => x0 (ix2 s v)) (fun e q v => x3 (ix3 e q v)) (fun e o q => x4 (ix3 e o q)) (fun s => x5 (ix1 s)) (fun s => x6 (ix1 s)) 1 s o) + Cert.Spec.sel (fun s v => x0 (ix2 s v)) (fun e q v => x3 (ix3 e q v)) (fun e o q => x4 (ix3 e o q)) (fun s => x5 (ix1 s)) (fun s => x6 (ix1 s)) 2 s o) + Cert.Spec.sel (fun s v => x0 (ix2 s v)) (fun e q v => x3 (ix3 e q v)) (fun e o q => x4 (ix3 e o q)) (fun s => x5 (ix1 s)) (fun s => x6 (ix1 s)) 3 s o) + Cert.Spec.sel (fun s v => x0 (ix2 s v)) (fun e q v => x3 (ix3 e q v)) (fun e o q => x4 (ix3 e o q)) (fun s => x5 (ix1 s)) (fun s => x6 (ix1 s)) 4 s o) + Cert.Spec.sel (fun s v => x0 (ix2 s v)) (fun e q v => x3 (ix3 e q v)) (fun e o q => x4 (ix3 e o q)) (fun s => x5 (ix1 s)) (fun s => x6 (ix1 s)) 5 s o) + Cert.Spec.sel (fun s v => x0 (ix2 s v)) (fun e q v => x3 (ix3 e q v)) (fun e o q => x4 (ix3 e o q)) (fun s => x5 (ix1 s)) (fun s => x6 (ix1 s)) 6 s o) := by
  rw [val_main_v116_apply, acc5_apply, sel6_apply, Ideal.addf_def]

/-- The first 8 routed updates at `(s, o)`. -/
theorem acc7_apply (x0 : (⟨S8192x4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v132 (F := Ideal) x0 x3 x4 x5 x6 (ix2 s o)
      = (((((((((0 : EReal) + Cert.Spec.sel (fun s v => x0 (ix2 s v)) (fun e q v => x3 (ix3 e q v)) (fun e o q => x4 (ix3 e o q)) (fun s => x5 (ix1 s)) (fun s => x6 (ix1 s)) 0 s o) + Cert.Spec.sel (fun s v => x0 (ix2 s v)) (fun e q v => x3 (ix3 e q v)) (fun e o q => x4 (ix3 e o q)) (fun s => x5 (ix1 s)) (fun s => x6 (ix1 s)) 1 s o) + Cert.Spec.sel (fun s v => x0 (ix2 s v)) (fun e q v => x3 (ix3 e q v)) (fun e o q => x4 (ix3 e o q)) (fun s => x5 (ix1 s)) (fun s => x6 (ix1 s)) 2 s o) + Cert.Spec.sel (fun s v => x0 (ix2 s v)) (fun e q v => x3 (ix3 e q v)) (fun e o q => x4 (ix3 e o q)) (fun s => x5 (ix1 s)) (fun s => x6 (ix1 s)) 3 s o) + Cert.Spec.sel (fun s v => x0 (ix2 s v)) (fun e q v => x3 (ix3 e q v)) (fun e o q => x4 (ix3 e o q)) (fun s => x5 (ix1 s)) (fun s => x6 (ix1 s)) 4 s o) + Cert.Spec.sel (fun s v => x0 (ix2 s v)) (fun e q v => x3 (ix3 e q v)) (fun e o q => x4 (ix3 e o q)) (fun s => x5 (ix1 s)) (fun s => x6 (ix1 s)) 5 s o) + Cert.Spec.sel (fun s v => x0 (ix2 s v)) (fun e q v => x3 (ix3 e q v)) (fun e o q => x4 (ix3 e o q)) (fun s => x5 (ix1 s)) (fun s => x6 (ix1 s)) 6 s o) + Cert.Spec.sel (fun s v => x0 (ix2 s v)) (fun e q v => x3 (ix3 e q v)) (fun e o q => x4 (ix3 e o q)) (fun s => x5 (ix1 s)) (fun s => x6 (ix1 s)) 7 s o) := by
  rw [val_main_v132_apply, acc6_apply, sel7_apply, Ideal.addf_def]

/-! ### The layer -/

/-- The reference's result at `(s, o)` is the textbook form. -/
theorem ref_apply (x0 : (⟨S8192x4096, .f32⟩ : BufTy).Contents (Elt Ideal)) (x1 : (⟨S4096x4096, .f32⟩ : BufTy).Contents (Elt Ideal)) (x2 : (⟨S4096, .f32⟩ : BufTy).Contents (Elt Ideal)) (x3 : (⟨S8x16x4096, .f32⟩ : BufTy).Contents (Elt Ideal)) (x4 : (⟨S8x4096x16, .f32⟩ : BufTy).Contents (Elt Ideal)) (x5 : (⟨S8192, .f32⟩ : BufTy).Contents (Elt Ideal)) (x6 : (⟨S8192, .i32⟩ : BufTy).Contents (Elt Ideal)) (s : Fin 8192) (o : Fin 4096) :
    val_main_v133 (F := Ideal) x0 x1 x2 x3 x4 x5 x6 (ix2 s o)
      = Cert.Spec.Gref (fun s v => x0 (ix2 s v)) (fun v o => x1 (ix2 v o)) (fun o => x2 (ix1 o)) (fun e q v => x3 (ix3 e q v)) (fun e o q => x4 (ix3 e o q)) (fun s => x5 (ix1 s)) (fun s => x6 (ix1 s)) s o := by
  rw [val_main_v133_apply, base_apply, acc7_apply, Ideal.addf_def]
  rfl

end Cert.ReferenceIdeal.RefValue

end
-- ==== Proof.LibSumBlocks.lean ====
/-
  A sum over `Fin n`, where n = a · b, regrouped as a sum over a blocks of b consecutive indices:
      Σ_{k < n} g k = Σ_{c < a} Σ_{d < b} g (c · b + d).
  It holds in every commutative additive monoid, so in particular for sums of extended reals, where no term needs to be finite.
-/
import Mathlib.Algebra.BigOperators.Fin

namespace Cert.Lib

/-- The k-th index of block c. -/
def blockIdx {a b n : ℕ} (h : a * b = n) (c : Fin a) (d : Fin b) : Fin n :=
  ⟨c.val * b + d.val, by
    have hc := c.isLt
    have hd := d.isLt
    calc c.val * b + d.val < c.val * b + b := Nat.add_lt_add_left hd _
      _ = (c.val + 1) * b := (Nat.succ_mul _ _).symm
      _ ≤ a * b := Nat.mul_le_mul_right _ hc
      _ = n := h⟩

@[simp] theorem blockIdx_val {a b n : ℕ} (h : a * b = n) (c : Fin a) (d : Fin b) : (blockIdx h c d).val = c.val * b + d.val := rfl

/-- A sum over `Fin (a * b)` is the sum over the a blocks of the sums over each block's b indices. -/
theorem sum_fin_blocks {M : Type*} [AddCommMonoid M] {a b n : ℕ} (h : a * b = n) (g : Fin n → M) :
    ∑ k : Fin n, g k = ∑ c : Fin a, ∑ d : Fin b, g (blockIdx h c d) := by
  subst h
  rw [← Fintype.sum_prod_type', ← finProdFinEquiv.sum_comp]
  refine Finset.sum_congr rfl fun p _ => congrArg g (Fin.ext ?_)
  show p.2.val + b * p.1.val = p.1.val * b + p.2.val
  rw [Nat.mul_comm, Nat.add_comm]

end Cert.Lib
-- ==== Proof.Algebra.lean ====
/-
  The fused form of the LoRA layer agrees with the textbook form at every entry, for all extended-real inputs.

  Only the commutative-monoid laws of addition, `0 + a = a`, and `a * 0 = 0 = 0 * a` (true also for infinite `a`)
  are used: a sum over 4096 indices is the sum of its four stretches of 1024, a sum over 128 indices is the sum over
  eight adapters of sums over sixteen ranks, and for an adapter the token is not routed to every term carries a
  factor zero.
-/
import proofs.«151416_j8899172237474_2_alg».proof.Proof.Spec
import proofs.«151416_j8899172237474_2_alg».proof.Proof.LibSumBlocks

noncomputable section

namespace Cert.Spec

open Cert.Lib

variable (x : Fin 8192 → Fin 4096 → EReal) (w : Fin 4096 → Fin 4096 → EReal) (bias : Fin 4096 → EReal)
  (A : Fin 8 → Fin 16 → Fin 4096 → EReal) (B : Fin 8 → Fin 4096 → Fin 16 → EReal)
  (scal : Fin 8192 → EReal) (tok : Fin 8192 → BitVec 32)

/-! ## The contraction over 4096 as four stretches of 1024 -/

/-- Column `u` of stretch `k` is index `u` of block `k`: `1024 k + u = k · 1024 + u`. -/
theorem col_eq_blockIdx (k : Fin 4) (u : Fin 1024) :
    col k u = blockIdx (show 4 * 1024 = 4096 from rfl) k u := by
  apply Fin.ext
  show 1024 * k.val + u.val = k.val * 1024 + u.val
  rw [Nat.mul_comm]

/-- The four stretches, added in order onto zero, make up the whole sum. -/
theorem sum_stretches (g : Fin 4096 → EReal) :
    (((0 + ∑ u : Fin 1024, g (col 0 u)) + ∑ u : Fin 1024, g (col 1 u)) + ∑ u : Fin 1024, g (col 2 u))
      + ∑ u : Fin 1024, g (col 3 u) = ∑ v : Fin 4096, g v := by
  rw [sum_fin_blocks (show 4 * 1024 = 4096 from rfl) g, Fin.sum_univ_four, zero_add]
  simp only [col_eq_blockIdx]

/-- The dense product is the full contraction. -/
theorem accBase_eq (s : Fin 8192) (o : Fin 4096) :
    accBase x w s o = ∑ v : Fin 4096, x s v * w v o :=
  sum_stretches (fun v => x s v * w v o)

/-- The rank-128 product is the full contraction against the side-by-side adapters. -/
theorem accA_eq (s : Fin 8192) (q : Fin 128) :
    accA x A s q = ∑ v : Fin 4096, x s v * Acomb A v q :=
  sum_stretches (fun v => x s v * Acomb A v q)

/-! ## Index `16 e + r` of the rank-128 intermediate belongs to adapter `e`, rank `r` -/

theorem block_div (e : Fin 8) (r : Fin 16) :
    (blockIdx (show 8 * 16 = 128 from rfl) e r).val / 16 = e.val := by
  rw [blockIdx_val]
  have := r.isLt
  omega

theorem block_mod (e : Fin 8) (r : Fin 16) :
    (blockIdx (show 8 * 16 = 128 from rfl) e r).val % 16 = r.val := by
  rw [blockIdx_val]
  have := r.isLt
  omega

theorem Acomb_block (v : Fin 4096) (e : Fin 8) (r : Fin 16) :
    Acomb A v (blockIdx (show 8 * 16 = 128 from rfl) e r) = A e r v := by
  unfold Acomb
  congr 2
  · exact block_div e r
  · exact block_mod e r

theorem Bcomb_block (o : Fin 4096) (e : Fin 8) (r : Fin 16) :
    Bcomb B (blockIdx (show 8 * 16 = 128 from rfl) e r) o = B e o r := by
  unfold Bcomb
  congr 2
  · exact block_div e r
  · exact block_mod e r

theorem fac_block (s : Fin 8192) (e : Fin 8) (r : Fin 16) :
    fac scal tok s (blockIdx (show 8 * 16 = 128 from rfl) e r)
      = if tok s = BitVec.ofNat 32 e.val then scal s else 0 := by
  unfold fac
  rw [block_div]

/-! ## One adapter's sixteen columns -/

/-- The sixteen columns of adapter `e` contribute its update if the token is routed to it, and zero otherwise
(each term then has the factor zero). -/
theorem inner_eq_sel (e : Fin 8) (s : Fin 8192) (o : Fin 4096) :
    (∑ r : Fin 16, (accA x A s (blockIdx (show 8 * 16 = 128 from rfl) e r)
        * fac scal tok s (blockIdx (show 8 * 16 = 128 from rfl) e r))
        * Bcomb B (blockIdx (show 8 * 16 = 128 from rfl) e r) o)
      = sel x A B scal tok e s o := by
  simp only [accA_eq, Acomb_block, Bcomb_block, fac_block]
  unfold sel
  by_cases hc : tok s = BitVec.ofNat 32 e.val
  · simp only [if_pos hc]
    rfl
  · simp only [if_neg hc, mul_zero, zero_mul, Finset.sum_const_zero]

/-- The rank-128 sum is the sum of the eight routed updates. -/
theorem sum128_eq (s : Fin 8192) (o : Fin 4096) :
    (∑ q : Fin 128, (accA x A s q * fac scal tok s q) * Bcomb B q o)
      = ∑ e : Fin 8, sel x A B scal tok e s o := by
  rw [sum_fin_blocks (show 8 * 16 = 128 from rfl)]
  exact Finset.sum_congr rfl fun e _ => inner_eq_sel x A B scal tok e s o

/-! ## The two forms agree -/

theorem Gker_eq_Gref (s : Fin 8192) (o : Fin 4096) :
    Gker x w bias A B scal tok s o = Gref x w bias A B scal tok s o := by
  unfold Gker Gref base
  rw [accBase_eq, sum128_eq, Fin.sum_univ_eight, zero_add]

end Cert.Spec

end
-- ==== Proof.lean ====
/-
  One LoRA linear layer with per-token adapter routing: a fused TPU kernel against its textbook reference.

  The kernel tiles the `[8192, 4096]` result into sixteen `2048 × 1024` blocks and cuts the contraction over 4096 into four
  stretches of 1024: grid point `(i, j, k)` adds stretch `k` of the dense product to an accumulator that is kept in scratch
  memory across the four points of a block; while `j = 0` it also accumulates the product of the activations with the
  eight adapters' `A` matrices laid side by side (`[4096, 128]`), and at `j = 0, k = 3` it keeps that rank-128
  intermediate times the routing factor (the token's scaling on the sixteen columns of the token's adapter, zero elsewhere)
  for the rest of the row tile; at `k = 3` the block is (dense product + bias) + that masked intermediate times the adapters'
  `B` matrices stacked (`[128, 4096]`). The reference computes the dense layer and then, adapter by adapter, the scaled
  low-rank update, kept by a select for the tokens routed to that adapter, and adds the eight of them.

  Frames (both kernel programs): which of `j = 0`, `k = 0`, `k = 3` hold at a point fixes which of the body's five guards
  fire, six cases in all; in each the body runs to the end on the buffers it touches, and the contents it leaves in the
  scratch buffers and in the output block are named functions of what it read. The region's invariant carries the three
  scratch buffers at these contents from point to point.
  Value: over the extended reals both programs compute the same entry. A sum over 4096 is the sum of its four stretches, a
  sum over 128 columns is the sum over eight adapters of sums over sixteen ranks, a zero factor annihilates any cofactor,
  and at most the token's own adapter contributes — only the commutative-monoid laws of + and the zero laws of · are used,
  so no input needs to be finite.
-/
import proofs.«151416_j8899172237474_2_alg».proof.Defs
import proofs.«151416_j8899172237474_2_alg».proof.Proof.Gen.Kernel
import proofs.«151416_j8899172237474_2_alg».proof.Proof.Gen.KernelIdeal
import proofs.«151416_j8899172237474_2_alg».proof.Proof.Gen.ReferenceIdeal
import proofs.«151416_j8899172237474_2_alg».proof.Proof.Gen.ReferenceIdeal.Run
import proofs.«151416_j8899172237474_2_alg».proof.Proof.Gen.ReferenceIdeal.Read
import proofs.«151416_j8899172237474_2_alg».proof.Proof.Gen.Pre_finite_inputs
import proofs.«151416_j8899172237474_2_alg».proof.Proof.K.FrameRun
import proofs.«151416_j8899172237474_2_alg».proof.Proof.KI.Final
import proofs.«151416_j8899172237474_2_alg».proof.Proof.KI.Blocks
import proofs.«151416_j8899172237474_2_alg».proof.Proof.RefRead
import proofs.«151416_j8899172237474_2_alg».proof.Proof.Algebra
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs to the end and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Every input block of the idealized kernel is the stated stretch of rows and columns of an argument array. -/
theorem blockReads (m : (ℓ : Loc Cert.KernelIdeal.nD Cert.KernelIdeal.τ Cert.KernelIdeal.sig) → Buf (Elt Ideal) ℓ) (c : Dev Cert.KernelIdeal.nD) :
    Cert.KernelIdeal.Val.BlockReads m c :=
  ⟨Cert.KernelIdeal.Val.bX_apply m c, Cert.KernelIdeal.Val.bW_apply m c, Cert.KernelIdeal.Val.bA_apply m c, Cert.KernelIdeal.Val.bB_apply m c,
    Cert.KernelIdeal.Val.bBias_apply m c, Cert.KernelIdeal.Val.bTok_apply m c, Cert.KernelIdeal.Val.bScal_apply m c⟩

/-- From arguments that agree the two idealized programs end with the same result: the kernel's is the fused form of the
    layer, the reference's the textbook form, and the two agree at every entry. -/
theorem algebraic : Cert.algebraic_KernelIdeal_ReferenceIdeal := by
  intro m ρ m' ρ' _ hagree
  refine ⟨fun c => Cert.KernelIdeal.Val.Gout m c, Cert.KernelIdeal.Val.run_value ρ (fun c => blockReads m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v133_eq]
  funext idx
  obtain ⟨s, o, rfl⟩ : ∃ (s : Fin 8192) (o : Fin 4096), idx = ix2 s o := ⟨idx 0, idx 1, eq_ix2 idx⟩
  rw [Cert.ReferenceIdeal.RefValue.ref_apply, (hagree c).1, (hagree c).2.1, (hagree c).2.2.1, (hagree c).2.2.2.1,
    (hagree c).2.2.2.2.1, (hagree c).2.2.2.2.2.1, (hagree c).2.2.2.2.2.2]
  show _ = Cert.Spec.Gker (Cert.KernelIdeal.Val.aX m c) (Cert.KernelIdeal.Val.aW m c) (Cert.KernelIdeal.Val.aBias m c)
    (Cert.KernelIdeal.Val.aA m c) (Cert.KernelIdeal.Val.aB m c) (Cert.KernelIdeal.Val.aScal m c) (Cert.KernelIdeal.Val.aTok m c) s o
  rw [Cert.Spec.Gker_eq_Gref]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
